-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x1024x512 : Shape := ⟨4, ![2, 8, 1024, 512]⟩
abbrev S512x512 : Shape := ⟨2, ![512, 512]⟩
abbrev S512 : Shape := ⟨1, ![512]⟩
abbrev S_ : Shape := ⟨0, ![]⟩

class Facts : Prop where
  bcast_S_S2x8x1024x512 : S_.BroadcastsInDim S2x8x1024x512 (![] : Fin 0 → Fin S2x8x1024x512.rank)
  reducesTo_S2x8x1024x512_S_d0_1_2_3 : S2x8x1024x512.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512x512 .f32) (main_arg8 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S2x8x1024x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) : IVec S_ 1 :=
  let main_v0 : FVec F S2x8x1024x512 .f32 := Host.absf main_arg0
  let main_cst : FVec F S_ .f32 := constant S_ .f32 0x7F800000#32
  let main_v1 : FVec F S2x8x1024x512 .f32 := broadcastInDim S2x8x1024x512 ![] bcast_S_S2x8x1024x512 main_cst
  let main_v2 : IVec S2x8x1024x512 1 := cmpf .olt main_v0 main_v1
  let main_c : IVec S_ 1 := constantI S_ 1 1#1
  let main_v3 : IVec S_ 1 := (fun x v => Host.reduce IntOp.andi x v reducesTo_S2x8x1024x512_S_d0_1_2_3 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_v13 main_v16
-- ==== Kernel.lean ====
abbrev S2x8x1024x512 : Shape := ⟨4, ![2, 8, 1024, 512]⟩
abbrev S512x512 : Shape := ⟨2, ![512, 512]⟩
abbrev S512 : Shape := ⟨1, ![512]⟩
abbrev S16x1024x512 : Shape := ⟨3, ![16, 1024, 512]⟩
abbrev S1x1024x512 : Shape := ⟨3, ![1, 1024, 512]⟩
abbrev S512x1024 : Shape := ⟨2, ![512, 1024]⟩
abbrev S1024x512 : Shape := ⟨2, ![1024, 512]⟩
abbrev S512x1 : Shape := ⟨2, ![512, 1]⟩
abbrev S64x1024 : Shape := ⟨2, ![64, 1024]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩
abbrev S1x512 : Shape := ⟨2, ![1, 512]⟩

abbrev nBuf : Space → Nat
  | .hbm => 17
  | .vmem => 16
  | .smem => 0
  | _ => 0

abbrev bufTy : (tb : Table) → Fin (tcTables nBuf tb) → BufTy
  | .hbm, ⟨0, _⟩ => ⟨S2x8x1024x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S16x1024x512, .f32⟩
  | .hbm, ⟨10, _⟩ => ⟨S512x512, .bf16⟩
  | .hbm, ⟨11, _⟩ => ⟨S512x512, .bf16⟩
  | .hbm, ⟨12, _⟩ => ⟨S512x512, .bf16⟩
  | .hbm, ⟨13, _⟩ => ⟨S512x512, .f32⟩
  | .hbm, ⟨14, _⟩ => ⟨S512x512, .bf16⟩
  | .hbm, ⟨15, _⟩ => ⟨S16x1024x512, .f32⟩
  | .hbm, ⟨16, _⟩ => ⟨S2x8x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S512x512, .bf16⟩
  | .local _ .vmem, ⟨3, _⟩ => ⟨S512, .f32⟩
  | .local _ .vmem, ⟨4, _⟩ => ⟨S512x512, .bf16⟩
  | .local _ .vmem, ⟨5, _⟩ => ⟨S512, .f32⟩
  | .local _ .vmem, ⟨6, _⟩ => ⟨S512x512, .bf16⟩
  | .local _ .vmem, ⟨7, _⟩ => ⟨S512, .f32⟩
  | .local _ .vmem, ⟨8, _⟩ => ⟨S512x512, .bf16⟩
  | .local _ .vmem, ⟨9, _⟩ => ⟨S512, .f32⟩
  | .local _ .vmem, ⟨10, _⟩ => ⟨S1x1024x512, .f32⟩
  | .local _ .vmem, ⟨11, _⟩ => ⟨S1x1024x512, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S2x8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c64_i32 : BitVec 32 := 64#32
  let v3 : BitVec 32 := Scalar.muli arg1 c64_i32
  v3
def k0_off1 (i : grid0.Coords) : Fin 2 → Nat :=
  let arg1 : BitVec 32 := BitVec.ofNat 32 (i 1).val
  let c64_i32 : BitVec 32 := 64#32
  let v3 : BitVec 32 := Scalar.muli arg1 c64_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_7 : BitVec 32 := 0#32
  let v31 : BitVec 1 := Scalar.cmpi .ne v30 c0_i32_7
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  shapeCasts_S2x8x1024x512_S16x1024x512 : S2x8x1024x512.ShapeCasts S16x1024x512
  bitsLt_bf16_f32 : FTy.bits .bf16 < FTy.bits .f32
  transposes_S512x512_S512x512_1_0 : S512x512.Transposes [1, 0] S512x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S512x1 : S512.ShapeCasts S512x1
  broadcasts_S512x1_S512x1024 : S512x1.Broadcasts S512x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  packedbf16_S512x1024_S512x1024_0_0 : (Rect.unit (s := S512x1024) ![0, 0] S512x1024.size inb_S512x1024_S512x1024_0_0).PackedRows (EltTy.packing .bf16)
  h_S64x1024 : 0 < S64x1024.numel
  transposes_S64x1024_p1_0_S1024x64 : S64x1024.Transposes [1, 0] S1024x64
  reduces_S1024x1024_S1024 : S1024x1024.Reduces [1] S1024
  shapeCasts_S1024_S1024x1 : S1024.ShapeCasts S1024x1
  broadcasts_S1024x1_S1024x1024 : S1024x1.Broadcasts S1024x1024
  shapeCasts_S64x1024_S64x1024 : S64x1024.ShapeCasts S64x1024
  transposes_S512x1024_p1_0_S1024x512 : S512x1024.Transposes [1, 0] S1024x512
  shapeCasts_S512_S1x512 : S512.ShapeCasts S1x512
  broadcasts_S1x512_S1024x512 : S1x512.Broadcasts S1024x512
  shapeCasts_S1024x512_S1x1024x512 : S1024x512.ShapeCasts S1x1024x512
  shapeCasts_S16x1024x512_S2x8x1024x512 : S16x1024x512.ShapeCasts S2x8x1024x512
  dot_S512x512_S1024x512_S512x1024_1_1_0_0_n_n_wf : DotDims.WF S512x512 S1024x512 S512x1024 [1] [1] [0] [0] [] []
  dot_S1024x64_S64x1024_S1024x1024_1_0_0_1_n_n_wf : DotDims.WF S1024x64 S64x1024 S1024x1024 [1] [0] [0] [1] [] []
  dot_S64x1024_S1024x1024_S64x1024_1_1_0_0_n_n_wf : DotDims.WF S64x1024 S1024x1024 S64x1024 [1] [1] [0] [0] [] []
  dot_S1024x512_S512x512_S1024x512_1_0_0_1_n_n_wf : DotDims.WF S1024x512 S512x512 S1024x512 [1] [0] [0] [1] [] []
  hrank0 : 0 < grid0.rank
  k0_mult1_dvd : ∀ i : grid0.Coords, 64 ∣ (k0_mult1 i).toNat
  k0_off1_inb : ∀ i : grid0.Coords, ∀ a, (k0_off1 i) a + S64x1024.size a ≤ S512x1024.size a
  k0_off1_packedbf16 : ∀ i : grid0.Coords, (Rect.unit (s := S512x1024) (k0_off1 i) S64x1024.size (k0_off1_inb i)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S16x1024x512.size a
  hwx0_0 : ∀ i : grid0.Coords, EltTy.bits .f32 = 32 ∨ (Rect.block (s := S16x1024x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x512.size a ≤ S16x1024x512.size a
  hwx0_9 : ∀ i : grid0.Coords, EltTy.bits .f32 = 32 ∨ (Rect.block (s := S16x1024x512) S1x1024x512.size (cc0_transform_9 i) (hinb0_9 i)).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S64x1024_S1024x1024_S64x1024_1_1_0_0_n_n : DotDims S64x1024 S1024x1024 S64x1024 where
  lhsContracting := [1]
  rhsContracting := [1]
  lhsNonContracting := [0]
  rhsNonContracting := [0]
  lhsBatch := []
  rhsBatch := []
  wf := dot_S64x1024_S1024x1024_S64x1024_1_1_0_0_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x1024x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S2x8x1024x512 : Shape := ⟨4, ![2, 8, 1024, 512]⟩
abbrev S512x512 : Shape := ⟨2, ![512, 512]⟩
abbrev S512 : Shape := ⟨1, ![512]⟩
abbrev S1x1x1x512 : Shape := ⟨4, ![1, 1, 1, 512]⟩
abbrev S2x8x1024x8x64 : Shape := ⟨5, ![2, 8, 1024, 8, 64]⟩
abbrev S2x8x8x1024x64 : Shape := ⟨5, ![2, 8, 8, 1024, 64]⟩
abbrev S2x8x8x1024x1024 : Shape := ⟨5, ![2, 8, 8, 1024, 1024]⟩
abbrev S_ : Shape := ⟨0, ![]⟩
abbrev S2x8x512 : Shape := ⟨3, ![2, 8, 512]⟩
abbrev S2x7x512 : Shape := ⟨3, ![2, 7, 512]⟩
abbrev S2x7 : Shape := ⟨2, ![2, 7]⟩
abbrev S2x1 : Shape := ⟨2, ![2, 1]⟩
abbrev S2x8 : Shape := ⟨2, ![2, 8]⟩
abbrev S2x8x1x1x1 : Shape := ⟨5, ![2, 8, 1, 1, 1]⟩
abbrev S2x8x8x1024 : Shape := ⟨4, ![2, 8, 8, 1024]⟩
abbrev S2x8x8x1024x1 : Shape := ⟨5, ![2, 8, 8, 1024, 1]⟩

abbrev nBuf : Space → Nat
  | .hbm => 73
  | .vmem => 0
  | .smem => 0
  | _ => 0

abbrev bufTy : (tb : Table) → Fin (tcTables nBuf tb) → BufTy
  | .hbm, ⟨0, _⟩ => ⟨S2x8x1024x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S2x8x1024x512, .f32⟩
  | .hbm, ⟨10, _⟩ => ⟨S1x1x1x512, .f32⟩
  | .hbm, ⟨11, _⟩ => ⟨S2x8x1024x512, .f32⟩
  | .hbm, ⟨12, _⟩ => ⟨S2x8x1024x512, .f32⟩
  | .hbm, ⟨13, _⟩ => ⟨S2x8x1024x8x64, .f32⟩
  | .hbm, ⟨14, _⟩ => ⟨S2x8x8x1024x64, .f32⟩
  | .hbm, ⟨15, _⟩ => ⟨S2x8x1024x512, .f32⟩
  | .hbm, ⟨16, _⟩ => ⟨S1x1x1x512, .f32⟩
  | .hbm, ⟨17, _⟩ => ⟨S2x8x1024x512, .f32⟩
  | .hbm, ⟨18, _⟩ => ⟨S2x8x1024x512, .f32⟩
  | .hbm, ⟨19, _⟩ => ⟨S2x8x1024x8x64, .f32⟩
  | .hbm, ⟨20, _⟩ => ⟨S2x8x8x1024x64, .f32⟩
  | .hbm, ⟨21, _⟩ => ⟨S2x8x1024x512, .f32⟩
  | .hbm, ⟨22, _⟩ => ⟨S1x1x1x512, .f32⟩
  | .hbm, ⟨23, _⟩ => ⟨S2x8x1024x512, .f32⟩
  | .hbm, ⟨24, _⟩ => ⟨S2x8x1024x512, .f32⟩
  | .hbm, ⟨25, _⟩ => ⟨S2x8x1024x8x64, .f32⟩
  | .hbm, ⟨26, _⟩ => ⟨S2x8x8x1024x64, .f32⟩
  | .hbm, ⟨27, _⟩ => ⟨S2x8x8x1024x1024, .f32⟩
  | .hbm, ⟨28, _⟩ => ⟨S_, .f32⟩
  | .hbm, ⟨29, _⟩ => ⟨S2x8x8x1024x1024, .f32⟩
  | .hbm, ⟨30, _⟩ => ⟨S2x8x8x1024x1024, .f32⟩
  | .hbm, ⟨31, _⟩ => ⟨S_, .f32⟩
  | .hbm, ⟨32, _⟩ => ⟨S2x8x512, .f32⟩
  | .hbm, ⟨33, _⟩ => ⟨S_, .f32⟩
  | .hbm, ⟨34, _⟩ => ⟨S2x8x512, .f32⟩
  | .hbm, ⟨35, _⟩ => ⟨S2x8x512, .f32⟩
  | .hbm, ⟨36, _⟩ => ⟨S2x7x512, .f32⟩
  | .hbm, ⟨37, _⟩ => ⟨S2x7x512, .f32⟩
  | .hbm, ⟨38, _⟩ => ⟨S2x7x512, .f32⟩
  | .hbm, ⟨39, _⟩ => ⟨S2x7x512, .f32⟩
  | .hbm, ⟨40, _⟩ => ⟨S_, .f32⟩
  | .hbm, ⟨41, _⟩ => ⟨S2x7, .f32⟩
  | .hbm, ⟨42, _⟩ => ⟨S2x1, .f32⟩
  | .hbm, ⟨43, _⟩ => ⟨S_, .f32⟩
  | .hbm, ⟨44, _⟩ => ⟨S2x1, .f32⟩
  | .hbm, ⟨45, _⟩ => ⟨S2x8, .f32⟩
  | .hbm, ⟨46, _⟩ => ⟨S2x8x1x1x1, .f32⟩
  | .hbm, ⟨47, _⟩ => ⟨S_, .f32⟩
  | .hbm, ⟨48, _⟩ => ⟨S2x8x1x1x1, .f32⟩
  | .hbm, ⟨49, _⟩ => ⟨S2x8x1x1x1, .f32⟩
  | .hbm, ⟨50, _⟩ => ⟨S2x8x8x1024x1024, .f32⟩
  | .hbm, ⟨51, _⟩ => ⟨S2x8x8x1024x1024, .f32⟩
  | .hbm, ⟨52, _⟩ => ⟨S_, .f32⟩
  | .hbm, ⟨53, _⟩ => ⟨S2x8x8x1024, .f32⟩
  | .hbm, ⟨54, _⟩ => ⟨S_, .f32⟩
  | .hbm, ⟨55, _⟩ => ⟨S2x8x8x1024, .f32⟩
  | .hbm, ⟨56, _⟩ => ⟨S2x8x8x1024, .f32⟩
  | .hbm, ⟨57, _⟩ => ⟨S2x8x8x1024x1, .f32⟩
  | .hbm, ⟨58, _⟩ => ⟨S2x8x8x1024x1024, .f32⟩
  | .hbm, ⟨59, _⟩ => ⟨S2x8x8x1024x1024, .f32⟩
  | .hbm, ⟨60, _⟩ => ⟨S2x8x8x1024x1024, .f32⟩
  | .hbm, ⟨61, _⟩ => ⟨S_, .f32⟩
  | .hbm, ⟨62, _⟩ => ⟨S2x8x8x1024, .f32⟩
  | .hbm, ⟨63, _⟩ => ⟨S2x8x8x1024x1, .f32⟩
  | .hbm, ⟨64, _⟩ => ⟨S2x8x8x1024x1024, .f32⟩
  | .hbm, ⟨65, _⟩ => ⟨S2x8x8x1024x1024, .f32⟩
  | .hbm, ⟨66, _⟩ => ⟨S2x8x8x1024x64, .f32⟩
  | .hbm, ⟨67, _⟩ => ⟨S2x8x1024x8x64, .f32⟩
  | .hbm, ⟨68, _⟩ => ⟨S2x8x1024x512, .f32⟩
  | .hbm, ⟨69, _⟩ => ⟨S2x8x1024x512, .f32⟩
  | .hbm, ⟨70, _⟩ => ⟨S1x1x1x512, .f32⟩
  | .hbm, ⟨71, _⟩ => ⟨S2x8x1024x512, .f32⟩
  | .hbm, ⟨72, _⟩ => ⟨S2x8x1024x512, .f32⟩
  | _, _ => ⟨S2x8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]

class Facts₀ : Prop where
  bcast_S512_S1x1x1x512_3 : S512.BroadcastsInDim S1x1x1x512 (![3] : Fin 1 → Fin S1x1x1x512.rank)
  bcast_S1x1x1x512_S2x8x1024x512_0_1_2_3 : S1x1x1x512.BroadcastsInDim S2x8x1024x512 (![0, 1, 2, 3] : Fin 4 → Fin S2x8x1024x512.rank)
  shapeCasts_S2x8x1024x512_S2x8x1024x8x64 : S2x8x1024x512.ShapeCasts S2x8x1024x8x64
  transposes_S2x8x1024x8x64_S2x8x8x1024x64_0_1_3_2_4 : S2x8x1024x8x64.Transposes [0, 1, 3, 2, 4] S2x8x8x1024x64
  bcast_S_S2x8x8x1024x1024 : S_.BroadcastsInDim S2x8x8x1024x1024 (![] : Fin 0 → Fin S2x8x8x1024x1024.rank)
  reducesTo_S2x8x1024x512_S2x8x512_d2 : S2x8x1024x512.ReducesTo [2] S2x8x512
  h_S_ : 0 < S_.numel
  bcast_S_S2x8x512 : S_.BroadcastsInDim S2x8x512 (![] : Fin 0 → Fin S2x8x512.rank)
  slices_S2x8x512_S2x7x512_0_1_0 : S2x8x512.Slices ![0, 1, 0] S2x7x512
  slices_S2x8x512_S2x7x512_0_0_0 : S2x8x512.Slices ![0, 0, 0] S2x7x512
  reducesTo_S2x7x512_S2x7_d2 : S2x7x512.ReducesTo [2] S2x7
  slices_S2x7_S2x1_0_0 : S2x7.Slices ![0, 0] S2x1
  bcast_S_S2x1 : S_.BroadcastsInDim S2x1 (![] : Fin 0 → Fin S2x1.rank)
  concatenates_S2x1_S2x7_S2x8_d1 : Shape.Concatenates [S2x1, S2x7] S2x8 1
  bcast_S2x8_S2x8x1x1x1_0_1 : S2x8.BroadcastsInDim S2x8x1x1x1 (![0, 1] : Fin 2 → Fin S2x8x1x1x1.rank)
  bcast_S_S2x8x1x1x1 : S_.BroadcastsInDim S2x8x1x1x1 (![] : Fin 0 → Fin S2x8x1x1x1.rank)
  bcast_S2x8x1x1x1_S2x8x8x1024x1024_0_1_2_3_4 : S2x8x1x1x1.BroadcastsInDim S2x8x8x1024x1024 (![0, 1, 2, 3, 4] : Fin 5 → Fin S2x8x8x1024x1024.rank)
  reducesTo_S2x8x8x1024x1024_S2x8x8x1024_d4 : S2x8x8x1024x1024.ReducesTo [4] S2x8x8x1024
  bcast_S_S2x8x8x1024 : S_.BroadcastsInDim S2x8x8x1024 (![] : Fin 0 → Fin S2x8x8x1024.rank)
  bcast_S2x8x8x1024_S2x8x8x1024x1_0_1_2_3 : S2x8x8x1024.BroadcastsInDim S2x8x8x1024x1 (![0, 1, 2, 3] : Fin 4 → Fin S2x8x8x1024x1.rank)
  bcast_S2x8x8x1024x1_S2x8x8x1024x1024_0_1_2_3_4 : S2x8x8x1024x1.BroadcastsInDim S2x8x8x1024x1024 (![0, 1, 2, 3, 4] : Fin 5 → Fin S2x8x8x1024x1024.rank)
  transposes_S2x8x8x1024x64_S2x8x1024x8x64_0_1_3_2_4 : S2x8x8x1024x64.Transposes [0, 1, 3, 2, 4] S2x8x1024x8x64
  shapeCasts_S2x8x1024x8x64_S2x8x1024x512 : S2x8x1024x8x64.ShapeCasts S2x8x1024x512
  dot_S2x8x1024x512_S512x512_S2x8x1024x512_3_1_012_0_n_n_wf : DotDims.WF S2x8x1024x512 S512x512 S2x8x1024x512 [3] [1] [0, 1, 2] [0] [] []
  dot_S2x8x8x1024x64_S2x8x8x1024x64_S2x8x8x1024x1024_4_4_3_3_012_012_wf : DotDims.WF S2x8x8x1024x64 S2x8x8x1024x64 S2x8x8x1024x1024 [4] [4] [3] [3] [0, 1, 2] [0, 1, 2]
  dot_S2x8x8x1024x1024_S2x8x8x1024x64_S2x8x8x1024x64_4_3_3_4_012_012_wf : DotDims.WF S2x8x8x1024x1024 S2x8x8x1024x64 S2x8x8x1024x64 [4] [3] [3] [4] [0, 1, 2] [0, 1, 2]

variable [Facts₀]

def dot_S2x8x1024x512_S512x512_S2x8x1024x512_3_1_012_0_n_n : DotDims S2x8x1024x512 S512x512 S2x8x1024x512 where
  lhsContracting := [3]
  rhsContracting := [1]
  lhsNonContracting := [0, 1, 2]
  rhsNonContracting := [0]
  lhsBatch := []
  rhsBatch := []
  wf := dot_S2x8x1024x512_S512x512_S2x8x1024x512_3_1_012_0_n_n_wf
def dot_S2x8x8x1024x64_S2x8x8x1024x64_S2x8x8x1024x1024_4_4_3_3_012_012 : DotDims S2x8x8x1024x64 S2x8x8x1024x64 S2x8x8x1024x1024 where
  lhsContracting := [4]
  rhsContracting := [4]
  lhsNonContracting := [3]
  rhsNonContracting := [3]
  lhsBatch := [0, 1, 2]
  rhsBatch := [0, 1, 2]
  wf := dot_S2x8x8x1024x64_S2x8x8x1024x64_S2x8x8x1024x1024_4_4_3_3_012_012_wf
def dot_S2x8x8x1024x1024_S2x8x8x1024x64_S2x8x8x1024x64_4_3_3_4_012_012 : DotDims S2x8x8x1024x1024 S2x8x8x1024x64 S2x8x8x1024x64 where
  lhsContracting := [4]
  rhsContracting := [3]
  lhsNonContracting := [3]
  rhsNonContracting := [4]
  lhsBatch := [0, 1, 2]
  rhsBatch := [0, 1, 2]
  wf := dot_S2x8x8x1024x1024_S2x8x8x1024x64_S2x8x8x1024x64_4_3_3_4_012_012_wf

class Facts : Prop extends Facts₀ where

variable [Facts]
-- ==== Proof.FrameB.Cases.lean ====
/-
  The attention kernel's body at one grid point (bt, h): which of its two conditionals run there, the band of rows the
  head works on, and what a buffer of 512 rows holds after one band of 64 rows is overwritten.
-/
import proofs.«154566_j41051297415246_2_alg».proof.Proof.Gen.Kernel.Frame
import proofs.«154566_j41051297415246_2_alg».proof.Proof.Gen.Kernel.Skeleton
import Idealize.ShloMosaic.Lib.WritesUnit
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The projections are computed exactly at head 0. -/
abbrev atFirstHead (i : grid0.Coords) : Prop := (Scalar.cmpi .ne (Scalar.extui (Scalar.cmpi .eq (BitVec.ofNat 32 (i 1).val) 0#32)) 0#32) = 1#1
/-- The output projection is computed exactly at the last head. -/
abbrev atLastHead (i : grid0.Coords) : Prop := k0_cond2 i = 1#1

/-- Head 0 is the points that are multiples of 8 in row-major order of the grid (bt, h). -/
theorem atFirstHead_iff : ∀ t : Fin cfg0.N, atFirstHead (grid0.coords t) ↔ t.val % 8 = 0 :=
  (by decide +kernel : ∀ t : Fin grid0.N, atFirstHead (grid0.coords t) ↔ t.val % 8 = 0)
/-- Head 7 is the points that are 7 modulo 8. -/
theorem atLastHead_iff : ∀ t : Fin cfg0.N, atLastHead (grid0.coords t) ↔ t.val % 8 = 7 :=
  (by decide +kernel : ∀ t : Fin grid0.N, atLastHead (grid0.coords t) ↔ t.val % 8 = 7)

/-- A list of zero offsets is the zero function (rank 1, 2, 3): whole-buffer loads and stores are spelt with such lists. -/
theorem zeros1 : (![0] : Fin 1 → ℕ) = fun _ => 0 := by funext a; match a with | ⟨0, _⟩ => rfl
theorem zeros2 : (![0, 0] : Fin 2 → ℕ) = fun _ => 0 := by funext a; match a with | ⟨0, _⟩ => rfl | ⟨1, _⟩ => rfl
theorem zeros3 : (![0, 0, 0] : Fin 3 → ℕ) = fun _ => 0 := by funext a; match a with | ⟨0, _⟩ => rfl | ⟨1, _⟩ => rfl | ⟨2, _⟩ => rfl

/-- A buffer read back after ONE store through its whole-shape rectangle at zero offsets holds the stored value,
    whatever it held before. -/
theorem read_whole {S : Shape} {e : EltTy} (v : View sig .tc .vmem S e) (f : v.ty.Contents (Elt F))
    {off : Fin S.rank → ℕ} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-- The first of the 64 rows head `i 1` works on. -/
def rowOff (i : grid0.Coords) : ℕ := k0_off1 i 0

/-- The band starts at row `rowOff i`, column 0. -/
theorem off_eq (i : grid0.Coords) : k0_off1 i = ![rowOff i, 0] := by
  funext a; match a with | ⟨0, _⟩ => rfl | ⟨1, _⟩ => rfl

/-- Head h's band starts at row 64 h. -/
theorem rowOff_eq : ∀ t : Fin cfg0.N, rowOff (grid0.coords t) = 64 * (t.val % 8) :=
  (by decide +kernel : ∀ t : Fin grid0.N, rowOff (grid0.coords t) = 64 * (t.val % 8))

/-- Rows `[rowOff i, rowOff i + 64)` of a buffer of 512 rows: the band of head `i 1`. -/
def band (i : grid0.Coords) (a : Vec F S512x1024 .bf16) : Vec F S64x1024 .bf16 :=
  View.ld a (Rect.unit (s := S512x1024) (k0_off1 i) S64x1024.size (k0_off1_inb i))

/-- A buffer of 512 rows after the band of head `i 1` is overwritten with `w`: `w` on the band, `z` elsewhere. -/
def putBand (i : grid0.Coords) (w : Vec F S64x1024 .bf16) (z : Vec F S512x1024 .bf16) : Vec F S512x1024 .bf16 := fun y =>
  if h : rowOff i ≤ (y (0 : Fin 2)).val ∧ (y (0 : Fin 2)).val < rowOff i + 64 then
    w (Rect.unitLocal (s := S512x1024) (off := ![rowOff i, 0]) (size := S64x1024.size) y (Rect.unit_rows_mem y rfl rfl h))
  else z y

/-- Reading back a whole buffer that held `z` after one store of `w` into the band of head `i 1`. -/
theorem read_putBand (i : grid0.Coords) (a : Memref sig .tc .vmem S512x1024 .bf16) (ha : a.IsWhole)
    (w : Vec F S64x1024 .bf16) (z : Vec F S512x1024 .bf16) :
    a.view.read (Elt F) (a.view.writes (Elt F) (ha.unread z)
      [(⟨Rect.unit (s := S512x1024) (k0_off1 i) S64x1024.size (k0_off1_inb i), w⟩ : View.Piece (Elt F) S512x1024 .bf16)])
      = putBand i w z := by
  funext y
  rw [View.read_writes_cons_rows (W := 64) a.view (ha.unread z) (k0_off1_inb i) w [] y (off_eq i)
    (rfl : S64x1024.size (0 : Fin 2) = 64) (rfl : S64x1024.size (1 : Fin 2) = (![512, 1024] : Fin 2 → ℕ) (1 : Fin 2))]
  unfold putBand
  by_cases h : rowOff i ≤ (y (0 : Fin 2)).val ∧ (y (0 : Fin 2)).val < rowOff i + 64
  · rw [dif_pos h, dif_pos h]
  · rw [dif_neg h, dif_neg h]
    exact congrFun (ha.read_unread z) y

/-! The same read-backs with the sizes spelt as literal lists, as a run of the body leaves them. -/

theorem read_whole2 (a : Memref sig .tc .vmem S512x1024 .bf16) (f : a.view.ty.Contents (Elt F))
    (inb : ∀ d : Fin S512x1024.rank, (![0, 0] : Fin 2 → ℕ) d + (![512, 1024] : Fin 2 → ℕ) d ≤ S512x1024.size d) (w : S512x1024.Idx → Elt F .bf16) :
    a.view.read (Elt F) (a.view.writes (Elt F) f
      [(⟨Rect.unit (s := S512x1024) ![0, 0] ![512, 1024] inb, w⟩ : View.Piece (Elt F) S512x1024 .bf16)]) = w :=
  read_whole (S := S512x1024) a.view f zeros2 inb w

theorem read_whole3 (a : Memref sig .tc .vmem S1x1024x512 .f32) (f : a.view.ty.Contents (Elt F))
    (inb : ∀ d : Fin S1x1024x512.rank, (![0, 0, 0] : Fin 3 → ℕ) d + (![1, 1024, 512] : Fin 3 → ℕ) d ≤ S1x1024x512.size d) (w : S1x1024x512.Idx → Elt F .f32) :
    a.view.read (Elt F) (a.view.writes (Elt F) f
      [(⟨Rect.unit (s := S1x1024x512) ![0, 0, 0] ![1, 1024, 512] inb, w⟩ : View.Piece (Elt F) S1x1024x512 .f32)]) = w :=
  read_whole (S := S1x1024x512) a.view f zeros3 inb w

theorem read_putBand' (i : grid0.Coords) (a : Memref sig .tc .vmem S512x1024 .bf16) (ha : a.IsWhole)
    (inb : ∀ d : Fin S512x1024.rank, k0_off1 i d + (![64, 1024] : Fin 2 → ℕ) d ≤ S512x1024.size d)
    (w : Vec F S64x1024 .bf16) (z : Vec F S512x1024 .bf16) :
    a.view.read (Elt F) (a.view.writes (Elt F) (ha.unread z)
      [(⟨Rect.unit (s := S512x1024) (k0_off1 i) ![64, 1024] inb, w⟩ : View.Piece (Elt F) S512x1024 .bf16)])
      = putBand i w z :=
  read_putBand i a ha w z

/-- The band of head `i 1` with the sizes spelt as a literal list. -/
theorem ld_band (i : grid0.Coords) (a : Vec F S512x1024 .bf16)
    (inb : ∀ d : Fin S512x1024.rank, k0_off1 i d + (![64, 1024] : Fin 2 → ℕ) d ≤ S512x1024.size d) :
    View.ld a (Rect.unit (s := S512x1024) (k0_off1 i) ![64, 1024] inb) = band i a := rfl

end Cert.Kernel.Body

end
-- ==== Proof.FrameB.Data.lean ====
/-
  What the four scratch buffers and the output block hold after each grid point (bt, h), in closed form in the point.
  The projections depend on the block of tokens bt alone, so they are named after the head-0 point of the same bt;
  the attention scratch is filled one band of 64 rows per head, so after head h its rows below 64 (h + 1) are the
  attention outputs of heads 0 … h and the rows above are whatever they were.
-/
import proofs.«154566_j41051297415246_2_alg».proof.Proof.FrameB.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The grid has 16 · 8 points. -/
theorem val_lt (t : Fin cfg0.N) : t.val < 128 := lt_of_lt_of_eq t.isLt (show cfg0.N = 128 from N_0)

/-- The head-0 point of `t`'s block of tokens. -/
def base (t : Fin cfg0.N) : Fin cfg0.N :=
  ⟨8 * (t.val / 8), Nat.lt_of_lt_of_eq (by have := val_lt t; omega : 8 * (t.val / 8) < 128) (show (128 : ℕ) = cfg0.N from N_0.symm)⟩

/-- The point of `t`'s block of tokens whose head owns row `y 0` of a buffer of 512 rows. -/
def pointOf (t : Fin cfg0.N) (y : S512x1024.Idx) : Fin cfg0.N :=
  ⟨8 * (t.val / 8) + (y (0 : Fin 2)).val / 64, Nat.lt_of_lt_of_eq
    (by have := val_lt t; have : (y (0 : Fin 2)).val < 512 := (y (0 : Fin 2)).isLt; omega : 8 * (t.val / 8) + (y (0 : Fin 2)).val / 64 < 128)
    (show (128 : ℕ) = cfg0.N from N_0.symm)⟩

/-- Row `y 0` within its head's band, and the column: the position of `y` within the 64 rows starting at 64 ⌊y 0 / 64⌋. -/
def localOf (y : S512x1024.Idx) : S64x1024.Idx :=
  Rect.unitLocal (s := S512x1024) (off := ![64 * ((y (0 : Fin 2)).val / 64), 0]) (size := S64x1024.size) y
    (Rect.unit_rows_mem (W := 64) y (rfl : S64x1024.size (0 : Fin 2) = 64)
      (rfl : S64x1024.size (1 : Fin 2) = (![512, 1024] : Fin 2 → ℕ) (1 : Fin 2)) ⟨by omega, by omega⟩)

/-- The position within a band does not depend on how the band's first row is written. -/
theorem unitLocal_congr (y : S512x1024.Idx) {o o' : ℕ} (e : o = o')
    (h : ∀ a : Fin 2, (![o, 0] : Fin 2 → ℕ) a ≤ (y a).val ∧ (y a).val < (![o, 0] : Fin 2 → ℕ) a + S64x1024.size a)
    (h' : ∀ a : Fin 2, (![o', 0] : Fin 2 → ℕ) a ≤ (y a).val ∧ (y a).val < (![o', 0] : Fin 2 → ℕ) a + S64x1024.size a) :
    Rect.unitLocal (s := S512x1024) (off := ![o, 0]) (size := S64x1024.size) y h
      = Rect.unitLocal (s := S512x1024) (off := ![o', 0]) (size := S64x1024.size) y h' := by
  subst e; rfl

/-- The scaled query projection of `t`'s block of tokens, as a [512, 1024] buffer. -/
def QAt (c : Dev nD) (t : Fin cfg0.N) : Vec F S512x1024 .bf16 :=
  k0_pay5 (iblk m c 0 (base t)) (iblk m c 1 (base t)) (iblk m c 2 (base t))
/-- The key projection. -/
def KAt (c : Dev nD) (t : Fin cfg0.N) : Vec F S512x1024 .bf16 :=
  k0_pay6 (iblk m c 0 (base t)) (iblk m c 3 (base t)) (iblk m c 4 (base t))
/-- The value projection. -/
def VAt (c : Dev nD) (t : Fin cfg0.N) : Vec F S512x1024 .bf16 :=
  k0_pay1 (k0_pay7 (iblk m c 0 (base t)) (iblk m c 5 (base t)) (iblk m c 6 (base t)))

/-- The attention output of the head of point `tp`: 64 rows. -/
def zRow (c : Dev nD) (tp : Fin cfg0.N) : Vec F S64x1024 .bf16 :=
  k0_pay2 (band (grid0.coords tp) (QAt m c tp)) (band (grid0.coords tp) (KAt m c tp)) (band (grid0.coords tp) (VAt m c tp))

/-- All eight heads' attention outputs of `t`'s block of tokens, as one [512, 1024] buffer. -/
def Zfull (c : Dev nD) (t : Fin cfg0.N) : Vec F S512x1024 .bf16 := fun y => zRow m c (pointOf t y) (localOf y)

/-- After point `t` (head h = t mod 8) the attention scratch agrees with `Zfull` on its rows below 64 (h + 1). -/
def ZInv (c : Dev nD) (t : Fin cfg0.N) (z : Vec F S512x1024 .bf16) : Prop :=
  ∀ y : S512x1024.Idx, (y (0 : Fin 2)).val < 64 * (t.val % 8 + 1) → z y = Zfull m c t y

/-- Two points of one block of tokens have the same head-0 point. -/
theorem base_eq_of_div {t t' : Fin cfg0.N} (h : t.val / 8 = t'.val / 8) : base t = base t' :=
  Fin.ext (by show 8 * (t.val / 8) = 8 * (t'.val / 8); rw [h])

theorem QAt_congr (c : Dev nD) {t t' : Fin cfg0.N} (h : t.val / 8 = t'.val / 8) : QAt m c t = QAt m c t' := by
  unfold QAt; rw [base_eq_of_div h]
theorem KAt_congr (c : Dev nD) {t t' : Fin cfg0.N} (h : t.val / 8 = t'.val / 8) : KAt m c t = KAt m c t' := by
  unfold KAt; rw [base_eq_of_div h]
theorem VAt_congr (c : Dev nD) {t t' : Fin cfg0.N} (h : t.val / 8 = t'.val / 8) : VAt m c t = VAt m c t' := by
  unfold VAt; rw [base_eq_of_div h]

theorem pointOf_congr {t t' : Fin cfg0.N} (h : t.val / 8 = t'.val / 8) (y : S512x1024.Idx) : pointOf t y = pointOf t' y :=
  Fin.ext (by show 8 * (t.val / 8) + _ = 8 * (t'.val / 8) + _; rw [h])

theorem Zfull_congr (c : Dev nD) {t t' : Fin cfg0.N} (h : t.val / 8 = t'.val / 8) : Zfull m c t = Zfull m c t' := by
  funext y; unfold Zfull; rw [pointOf_congr h y]

/-- At a head-0 point the head-0 point is the point itself. -/
theorem base_self (t : Fin cfg0.N) (h0 : t.val % 8 = 0) : base t = t :=
  Fin.ext (by show 8 * (t.val / 8) = t.val; omega)

/-- Overwriting the band of `t`'s head with that head's attention output extends the invariant by one head: at head 0
    from anything, -/
theorem ZInv_first (c : Dev nD) (t : Fin cfg0.N) (h0 : t.val % 8 = 0) (z : Vec F S512x1024 .bf16) :
    ZInv m c t (putBand (grid0.coords t) (zRow m c t) z) := by
  intro y hy
  have ho := rowOff_eq t
  unfold putBand
  have hb : rowOff (grid0.coords t) ≤ (y (0 : Fin 2)).val ∧ (y (0 : Fin 2)).val < rowOff (grid0.coords t) + 64 := by
    rw [ho]; omega
  rw [dif_pos hb]
  unfold Zfull
  have e1 : pointOf t y = t := Fin.ext (by show 8 * (t.val / 8) + (y (0 : Fin 2)).val / 64 = t.val; omega)
  rw [e1]
  exact congrArg (zRow m c t) (unitLocal_congr y (by rw [ho]; omega) _ _)

/-- and at a later head from the invariant after the head before. -/
theorem ZInv_step (c : Dev nD) (t : Fin cfg0.N) (h0 : ¬t.val % 8 = 0) (z : Vec F S512x1024 .bf16)
    (hz : ZInv m c ⟨t.val - 1, Nat.lt_of_le_of_lt (Nat.sub_le _ _) t.isLt⟩ z) :
    ZInv m c t (putBand (grid0.coords t) (zRow m c t) z) := by
  intro y hy
  have ho := rowOff_eq t
  unfold putBand
  by_cases hb : rowOff (grid0.coords t) ≤ (y (0 : Fin 2)).val ∧ (y (0 : Fin 2)).val < rowOff (grid0.coords t) + 64
  · rw [dif_pos hb]
    unfold Zfull
    have e1 : pointOf t y = t := Fin.ext (by
      show 8 * (t.val / 8) + (y (0 : Fin 2)).val / 64 = t.val
      rw [ho] at hb; omega)
    rw [e1]
    exact congrArg (zRow m c t) (unitLocal_congr y (by rw [ho] at hb ⊢; omega) _ _)
  · rw [dif_neg hb]
    rw [ho] at hb
    have hlt : (y (0 : Fin 2)).val < 64 * ((t.val - 1) % 8 + 1) := by omega
    rw [hz y hlt]
    exact congrFun (Zfull_congr m c (t := ⟨t.val - 1, Nat.lt_of_le_of_lt (Nat.sub_le _ _) t.isLt⟩) (t' := t) (by show (t.val - 1) / 8 = t.val / 8; omega)) y

/-- After the last head every row is determined. -/
theorem ZInv_last (c : Dev nD) (t : Fin cfg0.N) (h1 : t.val % 8 = 7) (z : Vec F S512x1024 .bf16) (hz : ZInv m c t z) :
    z = Zfull m c t :=
  funext fun y => hz y (by have : (y (0 : Fin 2)).val < 512 := (y (0 : Fin 2)).isLt; omega)

/-- At a head-0 point the projections are those of the point's own blocks. -/
theorem QAt_first (c : Dev nD) (t : Fin cfg0.N) (h0 : t.val % 8 = 0) :
    QAt m c t = k0_pay5 (iblk m c 0 t) (iblk m c 1 t) (iblk m c 2 t) := by unfold QAt; rw [base_self t h0]
theorem KAt_first (c : Dev nD) (t : Fin cfg0.N) (h0 : t.val % 8 = 0) :
    KAt m c t = k0_pay6 (iblk m c 0 t) (iblk m c 3 t) (iblk m c 4 t) := by unfold KAt; rw [base_self t h0]
theorem VAt_first (c : Dev nD) (t : Fin cfg0.N) (h0 : t.val % 8 = 0) :
    VAt m c t = k0_pay1 (k0_pay7 (iblk m c 0 t) (iblk m c 5 t) (iblk m c 6 t)) := by unfold VAt; rw [base_self t h0]

/-- `ZInv_first` with the head-0 projections written out. -/
theorem ZInv_first' (c : Dev nD) (t : Fin cfg0.N) (h0 : t.val % 8 = 0) (z : Vec F S512x1024 .bf16) :
    ZInv m c t (putBand (grid0.coords t)
      (k0_pay2 (band (grid0.coords t) (k0_pay5 (iblk m c 0 t) (iblk m c 1 t) (iblk m c 2 t)))
        (band (grid0.coords t) (k0_pay6 (iblk m c 0 t) (iblk m c 3 t) (iblk m c 4 t)))
        (band (grid0.coords t) (k0_pay1 (k0_pay7 (iblk m c 0 t) (iblk m c 5 t) (iblk m c 6 t))))) z) := by
  have h := ZInv_first m c t h0 z
  unfold zRow at h
  rwa [QAt_first m c t h0, KAt_first m c t h0, VAt_first m c t h0] at h

end Cert.Kernel.Body

end
-- ==== Proof.FrameB.RunFirst.lean ====
/-
  The body at head 0: it computes the three projections of the point's block of tokens and stores them whole, then
  does head 0's attention from their first bands and overwrites the first band of the attention scratch.
-/
import proofs.«154566_j41051297415246_2_alg».proof.Proof.FrameB.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At head 0: whatever the three projection buffers held, the body leaves them at the projections of the point's
    inputs, and the attention scratch at `z` with band 0 replaced by head 0's attention output. -/
theorem runFirst (c : Dev nD) (i : grid0.Coords) (arg2 : Memref sig .tc .vmem S1x1024x512 .f32) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S512x512 .bf16) (harg9 : arg9.IsWhole) (arg10 : Memref sig .tc .vmem S512 .f32) (harg10 : arg10.IsWhole) (arg11 : Memref sig .tc .vmem S1x1024x512 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x1024 .bf16) (harg15 : arg15.IsWhole) (hc0 : atFirstHead i) (hc1 : ¬atLastHead i)
    (x0 : Vec F S1x1024x512 .f32) (x1 : Vec F S512x512 .bf16) (x2 : Vec F S512 .f32) (x3 : Vec F S512x512 .bf16) (x4 : Vec F S512 .f32) (x5 : Vec F S512x512 .bf16) (x6 : Vec F S512 .f32) (x7 : Vec F S512x512 .bf16) (x8 : Vec F S512 .f32) (x9 : Vec F S1x1024x512 .f32) (z : Vec F S512x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare z
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (k0_pay5 x0 x1 x2) ∗ owns (c : Thread nD τ) arg13 fullShare (k0_pay6 x0 x3 x4) ∗ owns (c : Thread nD τ) arg14 fullShare (k0_pay1 (k0_pay7 x0 x5 x6))
            ∗ owns (c : Thread nD τ) arg15 fullShare (putBand i (k0_pay2 (band i (k0_pay5 x0 x1 x2)) (band i (k0_pay6 x0 x3 x4)) (band i (k0_pay1 (k0_pay7 x0 x5 x6)))) z)) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_kernel_eq_skeleton]; unfold cc0__attn_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg15.eq_unread hfs3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [HS0]
  · iexists _; isplitr; swap; · iexact HS0
    ipureintro
    sl_unfold_run_names
    simp only [View.readAt_eq_ld, read_putBand, read_putBand', read_whole2, read_whole3, ld_band, harg2.read_unread, harg3.read_unread, harg4.read_unread, harg5.read_unread, harg6.read_unread, harg7.read_unread, harg8.read_unread, harg9.read_unread, harg10.read_unread, harg12.read_unread, harg13.read_unread, harg14.read_unread, View.ld_unit_zero (S := S1x1024x512) zeros3, View.ld_unit_zero (S := S512x1024) zeros2, View.ld_unit_zero (S := S512x512) zeros2, View.ld_unit_zero (S := S512) zeros1]
  isplitl [HS1]
  · iexists _; isplitr; swap; · iexact HS1
    ipureintro
    sl_unfold_run_names
    simp only [View.readAt_eq_ld, read_putBand, read_putBand', read_whole2, read_whole3, ld_band, harg2.read_unread, harg3.read_unread, harg4.read_unread, harg5.read_unread, harg6.read_unread, harg7.read_unread, harg8.read_unread, harg9.read_unread, harg10.read_unread, harg12.read_unread, harg13.read_unread, harg14.read_unread, View.ld_unit_zero (S := S1x1024x512) zeros3, View.ld_unit_zero (S := S512x1024) zeros2, View.ld_unit_zero (S := S512x512) zeros2, View.ld_unit_zero (S := S512) zeros1]
  isplitl [HS2]
  · iexists _; isplitr; swap; · iexact HS2
    ipureintro
    sl_unfold_run_names
    simp only [View.readAt_eq_ld, read_putBand, read_putBand', read_whole2, read_whole3, ld_band, harg2.read_unread, harg3.read_unread, harg4.read_unread, harg5.read_unread, harg6.read_unread, harg7.read_unread, harg8.read_unread, harg9.read_unread, harg10.read_unread, harg12.read_unread, harg13.read_unread, harg14.read_unread, View.ld_unit_zero (S := S1x1024x512) zeros3, View.ld_unit_zero (S := S512x1024) zeros2, View.ld_unit_zero (S := S512x512) zeros2, View.ld_unit_zero (S := S512) zeros1]
  iexists _; isplitr; swap; · iexact HS3
  ipureintro
  sl_unfold_run_names
  simp only [View.readAt_eq_ld, read_putBand, read_putBand', read_whole2, read_whole3, ld_band, harg2.read_unread, harg3.read_unread, harg4.read_unread, harg5.read_unread, harg6.read_unread, harg7.read_unread, harg8.read_unread, harg9.read_unread, harg10.read_unread, harg12.read_unread, harg13.read_unread, harg14.read_unread, View.ld_unit_zero (S := S1x1024x512) zeros3, View.ld_unit_zero (S := S512x1024) zeros2, View.ld_unit_zero (S := S512x512) zeros2, View.ld_unit_zero (S := S512) zeros1]

end Cert.Kernel.Body

end
-- ==== Proof.FrameB.RunMid.lean ====
/-
  The body at a middle head (neither the first nor the last): it reads the three projections' bands, computes the
  head's attention output and overwrites that head's band of the attention scratch; nothing else changes.
-/
import proofs.«154566_j41051297415246_2_alg».proof.Proof.FrameB.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a middle head: the output block is not touched; from the projections `q`, `k`, `v` and the attention scratch at `z`, the body runs and leaves
    the projections as they were and the scratch at `z` with the head's band replaced by that head's attention output. -/
theorem runMid (c : Dev nD) (i : grid0.Coords) (arg2 : Memref sig .tc .vmem S1x1024x512 .f32) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S512x512 .bf16) (harg9 : arg9.IsWhole) (arg10 : Memref sig .tc .vmem S512 .f32) (harg10 : arg10.IsWhole) (arg11 : Memref sig .tc .vmem S1x1024x512 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x1024 .bf16) (harg15 : arg15.IsWhole) (hc0 : ¬atFirstHead i) (hc1 : ¬atLastHead i)
    (x0 : Vec F S1x1024x512 .f32) (x1 : Vec F S512x512 .bf16) (x2 : Vec F S512 .f32) (x3 : Vec F S512x512 .bf16) (x4 : Vec F S512 .f32) (x5 : Vec F S512x512 .bf16) (x6 : Vec F S512 .f32) (x7 : Vec F S512x512 .bf16) (x8 : Vec F S512 .f32) (x9 : Vec F S1x1024x512 .f32) (q k v z : Vec F S512x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare q ∗ owns (c : Thread nD τ) arg13 fullShare k ∗ owns (c : Thread nD τ) arg14 fullShare v ∗ owns (c : Thread nD τ) arg15 fullShare z
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare q ∗ owns (c : Thread nD τ) arg13 fullShare k ∗ owns (c : Thread nD τ) arg14 fullShare v
            ∗ owns (c : Thread nD τ) arg15 fullShare (putBand i (k0_pay2 (band i q) (band i k) (band i v)) z)) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1; obtain rfl := harg14.eq_unread hfs2; obtain rfl := harg15.eq_unread hfs3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [HS0]
  · iexists _; isplitr; · ipureintro; exact harg12.read_unread _
    iexact HS0
  isplitl [HS1]
  · iexists _; isplitr; · ipureintro; exact harg13.read_unread _
    iexact HS1
  isplitl [HS2]
  · iexists _; isplitr; · ipureintro; exact harg14.read_unread _
    iexact HS2
  iexists _; isplitr; swap; · iexact HS3
  ipureintro
  rw [read_putBand]
  simp only [View.readAt_eq_ld, harg12.read_unread, harg13.read_unread, harg14.read_unread]
  rfl

end Cert.Kernel.Body

end
-- ==== Proof.FrameB.RunLast.lean ====
/-
  The body at the last head: it does that head's attention, overwrites the last band of the attention scratch, then
  reads the whole scratch and stores the output projection of it into the output block.
-/
import proofs.«154566_j41051297415246_2_alg».proof.Proof.FrameB.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At the last head: the projections stay, the attention scratch gets the head's band, and the output block is the
    output projection of the whole scratch as it then stands. -/
theorem runLast (c : Dev nD) (i : grid0.Coords) (arg2 : Memref sig .tc .vmem S1x1024x512 .f32) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S512x512 .bf16) (harg9 : arg9.IsWhole) (arg10 : Memref sig .tc .vmem S512 .f32) (harg10 : arg10.IsWhole) (arg11 : Memref sig .tc .vmem S1x1024x512 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x1024 .bf16) (harg15 : arg15.IsWhole) (hc0 : ¬atFirstHead i) (hc1 : atLastHead i)
    (x0 : Vec F S1x1024x512 .f32) (x1 : Vec F S512x512 .bf16) (x2 : Vec F S512 .f32) (x3 : Vec F S512x512 .bf16) (x4 : Vec F S512 .f32) (x5 : Vec F S512x512 .bf16) (x6 : Vec F S512 .f32) (x7 : Vec F S512x512 .bf16) (x8 : Vec F S512 .f32) (q k v z : Vec F S512x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare q ∗ owns (c : Thread nD τ) arg13 fullShare k ∗ owns (c : Thread nD τ) arg14 fullShare v ∗ owns (c : Thread nD τ) arg15 fullShare z
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k0_pay3 (putBand i (k0_pay2 (band i q) (band i k) (band i v)) z) x7 x8) ∗ owns (c : Thread nD τ) arg12 fullShare q ∗ owns (c : Thread nD τ) arg13 fullShare k ∗ owns (c : Thread nD τ) arg14 fullShare v
            ∗ owns (c : Thread nD τ) arg15 fullShare (putBand i (k0_pay2 (band i q) (band i k) (band i v)) z)) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0; obtain rfl := harg13.eq_unread hfs1; obtain rfl := harg14.eq_unread hfs2; obtain rfl := harg15.eq_unread hfs3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro
    sl_unfold_run_names
    simp only [View.readAt_eq_ld, read_putBand, read_putBand', read_whole2, read_whole3, ld_band, harg2.read_unread, harg3.read_unread, harg4.read_unread, harg5.read_unread, harg6.read_unread, harg7.read_unread, harg8.read_unread, harg9.read_unread, harg10.read_unread, harg12.read_unread, harg13.read_unread, harg14.read_unread, View.ld_unit_zero (S := S1x1024x512) zeros3, View.ld_unit_zero (S := S512x1024) zeros2, View.ld_unit_zero (S := S512x512) zeros2, View.ld_unit_zero (S := S512) zeros1]
  isplitl [HS0]
  · iexists _; isplitr; · ipureintro; exact harg12.read_unread _
    iexact HS0
  isplitl [HS1]
  · iexists _; isplitr; · ipureintro; exact harg13.read_unread _
    iexact HS1
  isplitl [HS2]
  · iexists _; isplitr; · ipureintro; exact harg14.read_unread _
    iexact HS2
  iexists _; isplitr; swap; · iexact HS3
  ipureintro
  sl_unfold_run_names
  simp only [View.readAt_eq_ld, read_putBand, read_putBand', read_whole2, read_whole3, ld_band, harg2.read_unread, harg3.read_unread, harg4.read_unread, harg5.read_unread, harg6.read_unread, harg7.read_unread, harg8.read_unread, harg9.read_unread, harg10.read_unread, harg12.read_unread, harg13.read_unread, harg14.read_unread, View.ld_unit_zero (S := S1x1024x512) zeros3, View.ld_unit_zero (S := S512x1024) zeros2, View.ld_unit_zero (S := S512x512) zeros2, View.ld_unit_zero (S := S512) zeros1]

end Cert.Kernel.Body

end
-- ==== Proof.FrameB.Sound.lean ====
/-
  The body obligation of the attention kernel, and its frame. The invariant carried from point to point: after point t
  the three projection buffers hold the projections of t's block of tokens and the attention scratch agrees with the
  eight heads' outputs on the bands of the heads done so far; the output block is written at the last head only, from
  the then complete scratch, and is handed back untouched at the other heads.
-/
import proofs.«154566_j41051297415246_2_alg».proof.Proof.FrameB.Data
import proofs.«154566_j41051297415246_2_alg».proof.Proof.FrameB.RunFirst
import proofs.«154566_j41051297415246_2_alg».proof.Proof.FrameB.RunMid
import proofs.«154566_j41051297415246_2_alg».proof.Proof.FrameB.RunLast

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the windows are idle -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
/-- The output window is idle at every head but the last, -/
theorem idle9_of_not_last : ∀ t : Fin cfg0.N, ¬t.val % 8 = 7 → cfg0.idle 9 (grid0.coords t) = true :=
  (by decide +kernel : ∀ t : Fin grid0.N, ¬t.val % 8 = 7 → cfg0.idle 9 (grid0.coords t) = true)
theorem live9_of_last : ∀ t : Fin cfg0.N, t.val % 8 = 7 → cfg0.idle 9 (grid0.coords t) = false :=
  (by decide +kernel : ∀ t : Fin grid0.N, t.val % 8 = 7 → cfg0.idle 9 (grid0.coords t) = false)
/-- and is written back at the last head only. -/
theorem noflush9 (t : Fin cfg0.N) (h : ¬t.val % 8 = 7) : (cfg0.win 9).flush t = false := by
  cases hf : (cfg0.win 9).flush t with
  | false => rfl
  | true => exact absurd ((flush0_9 t).mp hf) h

/-! ## The scratch buffers and the invariant -/

abbrev scQ : Memref sig .tc .vmem S512x1024 .bf16 := Memref.whole cc0_scratch0
abbrev scK : Memref sig .tc .vmem S512x1024 .bf16 := Memref.whole cc0_scratch1
abbrev scV : Memref sig .tc .vmem S512x1024 .bf16 := Memref.whole cc0_scratch2
abbrev scZ : Memref sig .tc .vmem S512x1024 .bf16 := Memref.whole cc0_scratch3

/-- What the launch hands the region: the four scratch buffers at some contents, and the generator register. -/
theorem PhiA_eq (c : Dev nD) :
    (Pipeline.ΦA spec0 c : sProp 𝕄)
      = iprop(iprop((∃ d, owns (c : Thread nD τ) scQ fullShare d) ∗ (∃ d, owns (c : Thread nD τ) scK fullShare d) ∗ (∃ d, owns (c : Thread nD τ) scV fullShare d) ∗ (∃ d, owns (c : Thread nD τ) scZ fullShare d)) ∗ (∃ r, prngReg c r)) := by
  unfold Pipeline.ΦA; rw [scopedRest0_eq]; simp only [scQ, scK, scV, scZ, owns_whole]; try rfl

/-- The invariant before position `n`: before the first point what the launch hands over; after point `n - 1` the
    projections of its block of tokens and an attention scratch that agrees with the heads done so far. -/
def PhiS (c : Dev nD) : (n : ℕ) → n ≤ cfg0.N → sProp 𝕄
  | 0, _ => Pipeline.ΦA spec0 c
  | n + 1, hn => iprop(iprop(owns (c : Thread nD τ) scQ fullShare (QAt m c ⟨n, hn⟩) ∗ owns (c : Thread nD τ) scK fullShare (KAt m c ⟨n, hn⟩) ∗ owns (c : Thread nD τ) scV fullShare (VAt m c ⟨n, hn⟩) ∗ (∃ z, ⌜ZInv m c ⟨n, hn⟩ z⌝ ∗ owns (c : Thread nD τ) scZ fullShare z)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scQ fullShare (QAt m c ⟨n, hn⟩) ∗ owns (c : Thread nD τ) scK fullShare (KAt m c ⟨n, hn⟩) ∗ owns (c : Thread nD τ) scV fullShare (VAt m c ⟨n, hn⟩) ∗ (∃ z, ⌜ZInv m c ⟨n, hn⟩ z⌝ ∗ owns (c : Thread nD τ) scZ fullShare z)) ∗ (∃ r, prngReg c r)) := rfl

theorem PhiS_pos (c : Dev nD) (n : ℕ) (h : n ≤ cfg0.N) (hz : n ≠ 0) :
    PhiS m c n h = iprop(iprop(owns (c : Thread nD τ) scQ fullShare (QAt m c ⟨n - 1, by omega⟩) ∗ owns (c : Thread nD τ) scK fullShare (KAt m c ⟨n - 1, by omega⟩) ∗ owns (c : Thread nD τ) scV fullShare (VAt m c ⟨n - 1, by omega⟩) ∗ (∃ z, ⌜ZInv m c ⟨n - 1, by omega⟩ z⌝ ∗ owns (c : Thread nD τ) scZ fullShare z)) ∗ (∃ r, prngReg c r)) := by
  cases n with
  | zero => exact absurd rfl hz
  | succ n => rfl

/-! ## The proof data -/

/-- The arrays as the region finds them; each input's buffer at its block; the output's buffer at the output projection
    of the complete attention scratch (what the last head leaves; the other heads are idle for the window). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => k0_pay3 (Zfull m c t) (iblk m c 7 t) (iblk m c 8 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) :
    (dats m 0 c).after 9 t = k0_pay3 (Zfull m c t) (iblk m c 7 t) (iblk m c 8 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 14400000 in
/-- The body at any point, by the head: at head 0 the projections are recomputed and band 0 written (from anything
    at the very first point, from the previous block's leftovers later); at a middle head one more band; at the last
    head the last band, after which the scratch is complete and its output projection is what the window writes back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).owesAt () t.succ = (dats m 0 c).owesAt () t.castSucc from rfl]
  rw [show (dats m 0 c).Φ t.succ = PhiS m c (t.val + 1) t.isLt from rfl, PhiS_succ]
  have hN : t.val < 128 := val_lt t
  rw [show (dats m 0 c).leavesExact 0 t = owns (c : Thread nD τ) (st0_0 t) fullShare ((dats m 0 c).after 0 t) from by
    unfold Dat.leavesExact; rw [live0 t], after0]
  rw [show (dats m 0 c).leavesExact 1 t = owns (c : Thread nD τ) (st0_1 t) fullShare ((dats m 0 c).after 1 t) from by
    unfold Dat.leavesExact; rw [live1 t], after1]
  rw [show (dats m 0 c).leavesExact 2 t = owns (c : Thread nD τ) (st0_2 t) fullShare ((dats m 0 c).after 2 t) from by
    unfold Dat.leavesExact; rw [live2 t], after2]
  rw [show (dats m 0 c).leavesExact 3 t = owns (c : Thread nD τ) (st0_3 t) fullShare ((dats m 0 c).after 3 t) from by
    unfold Dat.leavesExact; rw [live3 t], after3]
  rw [show (dats m 0 c).leavesExact 4 t = owns (c : Thread nD τ) (st0_4 t) fullShare ((dats m 0 c).after 4 t) from by
    unfold Dat.leavesExact; rw [live4 t], after4]
  rw [show (dats m 0 c).leavesExact 5 t = owns (c : Thread nD τ) (st0_5 t) fullShare ((dats m 0 c).after 5 t) from by
    unfold Dat.leavesExact; rw [live5 t], after5]
  rw [show (dats m 0 c).leavesExact 6 t = owns (c : Thread nD τ) (st0_6 t) fullShare ((dats m 0 c).after 6 t) from by
    unfold Dat.leavesExact; rw [live6 t], after6]
  rw [show (dats m 0 c).leavesExact 7 t = owns (c : Thread nD τ) (st0_7 t) fullShare ((dats m 0 c).after 7 t) from by
    unfold Dat.leavesExact; rw [live7 t], after7]
  rw [show (dats m 0 c).leavesExact 8 t = owns (c : Thread nD τ) (st0_8 t) fullShare ((dats m 0 c).after 8 t) from by
    unfold Dat.leavesExact; rw [live8 t], after8]
  by_cases h0 : t.val % 8 = 0
  · have h1 : ¬t.val % 8 = 7 := by omega
    rw [(dats m 0 c).leavesExact_idle 9 t (idle9_of_not_last t h1) (noflush9 t h1)]
    rw [show (⟨t.val, t.isLt⟩ : Fin cfg0.N) = t from rfl, QAt_first m c t h0, KAt_first m c t h0, VAt_first m c t h0]
    by_cases hz : t.val = 0
    · rw [PhiS_castSucc m c t, PhiS_zero m c _ _ hz, PhiA_eq]
      iintro ⟨⟨⟨HS0, HS1, HS2, ⟨%z, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runFirst c (grid0.coords t) _ _ _ _ _ _ _ _ _ _ _ _ _ _ _ _ _ _ _ _ _ _ _ _ _ _ _ _ ((atFirstHead_iff t).mpr h0) (fun h => h1 ((atLastHead_iff t).mp h)) (iblk m c 0 t) (iblk m c 1 t) (iblk m c 2 t) (iblk m c 3 t) (iblk m c 4 t) (iblk m c 5 t) (iblk m c 6 t) (iblk m c 7 t) (iblk m c 8 t) ((dats m 0 c).before 9 t d9) z Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      iintro ⟨H0, H1, H2, H3, H4, H5, H6, H7, H8, H9, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexists _; isplitr; swap; · iexact HS3
          ipureintro; exact ZInv_first' m c t h0 z
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
    · rw [PhiS_castSucc m c t, PhiS_pos m c _ _ hz]
      iintro ⟨⟨⟨HS0, HS1, HS2, ⟨%z, -, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runFirst c (grid0.coords t) _ _ _ _ _ _ _ _ _ _ _ _ _ _ _ _ _ _ _ _ _ _ _ _ _ _ _ _ ((atFirstHead_iff t).mpr h0) (fun h => h1 ((atLastHead_iff t).mp h)) (iblk m c 0 t) (iblk m c 1 t) (iblk m c 2 t) (iblk m c 3 t) (iblk m c 4 t) (iblk m c 5 t) (iblk m c 6 t) (iblk m c 7 t) (iblk m c 8 t) ((dats m 0 c).before 9 t d9) z Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexists _; iexact HS0
      isplitl [HS1]; · iexists _; iexact HS1
      isplitl [HS2]; · iexists _; iexact HS2
      isplitl [HS3]; · iexact HS3
      iintro ⟨H0, H1, H2, H3, H4, H5, H6, H7, H8, H9, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexists _; isplitr; swap; · iexact HS3
          ipureintro; exact ZInv_first' m c t h0 z
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
  · have hz : t.val ≠ 0 := fun h => h0 (by rw [h])
    have hdiv : (t.val - 1) / 8 = t.val / 8 := by omega
    rw [show (⟨t.val, t.isLt⟩ : Fin cfg0.N) = t from rfl, PhiS_castSucc m c t, PhiS_pos m c _ _ hz,
      QAt_congr m c (t := ⟨t.val - 1, Nat.lt_of_le_of_lt (Nat.sub_le _ _) t.isLt⟩) (t' := t) hdiv,
      KAt_congr m c (t := ⟨t.val - 1, Nat.lt_of_le_of_lt (Nat.sub_le _ _) t.isLt⟩) (t' := t) hdiv,
      VAt_congr m c (t := ⟨t.val - 1, Nat.lt_of_le_of_lt (Nat.sub_le _ _) t.isLt⟩) (t' := t) hdiv]
    by_cases h1 : t.val % 8 = 7
    · rw [show (dats m 0 c).leavesExact 9 t = owns (c : Thread nD τ) (st0_9 t) fullShare ((dats m 0 c).after 9 t) from by
        unfold Dat.leavesExact; rw [live9_of_last t h1], after9]
      iintro ⟨⟨⟨HS0, HS1, HS2, ⟨%z, %hzi, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runLast c (grid0.coords t) _ _ _ _ _ _ _ _ _ _ _ _ _ _ _ _ _ _ _ _ _ _ _ _ _ _ _ _ (fun h => h0 ((atFirstHead_iff t).mp h)) ((atLastHead_iff t).mpr h1) (iblk m c 0 t) (iblk m c 1 t) (iblk m c 2 t) (iblk m c 3 t) (iblk m c 4 t) (iblk m c 5 t) (iblk m c 6 t) (iblk m c 7 t) (iblk m c 8 t) (QAt m c t) (KAt m c t) (VAt m c t) z Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      isplitl [HS2]; · iexact HS2
      isplitl [HS3]; · iexact HS3
      iintro ⟨H0, H1, H2, H3, H4, H5, H6, H7, H8, H9, HS0, HS1, HS2, HS3⟩
      have hstep := ZInv_step m c t h0 z hzi
      have hfull := ZInv_last m c t h1 _ hstep
      isplitl [HS0 HS1 HS2 HS3 Hg]
      · isplitl [HS0 HS1 HS2 HS3]
        · isplitl [HS0]; · iexact HS0
          isplitl [HS1]; · iexact HS1
          isplitl [HS2]; · iexact HS2
          iexists _; isplitr; swap; · iexact HS3
          ipureintro; exact hstep
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      rw [← hfull]
      iexact H9
    · rw [(dats m 0 c).leavesExact_idle 9 t (idle9_of_not_last t h1) (noflush9 t h1)]
      iintro ⟨⟨⟨HS0, HS1, HS2, ⟨%z, %hzi, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runMid c (grid0.coords t) _ _ _ _ _ _ _ _ _ _ _ _ _ _ _ _ _ _ _ _ _ _ _ _ _ _ _ _ (fun h => h0 ((atFirstHead_iff t).mp h)) (fun h => h1 ((atLastHead_iff t).mp h)) (iblk m c 0 t) (iblk m c 1 t) (iblk m c 2 t) (iblk m c 3 t) (iblk m c 4 t) (iblk m c 5 t) (iblk m c 6 t) (iblk m c 7 t) (iblk m c 8 t) ((dats m 0 c).before 9 t d9) (QAt m c t) (KAt m c t) (VAt m c t) z Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      iintro ⟨H0, H1, H2, H3, H4, H5, H6, H7, H8, H9, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexists _; isplitr; swap; · iexact HS3
          ipureintro; exact ZInv_step m c t h0 z hzi
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives back what the launch handed over: the named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2, ⟨%z, -, HS3⟩⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

/-- Every weakly fair execution of @main terminates; the output array ends at what the proof data says was written back,
    every argument array as launched. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Body

end
-- ==== Proof.FrameI.Cases.lean ====
/-
  The attention kernel's body at one grid point (bt, h): which of its two conditionals run there, the band of rows the
  head works on, and what a buffer of 512 rows holds after one band of 64 rows is overwritten.
-/
import proofs.«154566_j41051297415246_2_alg».proof.Proof.Gen.KernelIdeal.Frame
import proofs.«154566_j41051297415246_2_alg».proof.Proof.Gen.KernelIdeal.Skeleton
import Idealize.ShloMosaic.Lib.WritesUnit
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The projections are computed exactly at head 0. -/
abbrev atFirstHead (i : grid0.Coords) : Prop := (Scalar.cmpi .ne (Scalar.extui (Scalar.cmpi .eq (BitVec.ofNat 32 (i 1).val) 0#32)) 0#32) = 1#1
/-- The output projection is computed exactly at the last head. -/
abbrev atLastHead (i : grid0.Coords) : Prop := k0_cond2 i = 1#1

/-- Head 0 is the points that are multiples of 8 in row-major order of the grid (bt, h). -/
theorem atFirstHead_iff : ∀ t : Fin cfg0.N, atFirstHead (grid0.coords t) ↔ t.val % 8 = 0 :=
  (by decide +kernel : ∀ t : Fin grid0.N, atFirstHead (grid0.coords t) ↔ t.val % 8 = 0)
/-- Head 7 is the points that are 7 modulo 8. -/
theorem atLastHead_iff : ∀ t : Fin cfg0.N, atLastHead (grid0.coords t) ↔ t.val % 8 = 7 :=
  (by decide +kernel : ∀ t : Fin grid0.N, atLastHead (grid0.coords t) ↔ t.val % 8 = 7)

/-- A list of zero offsets is the zero function (rank 1, 2, 3): whole-buffer loads and stores are spelt with such lists. -/
theorem zeros1 : (![0] : Fin 1 → ℕ) = fun _ => 0 := by funext a; match a with | ⟨0, _⟩ => rfl
theorem zeros2 : (![0, 0] : Fin 2 → ℕ) = fun _ => 0 := by funext a; match a with | ⟨0, _⟩ => rfl | ⟨1, _⟩ => rfl
theorem zeros3 : (![0, 0, 0] : Fin 3 → ℕ) = fun _ => 0 := by funext a; match a with | ⟨0, _⟩ => rfl | ⟨1, _⟩ => rfl | ⟨2, _⟩ => rfl

/-- A buffer read back after ONE store through its whole-shape rectangle at zero offsets holds the stored value,
    whatever it held before. -/
theorem read_whole {S : Shape} {e : EltTy} (v : View sig .tc .vmem S e) (f : v.ty.Contents (Elt F))
    {off : Fin S.rank → ℕ} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-- The first of the 64 rows head `i 1` works on. -/
def rowOff (i : grid0.Coords) : ℕ := k0_off1 i 0

/-- The band starts at row `rowOff i`, column 0. -/
theorem off_eq (i : grid0.Coords) : k0_off1 i = ![rowOff i, 0] := by
  funext a; match a with | ⟨0, _⟩ => rfl | ⟨1, _⟩ => rfl

/-- Head h's band starts at row 64 h. -/
theorem rowOff_eq : ∀ t : Fin cfg0.N, rowOff (grid0.coords t) = 64 * (t.val % 8) :=
  (by decide +kernel : ∀ t : Fin grid0.N, rowOff (grid0.coords t) = 64 * (t.val % 8))

/-- Rows `[rowOff i, rowOff i + 64)` of a buffer of 512 rows: the band of head `i 1`. -/
def band (i : grid0.Coords) (a : Vec F S512x1024 .bf16) : Vec F S64x1024 .bf16 :=
  View.ld a (Rect.unit (s := S512x1024) (k0_off1 i) S64x1024.size (k0_off1_inb i))

/-- A buffer of 512 rows after the band of head `i 1` is overwritten with `w`: `w` on the band, `z` elsewhere. -/
def putBand (i : grid0.Coords) (w : Vec F S64x1024 .bf16) (z : Vec F S512x1024 .bf16) : Vec F S512x1024 .bf16 := fun y =>
  if h : rowOff i ≤ (y (0 : Fin 2)).val ∧ (y (0 : Fin 2)).val < rowOff i + 64 then
    w (Rect.unitLocal (s := S512x1024) (off := ![rowOff i, 0]) (size := S64x1024.size) y (Rect.unit_rows_mem y rfl rfl h))
  else z y

/-- Reading back a whole buffer that held `z` after one store of `w` into the band of head `i 1`. -/
theorem read_putBand (i : grid0.Coords) (a : Memref sig .tc .vmem S512x1024 .bf16) (ha : a.IsWhole)
    (w : Vec F S64x1024 .bf16) (z : Vec F S512x1024 .bf16) :
    a.view.read (Elt F) (a.view.writes (Elt F) (ha.unread z)
      [(⟨Rect.unit (s := S512x1024) (k0_off1 i) S64x1024.size (k0_off1_inb i), w⟩ : View.Piece (Elt F) S512x1024 .bf16)])
      = putBand i w z := by
  funext y
  rw [View.read_writes_cons_rows (W := 64) a.view (ha.unread z) (k0_off1_inb i) w [] y (off_eq i)
    (rfl : S64x1024.size (0 : Fin 2) = 64) (rfl : S64x1024.size (1 : Fin 2) = (![512, 1024] : Fin 2 → ℕ) (1 : Fin 2))]
  unfold putBand
  by_cases h : rowOff i ≤ (y (0 : Fin 2)).val ∧ (y (0 : Fin 2)).val < rowOff i + 64
  · rw [dif_pos h, dif_pos h]
  · rw [dif_neg h, dif_neg h]
    exact congrFun (ha.read_unread z) y

/-! The same read-backs with the sizes spelt as literal lists, as a run of the body leaves them. -/

theorem read_whole2 (a : Memref sig .tc .vmem S512x1024 .bf16) (f : a.view.ty.Contents (Elt F))
    (inb : ∀ d : Fin S512x1024.rank, (![0, 0] : Fin 2 → ℕ) d + (![512, 1024] : Fin 2 → ℕ) d ≤ S512x1024.size d) (w : S512x1024.Idx → Elt F .bf16) :
    a.view.read (Elt F) (a.view.writes (Elt F) f
      [(⟨Rect.unit (s := S512x1024) ![0, 0] ![512, 1024] inb, w⟩ : View.Piece (Elt F) S512x1024 .bf16)]) = w :=
  read_whole (S := S512x1024) a.view f zeros2 inb w

theorem read_whole3 (a : Memref sig .tc .vmem S1x1024x512 .f32) (f : a.view.ty.Contents (Elt F))
    (inb : ∀ d : Fin S1x1024x512.rank, (![0, 0, 0] : Fin 3 → ℕ) d + (![1, 1024, 512] : Fin 3 → ℕ) d ≤ S1x1024x512.size d) (w : S1x1024x512.Idx → Elt F .f32) :
    a.view.read (Elt F) (a.view.writes (Elt F) f
      [(⟨Rect.unit (s := S1x1024x512) ![0, 0, 0] ![1, 1024, 512] inb, w⟩ : View.Piece (Elt F) S1x1024x512 .f32)]) = w :=
  read_whole (S := S1x1024x512) a.view f zeros3 inb w

theorem read_putBand' (i : grid0.Coords) (a : Memref sig .tc .vmem S512x1024 .bf16) (ha : a.IsWhole)
    (inb : ∀ d : Fin S512x1024.rank, k0_off1 i d + (![64, 1024] : Fin 2 → ℕ) d ≤ S512x1024.size d)
    (w : Vec F S64x1024 .bf16) (z : Vec F S512x1024 .bf16) :
    a.view.read (Elt F) (a.view.writes (Elt F) (ha.unread z)
      [(⟨Rect.unit (s := S512x1024) (k0_off1 i) ![64, 1024] inb, w⟩ : View.Piece (Elt F) S512x1024 .bf16)])
      = putBand i w z :=
  read_putBand i a ha w z

/-- The band of head `i 1` with the sizes spelt as a literal list. -/
theorem ld_band (i : grid0.Coords) (a : Vec F S512x1024 .bf16)
    (inb : ∀ d : Fin S512x1024.rank, k0_off1 i d + (![64, 1024] : Fin 2 → ℕ) d ≤ S512x1024.size d) :
    View.ld a (Rect.unit (s := S512x1024) (k0_off1 i) ![64, 1024] inb) = band i a := rfl

end Cert.KernelIdeal.Body

end
-- ==== Proof.FrameI.Data.lean ====
/-
  What the four scratch buffers and the output block hold after each grid point (bt, h), in closed form in the point.
  The projections depend on the block of tokens bt alone, so they are named after the head-0 point of the same bt;
  the attention scratch is filled one band of 64 rows per head, so after head h its rows below 64 (h + 1) are the
  attention outputs of heads 0 … h and the rows above are whatever they were.
-/
import proofs.«154566_j41051297415246_2_alg».proof.Proof.FrameI.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The grid has 16 · 8 points. -/
theorem val_lt (t : Fin cfg0.N) : t.val < 128 := lt_of_lt_of_eq t.isLt (show cfg0.N = 128 from N_0)

/-- The head-0 point of `t`'s block of tokens. -/
def base (t : Fin cfg0.N) : Fin cfg0.N :=
  ⟨8 * (t.val / 8), Nat.lt_of_lt_of_eq (by have := val_lt t; omega : 8 * (t.val / 8) < 128) (show (128 : ℕ) = cfg0.N from N_0.symm)⟩

/-- The point of `t`'s block of tokens whose head owns row `y 0` of a buffer of 512 rows. -/
def pointOf (t : Fin cfg0.N) (y : S512x1024.Idx) : Fin cfg0.N :=
  ⟨8 * (t.val / 8) + (y (0 : Fin 2)).val / 64, Nat.lt_of_lt_of_eq
    (by have := val_lt t; have : (y (0 : Fin 2)).val < 512 := (y (0 : Fin 2)).isLt; omega : 8 * (t.val / 8) + (y (0 : Fin 2)).val / 64 < 128)
    (show (128 : ℕ) = cfg0.N from N_0.symm)⟩

/-- Row `y 0` within its head's band, and the column: the position of `y` within the 64 rows starting at 64 ⌊y 0 / 64⌋. -/
def localOf (y : S512x1024.Idx) : S64x1024.Idx :=
  Rect.unitLocal (s := S512x1024) (off := ![64 * ((y (0 : Fin 2)).val / 64), 0]) (size := S64x1024.size) y
    (Rect.unit_rows_mem (W := 64) y (rfl : S64x1024.size (0 : Fin 2) = 64)
      (rfl : S64x1024.size (1 : Fin 2) = (![512, 1024] : Fin 2 → ℕ) (1 : Fin 2)) ⟨by omega, by omega⟩)

/-- The position within a band does not depend on how the band's first row is written. -/
theorem unitLocal_congr (y : S512x1024.Idx) {o o' : ℕ} (e : o = o')
    (h : ∀ a : Fin 2, (![o, 0] : Fin 2 → ℕ) a ≤ (y a).val ∧ (y a).val < (![o, 0] : Fin 2 → ℕ) a + S64x1024.size a)
    (h' : ∀ a : Fin 2, (![o', 0] : Fin 2 → ℕ) a ≤ (y a).val ∧ (y a).val < (![o', 0] : Fin 2 → ℕ) a + S64x1024.size a) :
    Rect.unitLocal (s := S512x1024) (off := ![o, 0]) (size := S64x1024.size) y h
      = Rect.unitLocal (s := S512x1024) (off := ![o', 0]) (size := S64x1024.size) y h' := by
  subst e; rfl

/-- The scaled query projection of `t`'s block of tokens, as a [512, 1024] buffer. -/
def QAt (c : Dev nD) (t : Fin cfg0.N) : Vec F S512x1024 .bf16 :=
  k0_pay5 (iblk m c 0 (base t)) (iblk m c 1 (base t)) (iblk m c 2 (base t))
/-- The key projection. -/
def KAt (c : Dev nD) (t : Fin cfg0.N) : Vec F S512x1024 .bf16 :=
  k0_pay6 (iblk m c 0 (base t)) (iblk m c 3 (base t)) (iblk m c 4 (base t))
/-- The value projection. -/
def VAt (c : Dev nD) (t : Fin cfg0.N) : Vec F S512x1024 .bf16 :=
  k0_pay1 (k0_pay7 (iblk m c 0 (base t)) (iblk m c 5 (base t)) (iblk m c 6 (base t)))

/-- The attention output of the head of point `tp`: 64 rows. -/
def zRow (c : Dev nD) (tp : Fin cfg0.N) : Vec F S64x1024 .bf16 :=
  k0_pay2 (band (grid0.coords tp) (QAt m c tp)) (band (grid0.coords tp) (KAt m c tp)) (band (grid0.coords tp) (VAt m c tp))

/-- All eight heads' attention outputs of `t`'s block of tokens, as one [512, 1024] buffer. -/
def Zfull (c : Dev nD) (t : Fin cfg0.N) : Vec F S512x1024 .bf16 := fun y => zRow m c (pointOf t y) (localOf y)

/-- After point `t` (head h = t mod 8) the attention scratch agrees with `Zfull` on its rows below 64 (h + 1). -/
def ZInv (c : Dev nD) (t : Fin cfg0.N) (z : Vec F S512x1024 .bf16) : Prop :=
  ∀ y : S512x1024.Idx, (y (0 : Fin 2)).val < 64 * (t.val % 8 + 1) → z y = Zfull m c t y

/-- Two points of one block of tokens have the same head-0 point. -/
theorem base_eq_of_div {t t' : Fin cfg0.N} (h : t.val / 8 = t'.val / 8) : base t = base t' :=
  Fin.ext (by show 8 * (t.val / 8) = 8 * (t'.val / 8); rw [h])

theorem QAt_congr (c : Dev nD) {t t' : Fin cfg0.N} (h : t.val / 8 = t'.val / 8) : QAt m c t = QAt m c t' := by
  unfold QAt; rw [base_eq_of_div h]
theorem KAt_congr (c : Dev nD) {t t' : Fin cfg0.N} (h : t.val / 8 = t'.val / 8) : KAt m c t = KAt m c t' := by
  unfold KAt; rw [base_eq_of_div h]
theorem VAt_congr (c : Dev nD) {t t' : Fin cfg0.N} (h : t.val / 8 = t'.val / 8) : VAt m c t = VAt m c t' := by
  unfold VAt; rw [base_eq_of_div h]

theorem pointOf_congr {t t' : Fin cfg0.N} (h : t.val / 8 = t'.val / 8) (y : S512x1024.Idx) : pointOf t y = pointOf t' y :=
  Fin.ext (by show 8 * (t.val / 8) + _ = 8 * (t'.val / 8) + _; rw [h])

theorem Zfull_congr (c : Dev nD) {t t' : Fin cfg0.N} (h : t.val / 8 = t'.val / 8) : Zfull m c t = Zfull m c t' := by
  funext y; unfold Zfull; rw [pointOf_congr h y]

/-- At a head-0 point the head-0 point is the point itself. -/
theorem base_self (t : Fin cfg0.N) (h0 : t.val % 8 = 0) : base t = t :=
  Fin.ext (by show 8 * (t.val / 8) = t.val; omega)

/-- Overwriting the band of `t`'s head with that head's attention output extends the invariant by one head: at head 0
    from anything, -/
theorem ZInv_first (c : Dev nD) (t : Fin cfg0.N) (h0 : t.val % 8 = 0) (z : Vec F S512x1024 .bf16) :
    ZInv m c t (putBand (grid0.coords t) (zRow m c t) z) := by
  intro y hy
  have ho := rowOff_eq t
  unfold putBand
  have hb : rowOff (grid0.coords t) ≤ (y (0 : Fin 2)).val ∧ (y (0 : Fin 2)).val < rowOff (grid0.coords t) + 64 := by
    rw [ho]; omega
  rw [dif_pos hb]
  unfold Zfull
  have e1 : pointOf t y = t := Fin.ext (by show 8 * (t.val / 8) + (y (0 : Fin 2)).val / 64 = t.val; omega)
  rw [e1]
  exact congrArg (zRow m c t) (unitLocal_congr y (by rw [ho]; omega) _ _)

/-- and at a later head from the invariant after the head before. -/
theorem ZInv_step (c : Dev nD) (t : Fin cfg0.N) (h0 : ¬t.val % 8 = 0) (z : Vec F S512x1024 .bf16)
    (hz : ZInv m c ⟨t.val - 1, Nat.lt_of_le_of_lt (Nat.sub_le _ _) t.isLt⟩ z) :
    ZInv m c t (putBand (grid0.coords t) (zRow m c t) z) := by
  intro y hy
  have ho := rowOff_eq t
  unfold putBand
  by_cases hb : rowOff (grid0.coords t) ≤ (y (0 : Fin 2)).val ∧ (y (0 : Fin 2)).val < rowOff (grid0.coords t) + 64
  · rw [dif_pos hb]
    unfold Zfull
    have e1 : pointOf t y = t := Fin.ext (by
      show 8 * (t.val / 8) + (y (0 : Fin 2)).val / 64 = t.val
      rw [ho] at hb; omega)
    rw [e1]
    exact congrArg (zRow m c t) (unitLocal_congr y (by rw [ho] at hb ⊢; omega) _ _)
  · rw [dif_neg hb]
    rw [ho] at hb
    have hlt : (y (0 : Fin 2)).val < 64 * ((t.val - 1) % 8 + 1) := by omega
    rw [hz y hlt]
    exact congrFun (Zfull_congr m c (t := ⟨t.val - 1, Nat.lt_of_le_of_lt (Nat.sub_le _ _) t.isLt⟩) (t' := t) (by show (t.val - 1) / 8 = t.val / 8; omega)) y

/-- After the last head every row is determined. -/
theorem ZInv_last (c : Dev nD) (t : Fin cfg0.N) (h1 : t.val % 8 = 7) (z : Vec F S512x1024 .bf16) (hz : ZInv m c t z) :
    z = Zfull m c t :=
  funext fun y => hz y (by have : (y (0 : Fin 2)).val < 512 := (y (0 : Fin 2)).isLt; omega)

/-- At a head-0 point the projections are those of the point's own blocks. -/
theorem QAt_first (c : Dev nD) (t : Fin cfg0.N) (h0 : t.val % 8 = 0) :
    QAt m c t = k0_pay5 (iblk m c 0 t) (iblk m c 1 t) (iblk m c 2 t) := by unfold QAt; rw [base_self t h0]
theorem KAt_first (c : Dev nD) (t : Fin cfg0.N) (h0 : t.val % 8 = 0) :
    KAt m c t = k0_pay6 (iblk m c 0 t) (iblk m c 3 t) (iblk m c 4 t) := by unfold KAt; rw [base_self t h0]
theorem VAt_first (c : Dev nD) (t : Fin cfg0.N) (h0 : t.val % 8 = 0) :
    VAt m c t = k0_pay1 (k0_pay7 (iblk m c 0 t) (iblk m c 5 t) (iblk m c 6 t)) := by unfold VAt; rw [base_self t h0]

/-- `ZInv_first` with the head-0 projections written out. -/
theorem ZInv_first' (c : Dev nD) (t : Fin cfg0.N) (h0 : t.val % 8 = 0) (z : Vec F S512x1024 .bf16) :
    ZInv m c t (putBand (grid0.coords t)
      (k0_pay2 (band (grid0.coords t) (k0_pay5 (iblk m c 0 t) (iblk m c 1 t) (iblk m c 2 t)))
        (band (grid0.coords t) (k0_pay6 (iblk m c 0 t) (iblk m c 3 t) (iblk m c 4 t)))
        (band (grid0.coords t) (k0_pay1 (k0_pay7 (iblk m c 0 t) (iblk m c 5 t) (iblk m c 6 t))))) z) := by
  have h := ZInv_first m c t h0 z
  unfold zRow at h
  rwa [QAt_first m c t h0, KAt_first m c t h0, VAt_first m c t h0] at h

end Cert.KernelIdeal.Body

end
-- ==== Proof.FrameI.RunFirst.lean ====
/-
  The body at head 0: it computes the three projections of the point's block of tokens and stores them whole, then
  does head 0's attention from their first bands and overwrites the first band of the attention scratch.
-/
import proofs.«154566_j41051297415246_2_alg».proof.Proof.FrameI.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At head 0: whatever the three projection buffers held, the body leaves them at the projections of the point's
    inputs, and the attention scratch at `z` with band 0 replaced by head 0's attention output. -/
theorem runFirst (c : Dev nD) (i : grid0.Coords) (arg2 : Memref sig .tc .vmem S1x1024x512 .f32) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S512x512 .bf16) (harg9 : arg9.IsWhole) (arg10 : Memref sig .tc .vmem S512 .f32) (harg10 : arg10.IsWhole) (arg11 : Memref sig .tc .vmem S1x1024x512 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x1024 .bf16) (harg15 : arg15.IsWhole) (hc0 : atFirstHead i) (hc1 : ¬atLastHead i)
    (x0 : Vec F S1x1024x512 .f32) (x1 : Vec F S512x512 .bf16) (x2 : Vec F S512 .f32) (x3 : Vec F S512x512 .bf16) (x4 : Vec F S512 .f32) (x5 : Vec F S512x512 .bf16) (x6 : Vec F S512 .f32) (x7 : Vec F S512x512 .bf16) (x8 : Vec F S512 .f32) (x9 : Vec F S1x1024x512 .f32) (z : Vec F S512x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare z
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (k0_pay5 x0 x1 x2) ∗ owns (c : Thread nD τ) arg13 fullShare (k0_pay6 x0 x3 x4) ∗ owns (c : Thread nD τ) arg14 fullShare (k0_pay1 (k0_pay7 x0 x5 x6))
            ∗ owns (c : Thread nD τ) arg15 fullShare (putBand i (k0_pay2 (band i (k0_pay5 x0 x1 x2)) (band i (k0_pay6 x0 x3 x4)) (band i (k0_pay1 (k0_pay7 x0 x5 x6)))) z)) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_kernel_eq_skeleton]; unfold cc0__attn_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg15.eq_unread hfs3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [HS0]
  · iexists _; isplitr; swap; · iexact HS0
    ipureintro
    sl_unfold_run_names
    simp only [View.readAt_eq_ld, read_putBand, read_putBand', read_whole2, read_whole3, ld_band, harg2.read_unread, harg3.read_unread, harg4.read_unread, harg5.read_unread, harg6.read_unread, harg7.read_unread, harg8.read_unread, harg9.read_unread, harg10.read_unread, harg12.read_unread, harg13.read_unread, harg14.read_unread, View.ld_unit_zero (S := S1x1024x512) zeros3, View.ld_unit_zero (S := S512x1024) zeros2, View.ld_unit_zero (S := S512x512) zeros2, View.ld_unit_zero (S := S512) zeros1]
  isplitl [HS1]
  · iexists _; isplitr; swap; · iexact HS1
    ipureintro
    sl_unfold_run_names
    simp only [View.readAt_eq_ld, read_putBand, read_putBand', read_whole2, read_whole3, ld_band, harg2.read_unread, harg3.read_unread, harg4.read_unread, harg5.read_unread, harg6.read_unread, harg7.read_unread, harg8.read_unread, harg9.read_unread, harg10.read_unread, harg12.read_unread, harg13.read_unread, harg14.read_unread, View.ld_unit_zero (S := S1x1024x512) zeros3, View.ld_unit_zero (S := S512x1024) zeros2, View.ld_unit_zero (S := S512x512) zeros2, View.ld_unit_zero (S := S512) zeros1]
  isplitl [HS2]
  · iexists _; isplitr; swap; · iexact HS2
    ipureintro
    sl_unfold_run_names
    simp only [View.readAt_eq_ld, read_putBand, read_putBand', read_whole2, read_whole3, ld_band, harg2.read_unread, harg3.read_unread, harg4.read_unread, harg5.read_unread, harg6.read_unread, harg7.read_unread, harg8.read_unread, harg9.read_unread, harg10.read_unread, harg12.read_unread, harg13.read_unread, harg14.read_unread, View.ld_unit_zero (S := S1x1024x512) zeros3, View.ld_unit_zero (S := S512x1024) zeros2, View.ld_unit_zero (S := S512x512) zeros2, View.ld_unit_zero (S := S512) zeros1]
  iexists _; isplitr; swap; · iexact HS3
  ipureintro
  sl_unfold_run_names
  simp only [View.readAt_eq_ld, read_putBand, read_putBand', read_whole2, read_whole3, ld_band, harg2.read_unread, harg3.read_unread, harg4.read_unread, harg5.read_unread, harg6.read_unread, harg7.read_unread, harg8.read_unread, harg9.read_unread, harg10.read_unread, harg12.read_unread, harg13.read_unread, harg14.read_unread, View.ld_unit_zero (S := S1x1024x512) zeros3, View.ld_unit_zero (S := S512x1024) zeros2, View.ld_unit_zero (S := S512x512) zeros2, View.ld_unit_zero (S := S512) zeros1]

end Cert.KernelIdeal.Body

end
-- ==== Proof.FrameI.RunMid.lean ====
/-
  The body at a middle head (neither the first nor the last): it reads the three projections' bands, computes the
  head's attention output and overwrites that head's band of the attention scratch; nothing else changes.
-/
import proofs.«154566_j41051297415246_2_alg».proof.Proof.FrameI.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a middle head: the output block is not touched; from the projections `q`, `k`, `v` and the attention scratch at `z`, the body runs and leaves
    the projections as they were and the scratch at `z` with the head's band replaced by that head's attention output. -/
theorem runMid (c : Dev nD) (i : grid0.Coords) (arg2 : Memref sig .tc .vmem S1x1024x512 .f32) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S512x512 .bf16) (harg9 : arg9.IsWhole) (arg10 : Memref sig .tc .vmem S512 .f32) (harg10 : arg10.IsWhole) (arg11 : Memref sig .tc .vmem S1x1024x512 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x1024 .bf16) (harg15 : arg15.IsWhole) (hc0 : ¬atFirstHead i) (hc1 : ¬atLastHead i)
    (x0 : Vec F S1x1024x512 .f32) (x1 : Vec F S512x512 .bf16) (x2 : Vec F S512 .f32) (x3 : Vec F S512x512 .bf16) (x4 : Vec F S512 .f32) (x5 : Vec F S512x512 .bf16) (x6 : Vec F S512 .f32) (x7 : Vec F S512x512 .bf16) (x8 : Vec F S512 .f32) (x9 : Vec F S1x1024x512 .f32) (q k v z : Vec F S512x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare q ∗ owns (c : Thread nD τ) arg13 fullShare k ∗ owns (c : Thread nD τ) arg14 fullShare v ∗ owns (c : Thread nD τ) arg15 fullShare z
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare q ∗ owns (c : Thread nD τ) arg13 fullShare k ∗ owns (c : Thread nD τ) arg14 fullShare v
            ∗ owns (c : Thread nD τ) arg15 fullShare (putBand i (k0_pay2 (band i q) (band i k) (band i v)) z)) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1; obtain rfl := harg14.eq_unread hfs2; obtain rfl := harg15.eq_unread hfs3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [HS0]
  · iexists _; isplitr; · ipureintro; exact harg12.read_unread _
    iexact HS0
  isplitl [HS1]
  · iexists _; isplitr; · ipureintro; exact harg13.read_unread _
    iexact HS1
  isplitl [HS2]
  · iexists _; isplitr; · ipureintro; exact harg14.read_unread _
    iexact HS2
  iexists _; isplitr; swap; · iexact HS3
  ipureintro
  rw [read_putBand]
  simp only [View.readAt_eq_ld, harg12.read_unread, harg13.read_unread, harg14.read_unread]
  rfl

end Cert.KernelIdeal.Body

end
-- ==== Proof.FrameI.RunLast.lean ====
/-
  The body at the last head: it does that head's attention, overwrites the last band of the attention scratch, then
  reads the whole scratch and stores the output projection of it into the output block.
-/
import proofs.«154566_j41051297415246_2_alg».proof.Proof.FrameI.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At the last head: the projections stay, the attention scratch gets the head's band, and the output block is the
    output projection of the whole scratch as it then stands. -/
theorem runLast (c : Dev nD) (i : grid0.Coords) (arg2 : Memref sig .tc .vmem S1x1024x512 .f32) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S512x512 .bf16) (harg9 : arg9.IsWhole) (arg10 : Memref sig .tc .vmem S512 .f32) (harg10 : arg10.IsWhole) (arg11 : Memref sig .tc .vmem S1x1024x512 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x1024 .bf16) (harg15 : arg15.IsWhole) (hc0 : ¬atFirstHead i) (hc1 : atLastHead i)
    (x0 : Vec F S1x1024x512 .f32) (x1 : Vec F S512x512 .bf16) (x2 : Vec F S512 .f32) (x3 : Vec F S512x512 .bf16) (x4 : Vec F S512 .f32) (x5 : Vec F S512x512 .bf16) (x6 : Vec F S512 .f32) (x7 : Vec F S512x512 .bf16) (x8 : Vec F S512 .f32) (q k v z : Vec F S512x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare q ∗ owns (c : Thread nD τ) arg13 fullShare k ∗ owns (c : Thread nD τ) arg14 fullShare v ∗ owns (c : Thread nD τ) arg15 fullShare z
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k0_pay3 (putBand i (k0_pay2 (band i q) (band i k) (band i v)) z) x7 x8) ∗ owns (c : Thread nD τ) arg12 fullShare q ∗ owns (c : Thread nD τ) arg13 fullShare k ∗ owns (c : Thread nD τ) arg14 fullShare v
            ∗ owns (c : Thread nD τ) arg15 fullShare (putBand i (k0_pay2 (band i q) (band i k) (band i v)) z)) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0; obtain rfl := harg13.eq_unread hfs1; obtain rfl := harg14.eq_unread hfs2; obtain rfl := harg15.eq_unread hfs3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro
    sl_unfold_run_names
    simp only [View.readAt_eq_ld, read_putBand, read_putBand', read_whole2, read_whole3, ld_band, harg2.read_unread, harg3.read_unread, harg4.read_unread, harg5.read_unread, harg6.read_unread, harg7.read_unread, harg8.read_unread, harg9.read_unread, harg10.read_unread, harg12.read_unread, harg13.read_unread, harg14.read_unread, View.ld_unit_zero (S := S1x1024x512) zeros3, View.ld_unit_zero (S := S512x1024) zeros2, View.ld_unit_zero (S := S512x512) zeros2, View.ld_unit_zero (S := S512) zeros1]
  isplitl [HS0]
  · iexists _; isplitr; · ipureintro; exact harg12.read_unread _
    iexact HS0
  isplitl [HS1]
  · iexists _; isplitr; · ipureintro; exact harg13.read_unread _
    iexact HS1
  isplitl [HS2]
  · iexists _; isplitr; · ipureintro; exact harg14.read_unread _
    iexact HS2
  iexists _; isplitr; swap; · iexact HS3
  ipureintro
  sl_unfold_run_names
  simp only [View.readAt_eq_ld, read_putBand, read_putBand', read_whole2, read_whole3, ld_band, harg2.read_unread, harg3.read_unread, harg4.read_unread, harg5.read_unread, harg6.read_unread, harg7.read_unread, harg8.read_unread, harg9.read_unread, harg10.read_unread, harg12.read_unread, harg13.read_unread, harg14.read_unread, View.ld_unit_zero (S := S1x1024x512) zeros3, View.ld_unit_zero (S := S512x1024) zeros2, View.ld_unit_zero (S := S512x512) zeros2, View.ld_unit_zero (S := S512) zeros1]

end Cert.KernelIdeal.Body

end
-- ==== Proof.FrameI.Sound.lean ====
/-
  The body obligation of the attention kernel, and its frame. The invariant carried from point to point: after point t
  the three projection buffers hold the projections of t's block of tokens and the attention scratch agrees with the
  eight heads' outputs on the bands of the heads done so far; the output block is written at the last head only, from
  the then complete scratch, and is handed back untouched at the other heads.
-/
import proofs.«154566_j41051297415246_2_alg».proof.Proof.FrameI.Data
import proofs.«154566_j41051297415246_2_alg».proof.Proof.FrameI.RunFirst
import proofs.«154566_j41051297415246_2_alg».proof.Proof.FrameI.RunMid
import proofs.«154566_j41051297415246_2_alg».proof.Proof.FrameI.RunLast

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the windows are idle -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
/-- The output window is idle at every head but the last, -/
theorem idle9_of_not_last : ∀ t : Fin cfg0.N, ¬t.val % 8 = 7 → cfg0.idle 9 (grid0.coords t) = true :=
  (by decide +kernel : ∀ t : Fin grid0.N, ¬t.val % 8 = 7 → cfg0.idle 9 (grid0.coords t) = true)
theorem live9_of_last : ∀ t : Fin cfg0.N, t.val % 8 = 7 → cfg0.idle 9 (grid0.coords t) = false :=
  (by decide +kernel : ∀ t : Fin grid0.N, t.val % 8 = 7 → cfg0.idle 9 (grid0.coords t) = false)
/-- and is written back at the last head only. -/
theorem noflush9 (t : Fin cfg0.N) (h : ¬t.val % 8 = 7) : (cfg0.win 9).flush t = false := by
  cases hf : (cfg0.win 9).flush t with
  | false => rfl
  | true => exact absurd ((flush0_9 t).mp hf) h

/-! ## The scratch buffers and the invariant -/

abbrev scQ : Memref sig .tc .vmem S512x1024 .bf16 := Memref.whole cc0_scratch0
abbrev scK : Memref sig .tc .vmem S512x1024 .bf16 := Memref.whole cc0_scratch1
abbrev scV : Memref sig .tc .vmem S512x1024 .bf16 := Memref.whole cc0_scratch2
abbrev scZ : Memref sig .tc .vmem S512x1024 .bf16 := Memref.whole cc0_scratch3

/-- What the launch hands the region: the four scratch buffers at some contents, and the generator register. -/
theorem PhiA_eq (c : Dev nD) :
    (Pipeline.ΦA spec0 c : sProp 𝕄)
      = iprop(iprop((∃ d, owns (c : Thread nD τ) scQ fullShare d) ∗ (∃ d, owns (c : Thread nD τ) scK fullShare d) ∗ (∃ d, owns (c : Thread nD τ) scV fullShare d) ∗ (∃ d, owns (c : Thread nD τ) scZ fullShare d)) ∗ (∃ r, prngReg c r)) := by
  unfold Pipeline.ΦA; rw [scopedRest0_eq]; simp only [scQ, scK, scV, scZ, owns_whole]; try rfl

/-- The invariant before position `n`: before the first point what the launch hands over; after point `n - 1` the
    projections of its block of tokens and an attention scratch that agrees with the heads done so far. -/
def PhiS (c : Dev nD) : (n : ℕ) → n ≤ cfg0.N → sProp 𝕄
  | 0, _ => Pipeline.ΦA spec0 c
  | n + 1, hn => iprop(iprop(owns (c : Thread nD τ) scQ fullShare (QAt m c ⟨n, hn⟩) ∗ owns (c : Thread nD τ) scK fullShare (KAt m c ⟨n, hn⟩) ∗ owns (c : Thread nD τ) scV fullShare (VAt m c ⟨n, hn⟩) ∗ (∃ z, ⌜ZInv m c ⟨n, hn⟩ z⌝ ∗ owns (c : Thread nD τ) scZ fullShare z)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scQ fullShare (QAt m c ⟨n, hn⟩) ∗ owns (c : Thread nD τ) scK fullShare (KAt m c ⟨n, hn⟩) ∗ owns (c : Thread nD τ) scV fullShare (VAt m c ⟨n, hn⟩) ∗ (∃ z, ⌜ZInv m c ⟨n, hn⟩ z⌝ ∗ owns (c : Thread nD τ) scZ fullShare z)) ∗ (∃ r, prngReg c r)) := rfl

theorem PhiS_pos (c : Dev nD) (n : ℕ) (h : n ≤ cfg0.N) (hz : n ≠ 0) :
    PhiS m c n h = iprop(iprop(owns (c : Thread nD τ) scQ fullShare (QAt m c ⟨n - 1, by omega⟩) ∗ owns (c : Thread nD τ) scK fullShare (KAt m c ⟨n - 1, by omega⟩) ∗ owns (c : Thread nD τ) scV fullShare (VAt m c ⟨n - 1, by omega⟩) ∗ (∃ z, ⌜ZInv m c ⟨n - 1, by omega⟩ z⌝ ∗ owns (c : Thread nD τ) scZ fullShare z)) ∗ (∃ r, prngReg c r)) := by
  cases n with
  | zero => exact absurd rfl hz
  | succ n => rfl

/-! ## The proof data -/

/-- The arrays as the region finds them; each input's buffer at its block; the output's buffer at the output projection
    of the complete attention scratch (what the last head leaves; the other heads are idle for the window). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => k0_pay3 (Zfull m c t) (iblk m c 7 t) (iblk m c 8 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) :
    (dats m 0 c).after 9 t = k0_pay3 (Zfull m c t) (iblk m c 7 t) (iblk m c 8 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 14400000 in
/-- The body at any point, by the head: at head 0 the projections are recomputed and band 0 written (from anything
    at the very first point, from the previous block's leftovers later); at a middle head one more band; at the last
    head the last band, after which the scratch is complete and its output projection is what the window writes back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).owesAt () t.succ = (dats m 0 c).owesAt () t.castSucc from rfl]
  rw [show (dats m 0 c).Φ t.succ = PhiS m c (t.val + 1) t.isLt from rfl, PhiS_succ]
  have hN : t.val < 128 := val_lt t
  rw [show (dats m 0 c).leavesExact 0 t = owns (c : Thread nD τ) (st0_0 t) fullShare ((dats m 0 c).after 0 t) from by
    unfold Dat.leavesExact; rw [live0 t], after0]
  rw [show (dats m 0 c).leavesExact 1 t = owns (c : Thread nD τ) (st0_1 t) fullShare ((dats m 0 c).after 1 t) from by
    unfold Dat.leavesExact; rw [live1 t], after1]
  rw [show (dats m 0 c).leavesExact 2 t = owns (c : Thread nD τ) (st0_2 t) fullShare ((dats m 0 c).after 2 t) from by
    unfold Dat.leavesExact; rw [live2 t], after2]
  rw [show (dats m 0 c).leavesExact 3 t = owns (c : Thread nD τ) (st0_3 t) fullShare ((dats m 0 c).after 3 t) from by
    unfold Dat.leavesExact; rw [live3 t], after3]
  rw [show (dats m 0 c).leavesExact 4 t = owns (c : Thread nD τ) (st0_4 t) fullShare ((dats m 0 c).after 4 t) from by
    unfold Dat.leavesExact; rw [live4 t], after4]
  rw [show (dats m 0 c).leavesExact 5 t = owns (c : Thread nD τ) (st0_5 t) fullShare ((dats m 0 c).after 5 t) from by
    unfold Dat.leavesExact; rw [live5 t], after5]
  rw [show (dats m 0 c).leavesExact 6 t = owns (c : Thread nD τ) (st0_6 t) fullShare ((dats m 0 c).after 6 t) from by
    unfold Dat.leavesExact; rw [live6 t], after6]
  rw [show (dats m 0 c).leavesExact 7 t = owns (c : Thread nD τ) (st0_7 t) fullShare ((dats m 0 c).after 7 t) from by
    unfold Dat.leavesExact; rw [live7 t], after7]
  rw [show (dats m 0 c).leavesExact 8 t = owns (c : Thread nD τ) (st0_8 t) fullShare ((dats m 0 c).after 8 t) from by
    unfold Dat.leavesExact; rw [live8 t], after8]
  by_cases h0 : t.val % 8 = 0
  · have h1 : ¬t.val % 8 = 7 := by omega
    rw [(dats m 0 c).leavesExact_idle 9 t (idle9_of_not_last t h1) (noflush9 t h1)]
    rw [show (⟨t.val, t.isLt⟩ : Fin cfg0.N) = t from rfl, QAt_first m c t h0, KAt_first m c t h0, VAt_first m c t h0]
    by_cases hz : t.val = 0
    · rw [PhiS_castSucc m c t, PhiS_zero m c _ _ hz, PhiA_eq]
      iintro ⟨⟨⟨HS0, HS1, HS2, ⟨%z, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runFirst c (grid0.coords t) _ _ _ _ _ _ _ _ _ _ _ _ _ _ _ _ _ _ _ _ _ _ _ _ _ _ _ _ ((atFirstHead_iff t).mpr h0) (fun h => h1 ((atLastHead_iff t).mp h)) (iblk m c 0 t) (iblk m c 1 t) (iblk m c 2 t) (iblk m c 3 t) (iblk m c 4 t) (iblk m c 5 t) (iblk m c 6 t) (iblk m c 7 t) (iblk m c 8 t) ((dats m 0 c).before 9 t d9) z Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      iintro ⟨H0, H1, H2, H3, H4, H5, H6, H7, H8, H9, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexists _; isplitr; swap; · iexact HS3
          ipureintro; exact ZInv_first' m c t h0 z
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
    · rw [PhiS_castSucc m c t, PhiS_pos m c _ _ hz]
      iintro ⟨⟨⟨HS0, HS1, HS2, ⟨%z, -, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runFirst c (grid0.coords t) _ _ _ _ _ _ _ _ _ _ _ _ _ _ _ _ _ _ _ _ _ _ _ _ _ _ _ _ ((atFirstHead_iff t).mpr h0) (fun h => h1 ((atLastHead_iff t).mp h)) (iblk m c 0 t) (iblk m c 1 t) (iblk m c 2 t) (iblk m c 3 t) (iblk m c 4 t) (iblk m c 5 t) (iblk m c 6 t) (iblk m c 7 t) (iblk m c 8 t) ((dats m 0 c).before 9 t d9) z Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexists _; iexact HS0
      isplitl [HS1]; · iexists _; iexact HS1
      isplitl [HS2]; · iexists _; iexact HS2
      isplitl [HS3]; · iexact HS3
      iintro ⟨H0, H1, H2, H3, H4, H5, H6, H7, H8, H9, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexists _; isplitr; swap; · iexact HS3
          ipureintro; exact ZInv_first' m c t h0 z
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
  · have hz : t.val ≠ 0 := fun h => h0 (by rw [h])
    have hdiv : (t.val - 1) / 8 = t.val / 8 := by omega
    rw [show (⟨t.val, t.isLt⟩ : Fin cfg0.N) = t from rfl, PhiS_castSucc m c t, PhiS_pos m c _ _ hz,
      QAt_congr m c (t := ⟨t.val - 1, Nat.lt_of_le_of_lt (Nat.sub_le _ _) t.isLt⟩) (t' := t) hdiv,
      KAt_congr m c (t := ⟨t.val - 1, Nat.lt_of_le_of_lt (Nat.sub_le _ _) t.isLt⟩) (t' := t) hdiv,
      VAt_congr m c (t := ⟨t.val - 1, Nat.lt_of_le_of_lt (Nat.sub_le _ _) t.isLt⟩) (t' := t) hdiv]
    by_cases h1 : t.val % 8 = 7
    · rw [show (dats m 0 c).leavesExact 9 t = owns (c : Thread nD τ) (st0_9 t) fullShare ((dats m 0 c).after 9 t) from by
        unfold Dat.leavesExact; rw [live9_of_last t h1], after9]
      iintro ⟨⟨⟨HS0, HS1, HS2, ⟨%z, %hzi, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runLast c (grid0.coords t) _ _ _ _ _ _ _ _ _ _ _ _ _ _ _ _ _ _ _ _ _ _ _ _ _ _ _ _ (fun h => h0 ((atFirstHead_iff t).mp h)) ((atLastHead_iff t).mpr h1) (iblk m c 0 t) (iblk m c 1 t) (iblk m c 2 t) (iblk m c 3 t) (iblk m c 4 t) (iblk m c 5 t) (iblk m c 6 t) (iblk m c 7 t) (iblk m c 8 t) (QAt m c t) (KAt m c t) (VAt m c t) z Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      isplitl [HS2]; · iexact HS2
      isplitl [HS3]; · iexact HS3
      iintro ⟨H0, H1, H2, H3, H4, H5, H6, H7, H8, H9, HS0, HS1, HS2, HS3⟩
      have hstep := ZInv_step m c t h0 z hzi
      have hfull := ZInv_last m c t h1 _ hstep
      isplitl [HS0 HS1 HS2 HS3 Hg]
      · isplitl [HS0 HS1 HS2 HS3]
        · isplitl [HS0]; · iexact HS0
          isplitl [HS1]; · iexact HS1
          isplitl [HS2]; · iexact HS2
          iexists _; isplitr; swap; · iexact HS3
          ipureintro; exact hstep
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      rw [← hfull]
      iexact H9
    · rw [(dats m 0 c).leavesExact_idle 9 t (idle9_of_not_last t h1) (noflush9 t h1)]
      iintro ⟨⟨⟨HS0, HS1, HS2, ⟨%z, %hzi, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runMid c (grid0.coords t) _ _ _ _ _ _ _ _ _ _ _ _ _ _ _ _ _ _ _ _ _ _ _ _ _ _ _ _ (fun h => h0 ((atFirstHead_iff t).mp h)) (fun h => h1 ((atLastHead_iff t).mp h)) (iblk m c 0 t) (iblk m c 1 t) (iblk m c 2 t) (iblk m c 3 t) (iblk m c 4 t) (iblk m c 5 t) (iblk m c 6 t) (iblk m c 7 t) (iblk m c 8 t) ((dats m 0 c).before 9 t d9) (QAt m c t) (KAt m c t) (VAt m c t) z Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      iintro ⟨H0, H1, H2, H3, H4, H5, H6, H7, H8, H9, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexists _; isplitr; swap; · iexact HS3
          ipureintro; exact ZInv_step m c t h0 z hzi
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives back what the launch handed over: the named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2, ⟨%z, -, HS3⟩⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

/-- Every weakly fair execution of @main terminates; the output array ends at what the proof data says was written back,
    every argument array as launched. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Body

end
-- ==== Proof.RefSpec.lean ====
/-
  The reference's result as a closed form, index by index, on the extended reals.

  Multi-head attention over B = 2, T = 8, N = 1024 tokens, model dimension 512 = 8 heads of 64. With
  Q = X Wqᵀ + bq, K = X Wkᵀ + bk, V = X Wvᵀ + bv (per (b, t), token n, model coordinate e), head h owning the model
  coordinates 64 h + d, the reference forms the logits L[n, m] = (∑_d Q[n, 64h+d] K[m, 64h+d]) · 0.125, adds to every
  logit of a (b, t) a scalar delta[b, t] computed from X alone (the ℓ¹ distance between the token-means of consecutive
  t, and 0 at t = 0, times the word 1.0), takes the softmax over m (maximum subtracted, exponentials, division by their
  sum), multiplies by V, lays the heads side by side again and applies the output projection Wo, bo.
  This module states that function and imports no program.
-/
import Idealize.ShloMosaic.PureOps.Ideal
import Idealize.ShloMosaic.PureOps.Ideal.Laws
import Idealize.ShloMosaic.Lib.ValueIdx

noncomputable section

open scoped BigOperators

namespace Cert.RefLeg

open Idealize.ShloMosaic Idealize.ShloMosaic.ValueIdx

/-! ## The literal shapes -/

/-- The activations' and the result's shape: batch, time, token, model coordinate. -/
abbrev SX : Shape := ⟨4, ![2, 8, 1024, 512]⟩
/-- A projection matrix's shape: output coordinate, input coordinate. -/
abbrev SW : Shape := ⟨2, ![512, 512]⟩
/-- A bias vector's shape. -/
abbrev SB : Shape := ⟨1, ![512]⟩

/-! ## Heads -/

/-- The model coordinate `64 h + d` of head `h`'s coordinate `d`. -/
abbrev hd (h : Fin 8) (d : Fin 64) : Fin 512 := ⟨64 * h.val + d.val, by have := h.isLt; have := d.isLt; omega⟩
/-- The head a model coordinate belongs to. -/
abbrev headOf (k : Fin 512) : Fin 8 := ⟨k.val / 64, by have := k.isLt; omega⟩
/-- A model coordinate's position inside its head. -/
abbrev posOf (k : Fin 512) : Fin 64 := ⟨k.val % 64, by have := k.isLt; omega⟩

/-! ## The projections -/

/-- A projection `X Wᵀ + c` at batch `b`, time `t`, token `n`, model coordinate `e`. -/
def proj (X : SX.Idx → EReal) (W : SW.Idx → EReal) (c : SB.Idx → EReal) (b : Fin 2) (t : Fin 8) (n : Fin 1024) (e : Fin 512) : EReal :=
  (∑ k : Fin 512, X (ix4 b t n k) * W (ix2 e k)) + c (ix1 e)

/-- The queries (not yet scaled). -/
def Qr (X : SX.Idx → EReal) (Wq : SW.Idx → EReal) (bq : SB.Idx → EReal) (b : Fin 2) (t : Fin 8) (n : Fin 1024) (e : Fin 512) : EReal :=
  proj X Wq bq b t n e
/-- The keys. -/
def Kr (X : SX.Idx → EReal) (Wk : SW.Idx → EReal) (bk : SB.Idx → EReal) (b : Fin 2) (t : Fin 8) (n : Fin 1024) (e : Fin 512) : EReal :=
  proj X Wk bk b t n e
/-- The values. -/
def Vr (X : SX.Idx → EReal) (Wv : SW.Idx → EReal) (bv : SB.Idx → EReal) (b : Fin 2) (t : Fin 8) (n : Fin 1024) (e : Fin 512) : EReal :=
  proj X Wv bv b t n e

/-! ## The logits -/

/-- Head `h`'s logit of query token `n` against key token `m`: the scale `0.125` multiplies the finished sum. -/
def logit (X : SX.Idx → EReal) (Wq : SW.Idx → EReal) (bq : SB.Idx → EReal) (Wk : SW.Idx → EReal) (bk : SB.Idx → EReal)
    (b : Fin 2) (t : Fin 8) (h : Fin 8) (n m : Fin 1024) : EReal :=
  (∑ d : Fin 64, Qr X Wq bq b t n (hd h d) * Kr X Wk bk b t m (hd h d)) * Ideal.ofBits .f32 0x3E000000#32

/-! ## The shift added to every logit of a (b, t) -/

/-- The mean over the tokens of the activations at `(b, t)`, model coordinate `e`: the sum divided by the word `1024.0`. -/
def xmean (X : SX.Idx → EReal) (b : Fin 2) (t : Fin 8) (e : Fin 512) : EReal :=
  Ideal.div (∑ n : Fin 1024, X (ix4 b t n e)) (Ideal.ofBits .f32 0x44800000#32)

/-- The ℓ¹ distance between the token-means at times `s + 1` and `s` (the absolute value is `max y (-y)`). -/
def tdiff (X : SX.Idx → EReal) (b : Fin 2) (s : Fin 7) : EReal :=
  ∑ e : Fin 512, max (xmean X b ⟨1 + s.val, by have := s.isLt; omega⟩ e - xmean X b ⟨s.val, by have := s.isLt; omega⟩ e)
    (-(xmean X b ⟨1 + s.val, by have := s.isLt; omega⟩ e - xmean X b ⟨s.val, by have := s.isLt; omega⟩ e))

/-- `0` at time `0`, and at time `t ≥ 1` the distance between the token-means at `t` and `t - 1`. -/
def delta0 (X : SX.Idx → EReal) (b : Fin 2) (t : Fin 8) : EReal :=
  if h : t.val = 0 then 0 else tdiff X b ⟨t.val - 1, by have := t.isLt; omega⟩

/-- The shift: the word `1.0` times `delta0`. It depends on `(b, t)` only. -/
def delta (X : SX.Idx → EReal) (b : Fin 2) (t : Fin 8) : EReal :=
  Ideal.ofBits .f32 0x3F800000#32 * delta0 X b t

/-! ## The softmax over the key tokens -/

/-- The shifted logit. -/
def slogit (X : SX.Idx → EReal) (Wq : SW.Idx → EReal) (bq : SB.Idx → EReal) (Wk : SW.Idx → EReal) (bk : SB.Idx → EReal)
    (b : Fin 2) (t : Fin 8) (h : Fin 8) (n m : Fin 1024) : EReal :=
  logit X Wq bq Wk bk b t h n m + delta X b t

/-- The row maximum: the supremum over the key tokens of the shifted logits. -/
def rowmax (X : SX.Idx → EReal) (Wq : SW.Idx → EReal) (bq : SB.Idx → EReal) (Wk : SW.Idx → EReal) (bk : SB.Idx → EReal)
    (b : Fin 2) (t : Fin 8) (h : Fin 8) (n : Fin 1024) : EReal :=
  ⨆ m : Fin 1024, slogit X Wq bq Wk bk b t h n m

/-- The exponential of the shifted logit less the row maximum. -/
def pexp (X : SX.Idx → EReal) (Wq : SW.Idx → EReal) (bq : SB.Idx → EReal) (Wk : SW.Idx → EReal) (bk : SB.Idx → EReal)
    (b : Fin 2) (t : Fin 8) (h : Fin 8) (n m : Fin 1024) : EReal :=
  Ideal.exp (slogit X Wq bq Wk bk b t h n m - rowmax X Wq bq Wk bk b t h n)

/-- The row's sum of exponentials. -/
def rowsum (X : SX.Idx → EReal) (Wq : SW.Idx → EReal) (bq : SB.Idx → EReal) (Wk : SW.Idx → EReal) (bk : SB.Idx → EReal)
    (b : Fin 2) (t : Fin 8) (h : Fin 8) (n : Fin 1024) : EReal :=
  ∑ m : Fin 1024, pexp X Wq bq Wk bk b t h n m

/-- The attention weight of key token `m` for query token `n` in head `h`. -/
def soft (X : SX.Idx → EReal) (Wq : SW.Idx → EReal) (bq : SB.Idx → EReal) (Wk : SW.Idx → EReal) (bk : SB.Idx → EReal)
    (b : Fin 2) (t : Fin 8) (h : Fin 8) (n m : Fin 1024) : EReal :=
  Ideal.div (pexp X Wq bq Wk bk b t h n m) (rowsum X Wq bq Wk bk b t h n)

/-! ## The weighted values and the output projection -/

/-- Head `h`'s output for token `n` at head coordinate `d`: the weights against the values. -/
def Zr (X : SX.Idx → EReal) (Wq : SW.Idx → EReal) (bq : SB.Idx → EReal) (Wk : SW.Idx → EReal) (bk : SB.Idx → EReal)
    (Wv : SW.Idx → EReal) (bv : SB.Idx → EReal) (b : Fin 2) (t : Fin 8) (h : Fin 8) (n : Fin 1024) (d : Fin 64) : EReal :=
  ∑ m : Fin 1024, soft X Wq bq Wk bk b t h n m * Vr X Wv bv b t m (hd h d)

/-- The result at `(b, t, n, e)`: the heads' outputs, side by side along the model coordinate `k` (head `k / 64`,
    position `k % 64`), against row `e` of `Wo`, plus the bias. -/
def refOutAt (X : SX.Idx → EReal) (Wq : SW.Idx → EReal) (bq : SB.Idx → EReal) (Wk : SW.Idx → EReal) (bk : SB.Idx → EReal)
    (Wv : SW.Idx → EReal) (bv : SB.Idx → EReal) (Wo : SW.Idx → EReal) (bo : SB.Idx → EReal)
    (b : Fin 2) (t : Fin 8) (n : Fin 1024) (e : Fin 512) : EReal :=
  (∑ k : Fin 512, Zr X Wq bq Wk bk Wv bv b t (headOf k) n (posOf k) * Wo (ix2 e k)) + bo (ix1 e)

/-- The reference's result array. -/
def refOut (X : SX.Idx → EReal) (Wq : SW.Idx → EReal) (bq : SB.Idx → EReal) (Wk : SW.Idx → EReal) (bk : SB.Idx → EReal)
    (Wv : SW.Idx → EReal) (bv : SB.Idx → EReal) (Wo : SW.Idx → EReal) (bo : SB.Idx → EReal) : SX.Idx → EReal :=
  fun i => refOutAt X Wq bq Wk bk Wv bv Wo bo (i 0) (i 1) (i 2) (i 3)

theorem refOut_apply (X : SX.Idx → EReal) (Wq : SW.Idx → EReal) (bq : SB.Idx → EReal) (Wk : SW.Idx → EReal) (bk : SB.Idx → EReal)
    (Wv : SW.Idx → EReal) (bv : SB.Idx → EReal) (Wo : SW.Idx → EReal) (bo : SB.Idx → EReal)
    (b : Fin 2) (t : Fin 8) (n : Fin 1024) (e : Fin 512) :
    refOut X Wq bq Wk bk Wv bv Wo bo (ix4 b t n e) = refOutAt X Wq bq Wk bk Wv bv Wo bo b t n e := rfl

/-- The heads' coordinates cover the model coordinates, each once. -/
theorem hd_headOf_posOf (k : Fin 512) : hd (headOf k) (posOf k) = k :=
  Fin.ext (by show 64 * (k.val / 64) + k.val % 64 = k.val; omega)

theorem headOf_hd (h : Fin 8) (d : Fin 64) : headOf (hd h d) = h :=
  Fin.ext (by have := h.isLt; have := d.isLt; show (64 * h.val + d.val) / 64 = h.val; omega)

theorem posOf_hd (h : Fin 8) (d : Fin 64) : posOf (hd h d) = d :=
  Fin.ext (by have := h.isLt; have := d.isLt; show (64 * h.val + d.val) % 64 = d.val; omega)

end Cert.RefLeg

end
-- ==== Proof.KerSpec.lean ====
/-
  The kernel's result as a closed form, index by index, on the extended reals.

  The same multi-head attention as the reference's closed form, arranged the way the kernel computes it: the
  projections are held with the model coordinate first and the token second, the queries carry the scale `0.125`
  from the start (the scale multiplies the finished projection, bias included), the logits of a head contract its 64
  model coordinates `64 h + d` with nothing added to them, the softmax over the key tokens subtracts the row supremum,
  the weighted values are indexed by the model coordinate `r` (whose head is `r / 64`), and the output projection
  contracts the 512 model coordinates against a row of `Wo` and adds the bias.
  This module states that function and imports no program.
-/
import Idealize.ShloMosaic.PureOps.Ideal
import Idealize.ShloMosaic.PureOps.Ideal.Laws
import Idealize.ShloMosaic.Lib.ValueIdx
import proofs.«154566_j41051297415246_2_alg».proof.Proof.RefSpec

noncomputable section

open scoped BigOperators

namespace Cert.KerSpec

open Idealize.ShloMosaic Idealize.ShloMosaic.ValueIdx Cert.RefLeg

/-! ## The projections, model coordinate first -/

/-- The scaled queries at batch `b`, time `t`, model coordinate `e`, token `n`. -/
def Qk (X : SX.Idx → EReal) (Wq : SW.Idx → EReal) (bq : SB.Idx → EReal) (b : Fin 2) (t : Fin 8) (e : Fin 512) (n : Fin 1024) : EReal :=
  ((∑ d : Fin 512, Wq (ix2 e d) * X (ix4 b t n d)) + bq (ix1 e)) * Ideal.ofBits .f32 0x3E000000#32

/-- The keys. -/
def Kk (X : SX.Idx → EReal) (Wk : SW.Idx → EReal) (bk : SB.Idx → EReal) (b : Fin 2) (t : Fin 8) (e : Fin 512) (n : Fin 1024) : EReal :=
  (∑ d : Fin 512, Wk (ix2 e d) * X (ix4 b t n d)) + bk (ix1 e)

/-- The values. -/
def Vk (X : SX.Idx → EReal) (Wv : SW.Idx → EReal) (bv : SB.Idx → EReal) (b : Fin 2) (t : Fin 8) (e : Fin 512) (n : Fin 1024) : EReal :=
  (∑ d : Fin 512, Wv (ix2 e d) * X (ix4 b t n d)) + bv (ix1 e)

/-! ## The softmax of a head -/

/-- Head `h`'s logit of query token `n` against key token `m`. -/
def Lk (X : SX.Idx → EReal) (Wq : SW.Idx → EReal) (bq : SB.Idx → EReal) (Wk : SW.Idx → EReal) (bk : SB.Idx → EReal)
    (b : Fin 2) (t : Fin 8) (h : Fin 8) (n m : Fin 1024) : EReal :=
  ∑ d : Fin 64, Qk X Wq bq b t (hd h d) n * Kk X Wk bk b t (hd h d) m

/-- The row supremum over the key tokens. -/
def Mk (X : SX.Idx → EReal) (Wq : SW.Idx → EReal) (bq : SB.Idx → EReal) (Wk : SW.Idx → EReal) (bk : SB.Idx → EReal)
    (b : Fin 2) (t : Fin 8) (h : Fin 8) (n : Fin 1024) : EReal :=
  ⨆ m : Fin 1024, Lk X Wq bq Wk bk b t h n m

/-- The exponential of the logit less the row supremum. -/
def Pk (X : SX.Idx → EReal) (Wq : SW.Idx → EReal) (bq : SB.Idx → EReal) (Wk : SW.Idx → EReal) (bk : SB.Idx → EReal)
    (b : Fin 2) (t : Fin 8) (h : Fin 8) (n m : Fin 1024) : EReal :=
  Ideal.exp (Lk X Wq bq Wk bk b t h n m - Mk X Wq bq Wk bk b t h n)

/-- The row's sum of exponentials. -/
def Sk (X : SX.Idx → EReal) (Wq : SW.Idx → EReal) (bq : SB.Idx → EReal) (Wk : SW.Idx → EReal) (bk : SB.Idx → EReal)
    (b : Fin 2) (t : Fin 8) (h : Fin 8) (n : Fin 1024) : EReal :=
  ∑ m : Fin 1024, Pk X Wq bq Wk bk b t h n m

/-- The attention weight of key token `m` for query token `n` in head `h`. -/
def Ak (X : SX.Idx → EReal) (Wq : SW.Idx → EReal) (bq : SB.Idx → EReal) (Wk : SW.Idx → EReal) (bk : SB.Idx → EReal)
    (b : Fin 2) (t : Fin 8) (h : Fin 8) (n m : Fin 1024) : EReal :=
  Ideal.div (Pk X Wq bq Wk bk b t h n m) (Sk X Wq bq Wk bk b t h n)

/-! ## The weighted values and the output projection -/

/-- The attention output at model coordinate `r`, token `n`: the values against the weights of `r`'s head. -/
def Zk (X : SX.Idx → EReal) (Wq : SW.Idx → EReal) (bq : SB.Idx → EReal) (Wk : SW.Idx → EReal) (bk : SB.Idx → EReal)
    (Wv : SW.Idx → EReal) (bv : SB.Idx → EReal) (b : Fin 2) (t : Fin 8) (r : Fin 512) (n : Fin 1024) : EReal :=
  ∑ m : Fin 1024, Vk X Wv bv b t r m * Ak X Wq bq Wk bk b t (headOf r) n m

/-- The result at `(b, t, n, e)`. -/
def kerOutAt (X : SX.Idx → EReal) (Wq : SW.Idx → EReal) (bq : SB.Idx → EReal) (Wk : SW.Idx → EReal) (bk : SB.Idx → EReal)
    (Wv : SW.Idx → EReal) (bv : SB.Idx → EReal) (Wo : SW.Idx → EReal) (bo : SB.Idx → EReal)
    (b : Fin 2) (t : Fin 8) (n : Fin 1024) (e : Fin 512) : EReal :=
  (∑ d : Fin 512, Zk X Wq bq Wk bk Wv bv b t d n * Wo (ix2 e d)) + bo (ix1 e)

/-- The kernel's result array. -/
def kerOut (X : SX.Idx → EReal) (Wq : SW.Idx → EReal) (bq : SB.Idx → EReal) (Wk : SW.Idx → EReal) (bk : SB.Idx → EReal)
    (Wv : SW.Idx → EReal) (bv : SB.Idx → EReal) (Wo : SW.Idx → EReal) (bo : SB.Idx → EReal) : SX.Idx → EReal :=
  fun i => kerOutAt X Wq bq Wk bk Wv bv Wo bo (i 0) (i 1) (i 2) (i 3)

theorem kerOut_apply (X : SX.Idx → EReal) (Wq : SW.Idx → EReal) (bq : SB.Idx → EReal) (Wk : SW.Idx → EReal) (bk : SB.Idx → EReal)
    (Wv : SW.Idx → EReal) (bv : SB.Idx → EReal) (Wo : SW.Idx → EReal) (bo : SB.Idx → EReal)
    (b : Fin 2) (t : Fin 8) (n : Fin 1024) (e : Fin 512) :
    kerOut X Wq bq Wk bk Wv bv Wo bo (ix4 b t n e) = kerOutAt X Wq bq Wk bk Wv bv Wo bo b t n e := rfl

end Cert.KerSpec

end
-- ==== Proof.KerPayLib.lean ====
/-
  General facts used to read one attention head's arithmetic at an index, at the ideal values (floats as extended
  reals, operations exact). A product of an `[n, K]` array with an `[h, K]` array contracting the last axis of both
  is, at `(e, q)`, the sum over `k` of `left (e, k) · right (q, k)`. A sum or a maximum over the columns of an
  `[a, b]` matrix, read at row `p`, is the `Fin b`-indexed sum or supremum of that row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KerLeg

open Idealize.ShloMosaic Idealize.ShloMosaic.ValueIdx

/-! ## A product contracting the last axis of both operands -/

/-- The contraction position's one coordinate, re-indexed by `Fin K`: the operands' indices at output `(e, q)` and
    position `k` are `(e, k)` and `(q, k)`. -/
theorem ntDot_indices {n K h : Nat} (D : DotDims ⟨2, ![n, K]⟩ ⟨2, ![h, K]⟩ ⟨2, ![n, h]⟩)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (i 1).val)
    (hr1 : ∀ (i : (⟨2, ![n, h]⟩ : Shape).Idx) (k : D.contr.Idx), (D.rhsIdx i k 1).val = (k ⟨0, by omega⟩).val)
    (e : Fin n) (q : Fin h) (k : Fin K) :
    D.lhsIdx (ix2 e q) ((contrEquiv1 D K hr hs).symm k) = ix2 e k
    ∧ D.rhsIdx (ix2 e q) ((contrEquiv1 D K hr hs).symm k) = ix2 q k := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact hr0 _ _
    | ⟨1, _⟩ => exact (hr1 _ _).trans hk

/-- The kernel's product into the zero accumulator, at `(e, q)`: the sum over `k` of `a (e, k) · w (q, k)`. -/
theorem matmul_zero_nt_apply {n K h : Nat} {φ₁ φ₂ : FTy} (D : DotDims ⟨2, ![n, K]⟩ ⟨2, ![h, K]⟩ ⟨2, ![n, h]⟩)
    (prec : Option ContractPrecision)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (i 1).val)
    (hr1 : ∀ (i : (⟨2, ![n, h]⟩ : Shape).Idx) (k : D.contr.Idx), (D.rhsIdx i k 1).val = (k ⟨0, by omega⟩).val)
    (a : FVec Ideal ⟨2, ![n, K]⟩ φ₁) (w : FVec Ideal ⟨2, ![h, K]⟩ φ₂) (e : Fin n) (q : Fin h) :
    FloatOps.matmul D prec a w (constant ⟨2, ![n, h]⟩ .f32 0x00000000#32) (ix2 e q) = ∑ k : Fin K, a (ix2 e k) * w (ix2 q k) := by
  rw [Ideal.matmul_constant_zero_apply, ← Equiv.sum_comp (contrEquiv1 D K hr hs).symm]
  refine Finset.sum_congr rfl fun k _ => ?_
  obtain ⟨el, er⟩ := ntDot_indices D hr hs hl0 hl1 hr0 hr1 e q k
  rw [el, er]

/-! ## A reduction over the columns of a matrix, read at a row -/

/-- The f32 word `0xFF800000` (`-∞`) denotes `⊥`, the least extended real. -/
theorem ofBits_negInf : Ideal.ofBits .f32 0xFF800000#32 = ⊥ := by
  simp [Ideal.ofBits, Ideal.ieee]

/-- On the extended reals the fold of `max` from `⊥` over all of a finite type is the supremum. -/
theorem fold_max_bot_eq_iSup {ι : Type} [Fintype ι] (f : ι → EReal) :
    (Finset.univ : Finset ι).fold max ⊥ f = ⨆ i, f i := by
  rw [← Finset.sup_univ_eq_iSup]; rfl

/-- Over axis 1 of a matrix shape, the index lifted from row `p` with coordinate `c` inserted is `(p, c)`. -/
theorem lift2_axis1 {a b : Nat}
    (hred : (⟨2, ![a, b]⟩ : Shape).Reduces [1] ⟨1, ![a]⟩) (p : Fin a) (c : Fin b) :
    hred.lift (ix1 p) c = ix2 p c := by
  funext d
  match d with
  | ⟨0, _⟩ => exact Fin.ext rfl
  | ⟨1, _⟩ => exact Fin.ext rfl

/-- THE ROW SUM: a `multi_reduction <add>` of an `[a, b]` vector over axis 1 from `+0.0`, read at row `p`, is the sum
    over the columns `c` of the vector at `(p, c)`. -/
theorem sum_axis1_of2 {a b : Nat} (v : FVec Ideal ⟨2, ![a, b]⟩ .f32)
    (hred : (⟨2, ![a, b]⟩ : Shape).Reduces [1] ⟨1, ![a]⟩) (hφ : FKind.Formats .f32)
    (hacc : (0x00000000#32 : BitVec 32) = 0x00000000#32) (p : Fin a) :
    multiReduction (F := Ideal) .add [1] ⟨1, ![a]⟩ v 0x00000000#32 hred hφ hacc (ix1 p)
      = ∑ c : Fin b, v (ix2 p c) :=
  (Ideal.multiReduction_add_single (φ := .f32) v 0x00000000#32 hred hφ hacc (ix1 p)).trans
    (Finset.sum_congr rfl fun c _ => congrArg v (lift2_axis1 hred p c))

/-- THE ROW MAXIMUM: a `multi_reduction <maximumf>` of an `[a, b]` vector over axis 1 from `-∞`, read at row `p`, is
    the supremum over the columns `c` of the vector at `(p, c)`. -/
theorem max_axis1_of2 {a b : Nat} (v : FVec Ideal ⟨2, ![a, b]⟩ .f32)
    (hred : (⟨2, ![a, b]⟩ : Shape).Reduces [1] ⟨1, ![a]⟩) (hφ : FKind.Formats .f32)
    (hacc : (0xFF800000#32 : BitVec 32) = 0xFF800000#32) (p : Fin a) :
    multiReduction (F := Ideal) .maximumf [1] ⟨1, ![a]⟩ v 0xFF800000#32 hred hφ hacc (ix1 p)
      = ⨆ c : Fin b, v (ix2 p c) := by
  refine (Ideal.multiReduction_maximumf_single (φ := .f32) v 0xFF800000#32 hred hφ hacc (ix1 p)).trans ?_
  refine (congrArg (fun z => (Finset.univ : Finset (Fin b)).fold max z (v ∘ hred.lift (ix1 p))) ofBits_negInf).trans ?_
  refine (fold_max_bot_eq_iSup _).trans ?_
  exact iSup_congr fun c => congrArg v (lift2_axis1 hred p c)

end Cert.KerLeg

end
-- ==== Proof.LibKeepdims.lean ====
/-
  Column forms of the two layout operations a row statistic kept as a column goes through: a vector of one entry
  per row written as a one-column matrix, and a one-column matrix repeated along every column of a wider one.
  Both are read at an index: the entry of the result at (row, column) is the operand's entry of that row.
-/
import Idealize.ShloMosaic.Lib.Pipeline.Value
import Idealize.ShloMosaic.Lib.ValueIdx

namespace Idealize.ShloMosaic.ValueIdx

variable {α : Type}

/-- An `[a]` vector cast to the column `[a, 1]` reads, at `(p, u)`, the operand at `p`: in row-major order the
    column's entry `(p, u)` is entry `p · 1 + u = p` of the vector, the unit coordinate `u` being `0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KerPayProj.lean ====
/-
  The three projections of one (batch, time) block, read at an index, at the ideal values (floats as extended
  reals, operations exact, format changes the identity). With `x` the `[1, 1024, 512]` block of tokens, `W` a
  `[512, 512]` weight and `b` a `[512]` bias, the projection at (model coordinate `e`, token `n`) is
  `∑ d, W (e, d) · x (0, n, d) + b e`; the query projection is further multiplied by the word `0x3E000000`.
-/
import proofs.«154566_j41051297415246_2_alg».proof.Proof.Gen.KernelIdeal.Skeleton
import proofs.«154566_j41051297415246_2_alg».proof.Proof.KerPayLib
import proofs.«154566_j41051297415246_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KerLeg

open Cert.KernelIdeal Cert.KernelIdeal.Gen Idealize.ShloMosaic Idealize.ShloMosaic.ValueIdx Idealize.SL.Sem

/-! ## Where the projection's product reads its operands -/

theorem projDot_l0 (i : S512x1024.Idx) (k : dot_S512x512_S1024x512_S512x1024_1_1_0_0_n_n.contr.Idx) :
    (dot_S512x512_S1024x512_S512x1024_1_1_0_0_n_n.lhsIdx i k 0).val = (i 0).val := by
  unfold DotDims.lhsIdx
  rw [dif_neg (show ¬(0 : Fin S512x512.rank) ∈ dot_S512x512_S1024x512_S512x1024_1_1_0_0_n_n.lhsBatch by decide), dif_pos (show (0 : Fin S512x512.rank) ∈ dot_S512x512_S1024x512_S512x1024_1_1_0_0_n_n.lhsNonContracting by decide)]
  rfl

theorem projDot_l1 (i : S512x1024.Idx) (k : dot_S512x512_S1024x512_S512x1024_1_1_0_0_n_n.contr.Idx) :
    (dot_S512x512_S1024x512_S512x1024_1_1_0_0_n_n.lhsIdx i k 1).val = (k ⟨0, by decide⟩).val :=
  dot_S512x512_S1024x512_S512x1024_1_1_0_0_n_n.lhsIdx_val_of_single rfl i k

theorem projDot_r0 (i : S512x1024.Idx) (k : dot_S512x512_S1024x512_S512x1024_1_1_0_0_n_n.contr.Idx) :
    (dot_S512x512_S1024x512_S512x1024_1_1_0_0_n_n.rhsIdx i k 0).val = (i 1).val := by
  unfold DotDims.rhsIdx
  rw [dif_neg (show ¬(0 : Fin S1024x512.rank) ∈ dot_S512x512_S1024x512_S512x1024_1_1_0_0_n_n.rhsBatch by decide), dif_pos (show (0 : Fin S1024x512.rank) ∈ dot_S512x512_S1024x512_S512x1024_1_1_0_0_n_n.rhsNonContracting by decide)]
  rfl

theorem projDot_r1 (i : S512x1024.Idx) (k : dot_S512x512_S1024x512_S512x1024_1_1_0_0_n_n.contr.Idx) :
    (dot_S512x512_S1024x512_S512x1024_1_1_0_0_n_n.rhsIdx i k 1).val = (k ⟨0, by decide⟩).val :=
  dot_S512x512_S1024x512_S512x1024_1_1_0_0_n_n.rhsIdx_val_of_single rfl i k

/-! ## The pieces -/

/-- The block of tokens with its unit axis dropped: at `(n, d)` it is the block at `(0, n, d)`. -/
theorem pay4_apply (x : Vec Ideal S1x1024x512 .f32) (n : Fin 1024) (d : Fin 512) :
    k0_pay4 (F := Ideal) x (ix2 n d) = x (ix3 0 n d) := by
  unfold k0_pay4
  exact shapeCast_1ab_ab_apply x _ n d

/-- The product of a weight with the tokens, contracting the model axis of both, into the zero accumulator. -/
theorem projMatmul_apply (x : Vec Ideal S1x1024x512 .f32) (W : FVec Ideal S512x512 .bf16) (e : Fin 512) (n : Fin 1024) :
    matmul (F := Ideal) dot_S512x512_S1024x512_S512x1024_1_1_0_0_n_n none W (k0_pay4 (F := Ideal) x) (constant (F := Ideal) S512x1024 .f32 0x00000000#32) (ix2 e n)
      = ∑ d : Fin 512, W (ix2 e d) * x (ix3 0 n d) :=
  (matmul_zero_nt_apply dot_S512x512_S1024x512_S512x1024_1_1_0_0_n_n none rfl rfl projDot_l0 projDot_l1 projDot_r0 projDot_r1 W (k0_pay4 (F := Ideal) x) e n).trans
    (Finset.sum_congr rfl fun d _ => by rw [pay4_apply])

/-- The bias as a column repeated along the tokens: at `(e, n)` it is `b e`. -/
theorem biasCol_apply (b : Vec Ideal S512 .f32) (h1 : S512.ShapeCasts S512x1) (h2 : S512x1.Broadcasts S512x1024)
    (e : Fin 512) (n : Fin 1024) :
    broadcastTo S512x1024 (shapeCast S512x1 b h1) h2 (ix2 e n) = b (ix1 e) := by
  rw [broadcastTo_a1_ab_apply, shapeCast_a_a1_apply]

/-! ## The projections -/

/-- The query projection, scaled. -/
theorem pay5_apply (x : Vec Ideal S1x1024x512 .f32) (W : Vec Ideal S512x512 .bf16) (b : Vec Ideal S512 .f32)
    (e : Fin 512) (n : Fin 1024) :
    k0_pay5 (F := Ideal) x W b (ix2 e n)
      = ((∑ d : Fin 512, W (ix2 e d) * x (ix3 0 n d)) + b (ix1 e)) * Ideal.ofBits .f32 0x3E000000#32 := by
  unfold k0_pay5
  simp only [shapeCast_self, truncf_apply, mulf_apply, addf_apply, broadcast_apply, projMatmul_apply]
  rw [biasCol_apply]
  rfl

/-- The key projection. -/
theorem pay6_apply (x : Vec Ideal S1x1024x512 .f32) (W : Vec Ideal S512x512 .bf16) (b : Vec Ideal S512 .f32)
    (e : Fin 512) (n : Fin 1024) :
    k0_pay6 (F := Ideal) x W b (ix2 e n) = (∑ d : Fin 512, W (ix2 e d) * x (ix3 0 n d)) + b (ix1 e) := by
  unfold k0_pay6
  simp only [shapeCast_self, truncf_apply, addf_apply, projMatmul_apply]
  rw [biasCol_apply]

/-- The value projection. -/
theorem pay7_apply (x : Vec Ideal S1x1024x512 .f32) (W : Vec Ideal S512x512 .bf16) (b : Vec Ideal S512 .f32)
    (e : Fin 512) (n : Fin 1024) :
    k0_pay7 (F := Ideal) x W b (ix2 e n) = (∑ d : Fin 512, W (ix2 e d) * x (ix3 0 n d)) + b (ix1 e) := by
  unfold k0_pay7
  simp only [shapeCast_self, truncf_apply, addf_apply, projMatmul_apply]
  rw [biasCol_apply]

/-- The value projection is stored as it is. -/
theorem pay1_eq (v : FVec Ideal S512x1024 .bf16) : k0_pay1 (F := Ideal) v = v := by
  unfold k0_pay1
  exact shapeCast_self v _

theorem pay1_apply (v : FVec Ideal S512x1024 .bf16) (i : S512x1024.Idx) : k0_pay1 (F := Ideal) v i = v i := by
  rw [pay1_eq]

end Cert.KerLeg

end
-- ==== Proof.LibDense.lean ====
/-
  A plain matrix product read as rows times columns.

  A dot whose dimension numbers contract the left operand's columns with the right operand's rows, with no batch
  axis, sends an `[n, K]` array and a `[K, h]` array to the `[n, h]` array whose entry `(e, q)` is the sum over `k` of
  `left (e, k) · right (k, q)`. The dimension numbers enter only through four facts about where the dot reads its
  operands (`hl0`, `hl1`, `hr0`, `hr1`), which a given record of dimension numbers decides; at the exact
  extended-real values the kernel's product into a zero accumulator and the host's product are both that sum,
  whatever format the operands were rounded to on the way in.
-/
import Idealize.ShloMosaic.PureOps.Ideal.Laws
import Idealize.ShloMosaic.Lib.ValueIdx

namespace Idealize.ShloMosaic.ValueIdx

/-- The contraction position's one coordinate, re-indexed by `Fin K`: the operands' indices at output `(e, q)` and
    position `k` are `(e, k)` and `(k, q)`. -/
theorem plainDot_indices {n K h : Nat} (D : DotDims ⟨2, ![n, K]⟩ ⟨2, ![K, h]⟩ ⟨2, ![n, h]⟩)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (e : Fin n) (q : Fin h) (k : Fin K) :
    D.lhsIdx (ix2 e q) ((contrEquiv1 D K hr hs).symm k) = ix2 e k
    ∧ D.rhsIdx (ix2 e q) ((contrEquiv1 D K hr hs).symm k) = ix2 k q := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- The kernel's product into the zero accumulator, at `(e, q)`: the sum over `k` of `a (e, k) · w (k, q)`. -/
theorem matmul_zero_plain_apply {n K h : Nat} {φ₁ φ₂ : FTy} (D : DotDims ⟨2, ![n, K]⟩ ⟨2, ![K, h]⟩ ⟨2, ![n, h]⟩)
    (prec : Option ContractPrecision)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.matmul D prec a w (constant ⟨2, ![n, h]⟩ .f32 0x00000000#32) (ix2 e q) = ∑ k : Fin K, a (ix2 e k) * w (ix2 k q) := by
  rw [Ideal.matmul_constant_zero_apply, ← Equiv.sum_comp (contrEquiv1 D K hr hs).symm]
  refine Finset.sum_congr rfl fun k _ => ?_
  obtain ⟨el, er⟩ := plainDot_indices D hr hs hl0 hl1 hr0 hr1 e q k
  rw [el, er]

/-- The host's product, at `(e, q)`: the same sum. -/
theorem dotGeneral_plain_apply {n K h : Nat} {φ₁ φ₂ : FTy} (D : DotDims ⟨2, ![n, K]⟩ ⟨2, ![K, h]⟩ ⟨2, ![n, h]⟩)
    (prec : Option ContractPrecision) (sched : HostSchedule)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.dotGeneral D prec sched a w (ix2 e q) = ∑ k : Fin K, a (ix2 e k) * w (ix2 k q) := by
  rw [Ideal.dotGeneral_apply, ← Equiv.sum_comp (contrEquiv1 D K hr hs).symm]
  refine Finset.sum_congr rfl fun k _ => ?_
  obtain ⟨el, er⟩ := plainDot_indices D hr hs hl0 hl1 hr0 hr1 e q k
  rw [el, er]

end Idealize.ShloMosaic.ValueIdx
-- ==== Proof.KerPayHead.lean ====
/-
  One attention head of one (batch, time) block, read at an index, at the ideal values (floats as extended reals,
  operations exact, format changes the identity). With `q`, `k`, `v` the head's `[64, 1024]` bands of the query,
  key and value projections (head coordinate, token): the logit of query token `n` against key token `m` is
  `L n m = ∑ d, q (d, n) · k (d, m)`; each row of logits is shifted by its supremum `M n = ⨆ m, L n m`,
  exponentiated and divided by its row sum; and the head's result at `(dd, n)` is `∑ m, v (dd, m) · A n m` with
  `A n m = exp (L n m - M n) / ∑ c, exp (L n c - M n)`.
-/
import proofs.«154566_j41051297415246_2_alg».proof.Proof.Gen.KernelIdeal.Skeleton
import proofs.«154566_j41051297415246_2_alg».proof.Proof.KerPayLib
import proofs.«154566_j41051297415246_2_alg».proof.Proof.LibDense
import proofs.«154566_j41051297415246_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KerLeg

open Cert.KernelIdeal Cert.KernelIdeal.Gen Idealize.ShloMosaic Idealize.ShloMosaic.ValueIdx Idealize.SL.Sem

/-! ## The softmax of the rows of a matrix of logits -/

/-- The supremum of row `n`. -/
def rowMax (L : Fin 1024 → Fin 1024 → EReal) (n : Fin 1024) : EReal := ⨆ m : Fin 1024, L n m

/-- The exponential of an entry shifted by its row's supremum. -/
def rowExp (L : Fin 1024 → Fin 1024 → EReal) (n m : Fin 1024) : EReal := Ideal.exp (L n m - rowMax L n)

/-- The shifted exponential divided by its row's sum. -/
def rowSoft (L : Fin 1024 → Fin 1024 → EReal) (n m : Fin 1024) : EReal :=
  Ideal.div (rowExp L n m) (∑ c : Fin 1024, rowExp L n c)

/-- The logit of query token `n` against key token `m`: the product of the two tokens' head coordinates, summed. -/
def headLogit (q k : Vec Ideal S64x1024 .bf16) (n m : Fin 1024) : EReal := ∑ d : Fin 64, q (ix2 d n) * k (ix2 d m)

/-- The supremum of query token `n`'s logits. -/
def headMax (q k : Vec Ideal S64x1024 .bf16) (n : Fin 1024) : EReal := rowMax (headLogit q k) n

/-- The attention weight of key token `m` for query token `n`. -/
def headSoft (q k : Vec Ideal S64x1024 .bf16) (n m : Fin 1024) : EReal := rowSoft (headLogit q k) n m

theorem headMax_def (q k : Vec Ideal S64x1024 .bf16) (n : Fin 1024) :
    headMax q k n = ⨆ m : Fin 1024, headLogit q k n m := rfl

theorem headSoft_def (q k : Vec Ideal S64x1024 .bf16) (n m : Fin 1024) :
    headSoft q k n m = Ideal.div (Ideal.exp (headLogit q k n m - headMax q k n))
      (∑ c : Fin 1024, Ideal.exp (headLogit q k n c - headMax q k n)) := rfl

/-! ## Where the two products read their operands -/

theorem logitDot_l0 (i : S1024x1024.Idx) (k : dot_S1024x64_S64x1024_S1024x1024_1_0_0_1_n_n.contr.Idx) :
    (dot_S1024x64_S64x1024_S1024x1024_1_0_0_1_n_n.lhsIdx i k 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl

theorem logitDot_l1 (i : S1024x1024.Idx) (k : dot_S1024x64_S64x1024_S1024x1024_1_0_0_1_n_n.contr.Idx) :
    (dot_S1024x64_S64x1024_S1024x1024_1_0_0_1_n_n.lhsIdx i k 1).val = (k ⟨0, by decide⟩).val :=
  dot_S1024x64_S64x1024_S1024x1024_1_0_0_1_n_n.lhsIdx_val_of_single rfl i k

theorem logitDot_r0 (i : S1024x1024.Idx) (k : dot_S1024x64_S64x1024_S1024x1024_1_0_0_1_n_n.contr.Idx) :
    (dot_S1024x64_S64x1024_S1024x1024_1_0_0_1_n_n.rhsIdx i k 0).val = (k ⟨0, by decide⟩).val :=
  dot_S1024x64_S64x1024_S1024x1024_1_0_0_1_n_n.rhsIdx_val_of_single rfl i k

theorem logitDot_r1 (i : S1024x1024.Idx) (k : dot_S1024x64_S64x1024_S1024x1024_1_0_0_1_n_n.contr.Idx) :
    (dot_S1024x64_S64x1024_S1024x1024_1_0_0_1_n_n.rhsIdx i k 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

theorem mixDot_l0 (i : S64x1024.Idx) (k : dot_S64x1024_S1024x1024_S64x1024_1_1_0_0_n_n.contr.Idx) :
    (dot_S64x1024_S1024x1024_S64x1024_1_1_0_0_n_n.lhsIdx i k 0).val = (i 0).val := by
  unfold DotDims.lhsIdx
  rw [dif_neg (show ¬(0 : Fin S64x1024.rank) ∈ dot_S64x1024_S1024x1024_S64x1024_1_1_0_0_n_n.lhsBatch by decide), dif_pos (show (0 : Fin S64x1024.rank) ∈ dot_S64x1024_S1024x1024_S64x1024_1_1_0_0_n_n.lhsNonContracting by decide)]
  rfl

theorem mixDot_l1 (i : S64x1024.Idx) (k : dot_S64x1024_S1024x1024_S64x1024_1_1_0_0_n_n.contr.Idx) :
    (dot_S64x1024_S1024x1024_S64x1024_1_1_0_0_n_n.lhsIdx i k 1).val = (k ⟨0, by decide⟩).val :=
  dot_S64x1024_S1024x1024_S64x1024_1_1_0_0_n_n.lhsIdx_val_of_single rfl i k

theorem mixDot_r0 (i : S64x1024.Idx) (k : dot_S64x1024_S1024x1024_S64x1024_1_1_0_0_n_n.contr.Idx) :
    (dot_S64x1024_S1024x1024_S64x1024_1_1_0_0_n_n.rhsIdx i k 0).val = (i 1).val := by
  unfold DotDims.rhsIdx
  rw [dif_neg (show ¬(0 : Fin S1024x1024.rank) ∈ dot_S64x1024_S1024x1024_S64x1024_1_1_0_0_n_n.rhsBatch by decide), dif_pos (show (0 : Fin S1024x1024.rank) ∈ dot_S64x1024_S1024x1024_S64x1024_1_1_0_0_n_n.rhsNonContracting by decide)]
  rfl

theorem mixDot_r1 (i : S64x1024.Idx) (k : dot_S64x1024_S1024x1024_S64x1024_1_1_0_0_n_n.contr.Idx) :
    (dot_S64x1024_S1024x1024_S64x1024_1_1_0_0_n_n.rhsIdx i k 1).val = (k ⟨0, by decide⟩).val :=
  dot_S64x1024_S1024x1024_S64x1024_1_1_0_0_n_n.rhsIdx_val_of_single rfl i k

/-! ## The stages -/

/-- The logits: the transposed query band times the key band, into the zero accumulator. -/
theorem logits_apply (q k : Vec Ideal S64x1024 .bf16) (h : S64x1024.Transposes [1, 0] S1024x64) (n m : Fin 1024) :
    matmul (F := Ideal) (φ₁ := .bf16) (φ₂ := .bf16) dot_S1024x64_S64x1024_S1024x1024_1_0_0_1_n_n none (transpose S1024x64 [1, 0] q h) k (constant (F := Ideal) S1024x1024 .f32 0x00000000#32) (ix2 n m)
      = headLogit q k n m :=
  (matmul_zero_plain_apply (φ₁ := .bf16) (φ₂ := .bf16) dot_S1024x64_S64x1024_S1024x1024_1_0_0_1_n_n none rfl rfl logitDot_l0 logitDot_l1 logitDot_r0 logitDot_r1
      (transpose S1024x64 [1, 0] q h) k n m).trans
    (Finset.sum_congr rfl fun d _ => by rw [transpose_ix2_apply])

/-- The rows' maxima, kept as a column and repeated along the columns. -/
theorem rowMaxCols_apply (Lv : FVec Ideal S1024x1024 .f32) (hred : S1024x1024.Reduces [1] S1024) (hφ : FKind.Formats .f32)
    (hacc : (0xFF800000#32 : BitVec 32) = 0xFF800000#32) (h1 : S1024.ShapeCasts S1024x1) (h2 : S1024x1.Broadcasts S1024x1024)
    (n m : Fin 1024) :
    broadcastTo S1024x1024 (shapeCast S1024x1 (multiReduction (F := Ideal) .maximumf [1] S1024 Lv 0xFF800000#32 hred hφ hacc) h1) h2 (ix2 n m)
      = ⨆ c : Fin 1024, Lv (ix2 n c) := by
  rw [broadcastTo_a1_ab_apply, shapeCast_a_a1_apply, max_axis1_of2]

/-- The rows' sums, kept as a column and repeated along the columns. -/
theorem rowSumCols_apply (E : FVec Ideal S1024x1024 .f32) (hred : S1024x1024.Reduces [1] S1024) (hφ : FKind.Formats .f32)
    (hacc : (0x00000000#32 : BitVec 32) = 0x00000000#32) (h1 : S1024.ShapeCasts S1024x1) (h2 : S1024x1.Broadcasts S1024x1024)
    (n m : Fin 1024) :
    broadcastTo S1024x1024 (shapeCast S1024x1 (multiReduction (F := Ideal) .add [1] S1024 E 0x00000000#32 hred hφ hacc) h1) h2 (ix2 n m)
      = ∑ c : Fin 1024, E (ix2 n c) := by
  rw [broadcastTo_a1_ab_apply, shapeCast_a_a1_apply, sum_axis1_of2]

/-- The shifted exponentials. -/
theorem expShift_apply (Lv : FVec Ideal S1024x1024 .f32) (hred : S1024x1024.Reduces [1] S1024) (hφ : FKind.Formats .f32)
    (hacc : (0xFF800000#32 : BitVec 32) = 0xFF800000#32) (h1 : S1024.ShapeCasts S1024x1) (h2 : S1024x1.Broadcasts S1024x1024)
    (n m : Fin 1024) :
    exp (subf Lv (broadcastTo S1024x1024 (shapeCast S1024x1 (multiReduction (F := Ideal) .maximumf [1] S1024 Lv 0xFF800000#32 hred hφ hacc) h1) h2)) (ix2 n m)
      = rowExp (fun a b => Lv (ix2 a b)) n m := by
  show Ideal.exp (Lv (ix2 n m) - broadcastTo S1024x1024 (shapeCast S1024x1 (multiReduction (F := Ideal) .maximumf [1] S1024 Lv 0xFF800000#32 hred hφ hacc) h1) h2 (ix2 n m)) = _
  rw [rowMaxCols_apply]
  rfl

/-- The softmax of the rows: the shifted exponentials divided by their row sums. -/
theorem softRows_apply (Lv : FVec Ideal S1024x1024 .f32) (hred : S1024x1024.Reduces [1] S1024) (hφ : FKind.Formats .f32)
    (haccm : (0xFF800000#32 : BitVec 32) = 0xFF800000#32) (hacc0 : (0x00000000#32 : BitVec 32) = 0x00000000#32)
    (h1 : S1024.ShapeCasts S1024x1) (h2 : S1024x1.Broadcasts S1024x1024) (n m : Fin 1024) :
    divf (exp (subf Lv (broadcastTo S1024x1024 (shapeCast S1024x1 (multiReduction (F := Ideal) .maximumf [1] S1024 Lv 0xFF800000#32 hred hφ haccm) h1) h2)))
      (broadcastTo S1024x1024 (shapeCast S1024x1 (multiReduction (F := Ideal) .add [1] S1024
        (exp (subf Lv (broadcastTo S1024x1024 (shapeCast S1024x1 (multiReduction (F := Ideal) .maximumf [1] S1024 Lv 0xFF800000#32 hred hφ haccm) h1) h2)))
        0x00000000#32 hred hφ hacc0) h1) h2) (ix2 n m)
      = rowSoft (fun a b => Lv (ix2 a b)) n m := by
  unfold rowSoft
  rw [divf_apply, rowSumCols_apply, expShift_apply]
  exact congrArg (Ideal.div _) (Finset.sum_congr rfl fun c _ => expShift_apply Lv hred hφ haccm h1 h2 n c)

/-- The value band times the attention weights, contracting the key tokens, into the zero accumulator. -/
theorem mix_apply (v : FVec Ideal S64x1024 .bf16) (A : FVec Ideal S1024x1024 .bf16) (dd : Fin 64) (n : Fin 1024) :
    matmul (F := Ideal) dot_S64x1024_S1024x1024_S64x1024_1_1_0_0_n_n none v A (constant (F := Ideal) S64x1024 .f32 0x00000000#32) (ix2 dd n)
      = ∑ m : Fin 1024, v (ix2 dd m) * A (ix2 n m) :=
  matmul_zero_nt_apply dot_S64x1024_S1024x1024_S64x1024_1_1_0_0_n_n none rfl rfl mixDot_l0 mixDot_l1 mixDot_r0 mixDot_r1 v A dd n

/-! ## The head -/

theorem pay2_apply (q k v : Vec Ideal S64x1024 .bf16) (dd : Fin 64) (n : Fin 1024) :
    k0_pay2 (F := Ideal) q k v (ix2 dd n) = ∑ m : Fin 1024, v (ix2 dd m) * headSoft q k n m := by
  unfold k0_pay2 headSoft
  simp only [shapeCast_self, truncf_apply, mix_apply]
  refine Finset.sum_congr rfl fun m _ => ?_
  rw [softRows_apply]
  refine congrArg (v (ix2 dd m) * ·) ?_
  refine congrArg (fun L => rowSoft L n m) ?_
  exact funext fun a => funext fun b => logits_apply q k _ a b

end Cert.KerLeg

end
-- ==== Proof.KerPayOut.lean ====
/-
  The output projection of one (batch, time) block, read at an index, at the ideal values. With `zT` the
  `[512, 1024]` array of the heads' results (model coordinate, token), `WoT` the `[512, 512]` transposed output
  weight and `b` the `[512]` bias, the block's result at `(0, n, e)` is `∑ d, zT (d, n) · WoT (d, e) + b e`.
-/
import proofs.«154566_j41051297415246_2_alg».proof.Proof.Gen.KernelIdeal.Skeleton
import proofs.«154566_j41051297415246_2_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KerLeg

open Cert.KernelIdeal Cert.KernelIdeal.Gen Idealize.ShloMosaic Idealize.ShloMosaic.ValueIdx Idealize.SL.Sem

/-! ## Where the output product reads its operands -/

theorem outDot_l0 (i : S1024x512.Idx) (k : dot_S1024x512_S512x512_S1024x512_1_0_0_1_n_n.contr.Idx) :
    (dot_S1024x512_S512x512_S1024x512_1_0_0_1_n_n.lhsIdx i k 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl

theorem outDot_l1 (i : S1024x512.Idx) (k : dot_S1024x512_S512x512_S1024x512_1_0_0_1_n_n.contr.Idx) :
    (dot_S1024x512_S512x512_S1024x512_1_0_0_1_n_n.lhsIdx i k 1).val = (k ⟨0, by decide⟩).val :=
  dot_S1024x512_S512x512_S1024x512_1_0_0_1_n_n.lhsIdx_val_of_single rfl i k

theorem outDot_r0 (i : S1024x512.Idx) (k : dot_S1024x512_S512x512_S1024x512_1_0_0_1_n_n.contr.Idx) :
    (dot_S1024x512_S512x512_S1024x512_1_0_0_1_n_n.rhsIdx i k 0).val = (k ⟨0, by decide⟩).val :=
  dot_S1024x512_S512x512_S1024x512_1_0_0_1_n_n.rhsIdx_val_of_single rfl i k

theorem outDot_r1 (i : S1024x512.Idx) (k : dot_S1024x512_S512x512_S1024x512_1_0_0_1_n_n.contr.Idx) :
    (dot_S1024x512_S512x512_S1024x512_1_0_0_1_n_n.rhsIdx i k 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-! ## The pieces -/

/-- The product of the transposed heads' results with the transposed output weight, into the zero accumulator. -/
theorem outMatmul_apply (zT : Vec Ideal S512x1024 .bf16) (h : S512x1024.Transposes [1, 0] S1024x512)
    (WoT : FVec Ideal S512x512 .bf16) (n : Fin 1024) (e : Fin 512) :
    matmul (F := Ideal) dot_S1024x512_S512x512_S1024x512_1_0_0_1_n_n none (transpose S1024x512 [1, 0] zT h : FVec Ideal S1024x512 .bf16) WoT (constant (F := Ideal) S1024x512 .f32 0x00000000#32) (ix2 n e)
      = ∑ d : Fin 512, zT (ix2 d n) * WoT (ix2 d e) :=
  (matmul_zero_plain_apply dot_S1024x512_S512x512_S1024x512_1_0_0_1_n_n none rfl rfl outDot_l0 outDot_l1 outDot_r0 outDot_r1
      (transpose S1024x512 [1, 0] zT h : FVec Ideal S1024x512 .bf16) WoT n e).trans
    (Finset.sum_congr rfl fun d _ => by rw [transpose_ix2_apply])

/-- The bias as a row repeated along the tokens: at `(n, e)` it is `b e`. -/
theorem biasRow_apply (b : Vec Ideal S512 .f32) (h1 : S512.ShapeCasts S1x512) (h2 : S1x512.Broadcasts S1024x512)
    (n : Fin 1024) (e : Fin 512) :
    broadcastTo S1024x512 (shapeCast S1x512 b h1) h2 (ix2 n e) = b (ix1 e) := by
  rw [broadcastTo_1b_ab_apply, shapeCast_a_1a_apply]

/-! ## The output projection -/

theorem pay3_apply (zT : Vec Ideal S512x1024 .bf16) (WoT : Vec Ideal S512x512 .bf16) (b : Vec Ideal S512 .f32)
    (n : Fin 1024) (e : Fin 512) :
    k0_pay3 (F := Ideal) zT WoT b (ix3 0 n e) = (∑ d : Fin 512, zT (ix2 d n) * WoT (ix2 d e)) + b (ix1 e) := by
  unfold k0_pay3
  simp only [shapeCast_ab_1ab_apply, shapeCast_self, addf_apply]
  rw [biasRow_apply, outMatmul_apply]

end Cert.KerLeg

end
-- ==== Proof.KerPay.lean ====
/-
  One (batch, time) block of the attention kernel's arithmetic, read at an index, at the ideal values: the three
  projections (KerPayProj), one head (KerPayHead) and the output projection (KerPayOut), collected.
-/
import proofs.«154566_j41051297415246_2_alg».proof.Proof.KerPayProj
import proofs.«154566_j41051297415246_2_alg».proof.Proof.KerPayHead
import proofs.«154566_j41051297415246_2_alg».proof.Proof.KerPayOut
-- ==== Proof.FrameI.GlueBlocks.lean ====
/-
  The arrays the attention kernel's region finds, and each input window's block at a grid point, in terms of the nine
  argument arrays, at the ideal values. Before the region the activations [2, 8, 1024, 512] are reshaped to
  [16, 1024, 512] (block of tokens 8 b + t), the three projection weights change format only (the identity on the
  extended reals), and the output weight is transposed; the window of the activations is the block of tokens of the
  point, every other input window is its whole array.
-/
import proofs.«154566_j41051297415246_2_alg».proof.Proof.FrameI.Data
import proofs.«154566_j41051297415246_2_alg».proof.Proof.KerPay
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Body

open Cert.KernelIdeal Cert.KernelIdeal.Gen
open Idealize.ShloMosaic Idealize.ShloMosaic.TcCoe Idealize.ShloMosaic.Tactic Idealize.ShloMosaic.ValueIdx Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-! ## The arrays as the region finds them, in terms of the arguments -/

theorem V_v0 (c : Dev nD) : (V m c main_v0 : S16x1024x512.Idx → EReal) = shapeCast S16x1024x512 (m ((c.tc : Thread nD τ).loc main_arg0) : S2x8x1024x512.Idx → EReal) shapeCasts_S2x8x1024x512_S16x1024x512 := by
  show StableHlo.after hostOps0 (fun b => m (c, b)) (Proc.devRef .tc main_v0) = _
  after_results
  rfl

theorem V_v0_apply (c : Dev nD) (bt : Fin 16) (n : Fin 1024) (d : Fin 512) :
    (V m c main_v0 : S16x1024x512.Idx → EReal) (ix3 bt n d)
      = (m ((c.tc : Thread nD τ).loc main_arg0) : S2x8x1024x512.Idx → EReal)
          (ix4 (⟨bt.val / 8, by have := bt.isLt; omega⟩ : Fin 2) (⟨bt.val % 8, by omega⟩ : Fin 8) n d) := by
  rw [V_v0]
  refine shapeCast_apply (s := S2x8x1024x512) (t := S16x1024x512) _ _ _ _ ?_
  show (S2x8x1024x512.rowMajor (ix4 (⟨bt.val / 8, by have := bt.isLt; omega⟩ : Fin 2) (⟨bt.val % 8, by omega⟩ : Fin 8) n d)).val = (S16x1024x512.rowMajor (ix3 bt n d)).val
  rw [Shape.rowMajor_val_four, Shape.rowMajor_val_three]
  show ((bt.val / 8 * 8 + bt.val % 8) * 1024 + n.val) * 512 + d.val = (bt.val * 1024 + n.val) * 512 + d.val
  have : bt.val / 8 * 8 + bt.val % 8 = bt.val := by omega
  rw [this]

theorem V_v1 (c : Dev nD) : (V m c main_v1 : S512x512.Idx → EReal) = (m ((c.tc : Thread nD τ).loc main_arg1) : S512x512.Idx → EReal) := by
  show StableHlo.after hostOps0 (fun b => m (c, b)) (Proc.devRef .tc main_v1) = _
  after_results
  rfl

theorem V_v2 (c : Dev nD) : (V m c main_v2 : S512x512.Idx → EReal) = (m ((c.tc : Thread nD τ).loc main_arg3) : S512x512.Idx → EReal) := by
  show StableHlo.after hostOps0 (fun b => m (c, b)) (Proc.devRef .tc main_v2) = _
  after_results
  rfl

theorem V_v3 (c : Dev nD) : (V m c main_v3 : S512x512.Idx → EReal) = (m ((c.tc : Thread nD τ).loc main_arg5) : S512x512.Idx → EReal) := by
  show StableHlo.after hostOps0 (fun b => m (c, b)) (Proc.devRef .tc main_v3) = _
  after_results
  rfl

theorem V_v5_apply (c : Dev nD) (d e : Fin 512) :
    (V m c main_v5 : S512x512.Idx → EReal) (ix2 d e) = (m ((c.tc : Thread nD τ).loc main_arg7) : S512x512.Idx → EReal) (ix2 e d) := by
  have h : (V m c main_v5 : S512x512.Idx → EReal) = transpose S512x512 [1, 0] (m ((c.tc : Thread nD τ).loc main_arg7) : S512x512.Idx → EReal) transposes_S512x512_S512x512_1_0 := by
    show StableHlo.after hostOps0 (fun b => m (c, b)) (Proc.devRef .tc main_v5) = _
    after_results
    rfl
  rw [h, transpose_ix2_apply]

/-! ## The windows' blocks -/

/-- The printed index maps, decided over the grid: window 0's block index is the block of tokens, every other input
    window is its whole array. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

theorem iblk0_apply (c : Dev nD) (t : Fin cfg0.N) (n : Fin 1024) (d : Fin 512) :
    (iblk m c 0 t : S1x1024x512.Idx → EReal) (ix3 0 n d)
      = (V m c main_v0 : S16x1024x512.Idx → EReal) (ix3 (⟨t.val / 8, by have := val_lt t; omega⟩ : Fin 16) n d) := by
  obtain ⟨e0, e1, e2, -⟩ := idx_facts t
  show V m c main_v0 (((cfg0.win 0).blk t).view.emb (ix3 0 n d)) = _
  refine congrArg (V m c main_v0) (funext fun a => Fin.ext ?_)
  match a with
  | ⟨0, _⟩ => show win0_0.index t (0 : Fin 3) * 1 + 1 * 0 = t.val / 8; omega
  | ⟨1, _⟩ => show win0_0.index t (1 : Fin 3) * 1024 + 1 * n.val = n.val; omega
  | ⟨2, _⟩ => show win0_0.index t (2 : Fin 3) * 512 + 1 * d.val = d.val; omega

theorem iblk1_eq (c : Dev nD) (t : Fin cfg0.N) : (iblk m c 1 t : S512x512.Idx → EReal) = V m c main_v1 := by
  obtain ⟨-, -, -, e0, e1, -⟩ := idx_facts t
  funext j
  show V m c main_v1 (((cfg0.win 1).blk t).view.emb j) = _
  refine congrArg (V m c main_v1) (funext fun a => Fin.ext ?_)
  match a with
  | ⟨0, _⟩ => show win0_1.index t (0 : Fin 2) * 512 + 1 * (j 0).val = (j 0).val; omega
  | ⟨1, _⟩ => show win0_1.index t (1 : Fin 2) * 512 + 1 * (j 1).val = (j 1).val; omega

theorem iblk2_eq (c : Dev nD) (t : Fin cfg0.N) : (iblk m c 2 t : S512.Idx → EReal) = V m c main_arg2 := by
  obtain ⟨-, -, -, -, -, e0, -⟩ := idx_facts t
  funext j
  show V m c main_arg2 (((cfg0.win 2).blk t).view.emb j) = _
  refine congrArg (V m c main_arg2) (funext fun a => Fin.ext ?_)
  match a with
  | ⟨0, _⟩ => show win0_2.index t (0 : Fin 1) * 512 + 1 * (j 0).val = (j 0).val; omega

theorem iblk3_eq (c : Dev nD) (t : Fin cfg0.N) : (iblk m c 3 t : S512x512.Idx → EReal) = V m c main_v2 := by
  obtain ⟨-, -, -, -, -, -, e0, e1, -⟩ := idx_facts t
  funext j
  show V m c main_v2 (((cfg0.win 3).blk t).view.emb j) = _
  refine congrArg (V m c main_v2) (funext fun a => Fin.ext ?_)
  match a with
  | ⟨0, _⟩ => show win0_3.index t (0 : Fin 2) * 512 + 1 * (j 0).val = (j 0).val; omega
  | ⟨1, _⟩ => show win0_3.index t (1 : Fin 2) * 512 + 1 * (j 1).val = (j 1).val; omega

theorem iblk4_eq (c : Dev nD) (t : Fin cfg0.N) : (iblk m c 4 t : S512.Idx → EReal) = V m c main_arg4 := by
  obtain ⟨-, -, -, -, -, -, -, -, e0, -⟩ := idx_facts t
  funext j
  show V m c main_arg4 (((cfg0.win 4).blk t).view.emb j) = _
  refine congrArg (V m c main_arg4) (funext fun a => Fin.ext ?_)
  match a with
  | ⟨0, _⟩ => show win0_4.index t (0 : Fin 1) * 512 + 1 * (j 0).val = (j 0).val; omega

theorem iblk5_eq (c : Dev nD) (t : Fin cfg0.N) : (iblk m c 5 t : S512x512.Idx → EReal) = V m c main_v3 := by
  obtain ⟨-, -, -, -, -, -, -, -, -, e0, e1, -⟩ := idx_facts t
  funext j
  show V m c main_v3 (((cfg0.win 5).blk t).view.emb j) = _
  refine congrArg (V m c main_v3) (funext fun a => Fin.ext ?_)
  match a with
  | ⟨0, _⟩ => show win0_5.index t (0 : Fin 2) * 512 + 1 * (j 0).val = (j 0).val; omega
  | ⟨1, _⟩ => show win0_5.index t (1 : Fin 2) * 512 + 1 * (j 1).val = (j 1).val; omega

theorem iblk6_eq (c : Dev nD) (t : Fin cfg0.N) : (iblk m c 6 t : S512.Idx → EReal) = V m c main_arg6 := by
  obtain ⟨-, -, -, -, -, -, -, -, -, -, -, e0, -⟩ := idx_facts t
  funext j
  show V m c main_arg6 (((cfg0.win 6).blk t).view.emb j) = _
  refine congrArg (V m c main_arg6) (funext fun a => Fin.ext ?_)
  match a with
  | ⟨0, _⟩ => show win0_6.index t (0 : Fin 1) * 512 + 1 * (j 0).val = (j 0).val; omega

theorem iblk7_eq (c : Dev nD) (t : Fin cfg0.N) : (iblk m c 7 t : S512x512.Idx → EReal) = V m c main_v5 := by
  obtain ⟨-, -, -, -, -, -, -, -, -, -, -, -, e0, e1, -⟩ := idx_facts t
  funext j
  show V m c main_v5 (((cfg0.win 7).blk t).view.emb j) = _
  refine congrArg (V m c main_v5) (funext fun a => Fin.ext ?_)
  match a with
  | ⟨0, _⟩ => show win0_7.index t (0 : Fin 2) * 512 + 1 * (j 0).val = (j 0).val; omega
  | ⟨1, _⟩ => show win0_7.index t (1 : Fin 2) * 512 + 1 * (j 1).val = (j 1).val; omega

theorem iblk8_eq (c : Dev nD) (t : Fin cfg0.N) : (iblk m c 8 t : S512.Idx → EReal) = V m c main_arg8 := by
  obtain ⟨-, -, -, -, -, -, -, -, -, -, -, -, -, -, e0⟩ := idx_facts t
  funext j
  show V m c main_arg8 (((cfg0.win 8).blk t).view.emb j) = _
  refine congrArg (V m c main_arg8) (funext fun a => Fin.ext ?_)
  match a with
  | ⟨0, _⟩ => show win0_8.index t (0 : Fin 1) * 512 + 1 * (j 0).val = (j 0).val; omega

end Cert.KernelIdeal.Body
end
-- ==== Proof.FrameI.Glue.lean ====
/-
  The attention kernel's per-point data, read at an index, in terms of the nine argument arrays, at the ideal values.
  With (b, t, h) the batch, time step and head of a grid point: the three projections held in the scratch buffers are
  the closed forms `Qk`, `Kk`, `Vk` at (b, t); the band of 64 rows a head works on is rows 64 h … 64 h + 63; a
  head's attention output is the values against the softmax of its logits; the eight heads' outputs side by side are
  `Zk`; and the output block after the last head is `kerOutAt` at (b, t).
-/
import proofs.«154566_j41051297415246_2_alg».proof.Proof.FrameI.Data
import proofs.«154566_j41051297415246_2_alg».proof.Proof.KerPay
import proofs.«154566_j41051297415246_2_alg».proof.Proof.KerSpec
import proofs.«154566_j41051297415246_2_alg».proof.Proof.FrameI.GlueBlocks
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Body

open Cert.KernelIdeal Cert.KernelIdeal.Gen
open Idealize.ShloMosaic Idealize.ShloMosaic.TcCoe Idealize.ShloMosaic.Tactic Idealize.ShloMosaic.ValueIdx Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RefLeg Cert.KerSpec Cert.KerLeg

variable (m : (ℓ : Loc nD τ sig) → Buf (Elt Ideal) ℓ)

/-! ## The coordinates of a grid point -/

/-- The batch of point `t`. -/
abbrev bOf (t : Fin cfg0.N) : Fin 2 := ⟨t.val / 64, by have := val_lt t; omega⟩
/-- The time step of point `t`. -/
abbrev tOf (t : Fin cfg0.N) : Fin 8 := ⟨(t.val / 8) % 8, by omega⟩
/-- The head of point `t`. -/
abbrev hOf (t : Fin cfg0.N) : Fin 8 := ⟨t.val % 8, by omega⟩

/-- The block of tokens of point `t`, in terms of the activations. -/
theorem iblk0_arg (c : Dev nD) (t : Fin cfg0.N) (n : Fin 1024) (d : Fin 512) :
    (iblk m c 0 t : S1x1024x512.Idx → EReal) (ix3 0 n d) = (m ((c.tc : Thread nD τ).loc main_arg0) : S2x8x1024x512.Idx → EReal) (ix4 (bOf t) (tOf t) n d) := by
  rw [iblk0_apply, V_v0_apply]
  refine congrArg (m ((c.tc : Thread nD τ).loc main_arg0) : S2x8x1024x512.Idx → EReal) ?_
  have e1 : (⟨t.val / 8 / 8, by have := val_lt t; omega⟩ : Fin 2) = bOf t := Fin.ext (by show t.val / 8 / 8 = t.val / 64; omega)
  rw [e1]

theorem bOf_base (t : Fin cfg0.N) : bOf (base t) = bOf t := Fin.ext (by show 8 * (t.val / 8) / 64 = t.val / 64; omega)
theorem tOf_base (t : Fin cfg0.N) : tOf (base t) = tOf t := Fin.ext (by show 8 * (t.val / 8) / 8 % 8 = t.val / 8 % 8; omega)

/-! ## The projections -/

theorem QAt_apply (c : Dev nD) (t : Fin cfg0.N) (e : Fin 512) (n : Fin 1024) :
    (QAt (F := Ideal) m c t : S512x1024.Idx → EReal) (ix2 e n)
      = Qk (m ((c.tc : Thread nD τ).loc main_arg0) : S2x8x1024x512.Idx → EReal) (m ((c.tc : Thread nD τ).loc main_arg1) : S512x512.Idx → EReal) (m ((c.tc : Thread nD τ).loc main_arg2) : S512.Idx → EReal) (bOf t) (tOf t) e n := by
  unfold QAt Qk
  refine (pay5_apply (iblk m c 0 (base t)) (iblk m c 1 (base t)) (iblk m c 2 (base t)) e n).trans ?_
  rw [iblk1_eq, iblk2_eq, V_v1, V_main_arg2]
  simp only [iblk0_arg, bOf_base, tOf_base]

theorem KAt_apply (c : Dev nD) (t : Fin cfg0.N) (e : Fin 512) (n : Fin 1024) :
    (KAt (F := Ideal) m c t : S512x1024.Idx → EReal) (ix2 e n)
      = Kk (m ((c.tc : Thread nD τ).loc main_arg0) : S2x8x1024x512.Idx → EReal) (m ((c.tc : Thread nD τ).loc main_arg3) : S512x512.Idx → EReal) (m ((c.tc : Thread nD τ).loc main_arg4) : S512.Idx → EReal) (bOf t) (tOf t) e n := by
  unfold KAt Kk
  refine (pay6_apply (iblk m c 0 (base t)) (iblk m c 3 (base t)) (iblk m c 4 (base t)) e n).trans ?_
  rw [iblk3_eq, iblk4_eq, V_v2, V_main_arg4]
  simp only [iblk0_arg, bOf_base, tOf_base]

theorem VAt_apply (c : Dev nD) (t : Fin cfg0.N) (e : Fin 512) (n : Fin 1024) :
    (VAt (F := Ideal) m c t : S512x1024.Idx → EReal) (ix2 e n)
      = Vk (m ((c.tc : Thread nD τ).loc main_arg0) : S2x8x1024x512.Idx → EReal) (m ((c.tc : Thread nD τ).loc main_arg5) : S512x512.Idx → EReal) (m ((c.tc : Thread nD τ).loc main_arg6) : S512.Idx → EReal) (bOf t) (tOf t) e n := by
  unfold VAt Vk
  rw [pay1_eq]
  refine (pay7_apply (iblk m c 0 (base t)) (iblk m c 5 (base t)) (iblk m c 6 (base t)) e n).trans ?_
  rw [iblk5_eq, iblk6_eq, V_v3, V_main_arg6]
  simp only [iblk0_arg, bOf_base, tOf_base]

/-! ## A head's band -/

/-- The band of point `tp`'s head, read at `(dd, n)`: row `64 h + dd` of the buffer. -/
theorem band_apply (tp : Fin cfg0.N) (a : Vec Ideal S512x1024 .bf16) (dd : Fin 64) (n : Fin 1024) :
    (band (grid0.coords tp) a : S64x1024.Idx → EReal) (ix2 dd n) = a (ix2 (hd (hOf tp) dd) n) := by
  have ho := rowOff_eq tp
  have h1 : k0_off1 (grid0.coords tp) (1 : Fin 2) = 0 := congrFun (off_eq (grid0.coords tp)) 1
  unfold rowOff at ho
  show a ((Rect.unit (s := S512x1024) (k0_off1 (grid0.coords tp)) S64x1024.size (k0_off1_inb (grid0.coords tp))).idx (ix2 dd n)) = _
  refine congrArg a (funext fun ax => Fin.ext ?_)
  match ax with
  | ⟨0, _⟩ => show k0_off1 (grid0.coords tp) (0 : Fin 2) + 1 * dd.val = 64 * (tp.val % 8) + dd.val; omega
  | ⟨1, _⟩ => show k0_off1 (grid0.coords tp) (1 : Fin 2) + 1 * n.val = n.val; omega

/-- The softmax of the rows of a head's logits is the head's attention weights. -/
theorem rowSoft_Lk (X : SX.Idx → EReal) (Wq : SW.Idx → EReal) (bq : SB.Idx → EReal) (Wk : SW.Idx → EReal) (bk : SB.Idx → EReal)
    (b : Fin 2) (t : Fin 8) (h : Fin 8) (n m' : Fin 1024) :
    rowSoft (Lk X Wq bq Wk bk b t h) n m' = Ak X Wq bq Wk bk b t h n m' := by
  unfold rowSoft rowExp rowMax Ak Sk Pk Mk
  rfl

/-- The attention output of the head of point `tp`. -/
theorem zRow_apply (c : Dev nD) (tp : Fin cfg0.N) (dd : Fin 64) (n : Fin 1024) :
    (zRow (F := Ideal) m c tp : S64x1024.Idx → EReal) (ix2 dd n)
      = ∑ m' : Fin 1024, Vk (m ((c.tc : Thread nD τ).loc main_arg0) : S2x8x1024x512.Idx → EReal) (m ((c.tc : Thread nD τ).loc main_arg5) : S512x512.Idx → EReal) (m ((c.tc : Thread nD τ).loc main_arg6) : S512.Idx → EReal) (bOf tp) (tOf tp) (hd (hOf tp) dd) m'
          * Ak (m ((c.tc : Thread nD τ).loc main_arg0) : S2x8x1024x512.Idx → EReal) (m ((c.tc : Thread nD τ).loc main_arg1) : S512x512.Idx → EReal) (m ((c.tc : Thread nD τ).loc main_arg2) : S512.Idx → EReal) (m ((c.tc : Thread nD τ).loc main_arg3) : S512x512.Idx → EReal) (m ((c.tc : Thread nD τ).loc main_arg4) : S512.Idx → EReal) (bOf tp) (tOf tp) (hOf tp) n m' := by
  unfold zRow
  refine (pay2_apply _ _ _ dd n).trans ?_
  have hL : headLogit (band (grid0.coords tp) (QAt m c tp)) (band (grid0.coords tp) (KAt m c tp))
      = Lk (m ((c.tc : Thread nD τ).loc main_arg0) : S2x8x1024x512.Idx → EReal) (m ((c.tc : Thread nD τ).loc main_arg1) : S512x512.Idx → EReal) (m ((c.tc : Thread nD τ).loc main_arg2) : S512.Idx → EReal) (m ((c.tc : Thread nD τ).loc main_arg3) : S512x512.Idx → EReal) (m ((c.tc : Thread nD τ).loc main_arg4) : S512.Idx → EReal) (bOf tp) (tOf tp) (hOf tp) := by
    funext a b
    unfold headLogit Lk
    refine Finset.sum_congr rfl fun d _ => ?_
    rw [band_apply, band_apply, QAt_apply, KAt_apply]
  refine Finset.sum_congr rfl fun m' _ => ?_
  rw [band_apply, VAt_apply]
  unfold headSoft
  rw [hL, rowSoft_Lk]

/-! ## All heads -/

theorem localOf_ix2 (r : Fin 512) (n : Fin 1024) : localOf (ix2 r n) = ix2 (posOf r) n := by
  funext a
  apply Fin.ext
  match a with
  | ⟨0, _⟩ => show r.val - 64 * (r.val / 64) = r.val % 64; omega
  | ⟨1, _⟩ => show n.val - 0 = n.val; omega

theorem Zfull_apply (c : Dev nD) (t : Fin cfg0.N) (r : Fin 512) (n : Fin 1024) :
    (Zfull (F := Ideal) m c t : S512x1024.Idx → EReal) (ix2 r n)
      = Zk (m ((c.tc : Thread nD τ).loc main_arg0) : S2x8x1024x512.Idx → EReal) (m ((c.tc : Thread nD τ).loc main_arg1) : S512x512.Idx → EReal) (m ((c.tc : Thread nD τ).loc main_arg2) : S512.Idx → EReal) (m ((c.tc : Thread nD τ).loc main_arg3) : S512x512.Idx → EReal) (m ((c.tc : Thread nD τ).loc main_arg4) : S512.Idx → EReal) (m ((c.tc : Thread nD τ).loc main_arg5) : S512x512.Idx → EReal) (m ((c.tc : Thread nD τ).loc main_arg6) : S512.Idx → EReal) (bOf t) (tOf t) r n := by
  unfold Zfull Zk
  show zRow m c (pointOf t (ix2 r n)) (localOf (ix2 r n)) = _
  rw [localOf_ix2, zRow_apply]
  have hb : bOf (pointOf t (ix2 r n)) = bOf t :=
    Fin.ext (by show (8 * (t.val / 8) + r.val / 64) / 64 = t.val / 64; have := r.isLt; omega)
  have ht : tOf (pointOf t (ix2 r n)) = tOf t :=
    Fin.ext (by show (8 * (t.val / 8) + r.val / 64) / 8 % 8 = t.val / 8 % 8; have := r.isLt; omega)
  have hh : hOf (pointOf t (ix2 r n)) = headOf r :=
    Fin.ext (by show (8 * (t.val / 8) + r.val / 64) % 8 = r.val / 64; have := r.isLt; omega)
  have hr : hd (headOf r) (posOf r) = r := Fin.ext (by show 64 * (r.val / 64) + r.val % 64 = r.val; omega)
  rw [hb, ht, hh, hr]

/-! ## The output block -/

theorem out_apply (c : Dev nD) (t : Fin cfg0.N) (n : Fin 1024) (e : Fin 512) :
    (k0_pay3 (F := Ideal) (Zfull m c t) (iblk m c 7 t) (iblk m c 8 t) : S1x1024x512.Idx → EReal) (ix3 0 n e)
      = kerOutAt (m ((c.tc : Thread nD τ).loc main_arg0) : S2x8x1024x512.Idx → EReal) (m ((c.tc : Thread nD τ).loc main_arg1) : S512x512.Idx → EReal) (m ((c.tc : Thread nD τ).loc main_arg2) : S512.Idx → EReal) (m ((c.tc : Thread nD τ).loc main_arg3) : S512x512.Idx → EReal) (m ((c.tc : Thread nD τ).loc main_arg4) : S512.Idx → EReal) (m ((c.tc : Thread nD τ).loc main_arg5) : S512x512.Idx → EReal) (m ((c.tc : Thread nD τ).loc main_arg6) : S512.Idx → EReal) (m ((c.tc : Thread nD τ).loc main_arg7) : S512x512.Idx → EReal) (m ((c.tc : Thread nD τ).loc main_arg8) : S512.Idx → EReal) (bOf t) (tOf t) n e := by
  unfold kerOutAt
  refine (pay3_apply (Zfull m c t) (iblk m c 7 t) (iblk m c 8 t) n e).trans ?_
  rw [iblk7_eq, iblk8_eq, V_main_arg8]
  refine congrArg (· + (m ((c.tc : Thread nD τ).loc main_arg8) : S512.Idx → EReal) (ix1 e)) (Finset.sum_congr rfl fun d _ => ?_)
  rw [Zfull_apply, V_v5_apply]

end Cert.KernelIdeal.Body
end
-- ==== Proof.FrameI.Value.lean ====
/-
  The kernel's result array. Each last-head point writes back one block of 1024 tokens; block bt of the output is the
  closed form `kerOutAt` at batch bt / 8, time bt % 8; the sixteen blocks tile the array; the host's final reshape
  regroups the leading axis 16 = 2 · 8.
-/
import proofs.«154566_j41051297415246_2_alg».proof.Proof.FrameI.Sound
import proofs.«154566_j41051297415246_2_alg».proof.Proof.KerSpec
import proofs.«154566_j41051297415246_2_alg».proof.Proof.FrameI.Glue
import Idealize.ShloMosaic.Lib.Pipeline.Value
import Idealize.ShloMosaic.Lib.ValueIdx
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-- The kernel's output array [16, 1024, 512] as one function of the argument arrays. -/
def Gout (c : Dev nD) : S16x1024x512.Idx → EReal := fun i =>
  Cert.KerSpec.kerOutAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    (⟨(i (0 : Fin 3)).val / 8, by have h : (i (0 : Fin 3)).val < 16 := (i (0 : Fin 3)).isLt; omega⟩ : Fin 2) (⟨(i (0 : Fin 3)).val % 8, Nat.mod_lt _ (by decide)⟩ : Fin 8)
    (⟨(i (1 : Fin 3)).val, (i (1 : Fin 3)).isLt⟩ : Fin 1024) (⟨(i (2 : Fin 3)).val, (i (2 : Fin 3)).isLt⟩ : Fin 512)

/-- The output window's block index at point t is (t / 8, 0, 0): decided over the grid. -/
theorem idx9 : ∀ t : Fin cfg0.N, win0_9.index t (0 : Fin 3) = t.val / 8 ∧ win0_9.index t (1 : Fin 3) = 0 ∧ win0_9.index t (2 : Fin 3) = 0 :=
  (by decide +kernel : ∀ t : Fin grid0.N, win0_9.index t (0 : Fin 3) = t.val / 8 ∧ win0_9.index t (1 : Fin 3) = 0 ∧ win0_9.index t (2 : Fin 3) = 0)

/-- What a point writes back is its block of `Gout`. -/
theorem flushed9_eq (c : Dev nD) (t : Fin cfg0.N) :
    (dats m 0 c).flushed 9 t = ((cfg0.win 9).blk t).view.read (Elt Ideal) (Gout m c) := by
  show (cfg0.win 9).cut (grid0.coords t) ((dats m 0 c).after 9 t) = _
  rw [after9]
  obtain ⟨e0, e1, e2⟩ := idx9 t
  funext j
  obtain ⟨n, e, rfl⟩ : ∃ (n : Fin 1024) (e : Fin 512), j = ix3 (0 : Fin 1) n e :=
    ⟨j 1, j 2, by rw [eq_ix3 j]; congr 1; exact Subsingleton.elim (α := Fin 1) (j 0) 0⟩
  show k0_pay3 (F := Ideal) (Zfull m c t) (iblk m c 7 t) (iblk m c 8 t) (ix3 0 n e) = Gout m c (((cfg0.win 9).blk t).view.emb (ix3 0 n e))
  rw [out_apply m c t n e]
  unfold Gout
  have h0 : ((((cfg0.win 9).blk t).view.emb (ix3 (0 : Fin 1) n e)) (0 : Fin 3)).val = t.val / 8 := by
    show win0_9.index t (0 : Fin 3) * 1 + 1 * 0 = t.val / 8
    omega
  have h1 : ((((cfg0.win 9).blk t).view.emb (ix3 (0 : Fin 1) n e)) (1 : Fin 3)).val = n.val := by
    show win0_9.index t (1 : Fin 3) * 1024 + 1 * n.val = n.val
    omega
  have h2 : ((((cfg0.win 9).blk t).view.emb (ix3 (0 : Fin 1) n e)) (2 : Fin 3)).val = e.val := by
    show win0_9.index t (2 : Fin 3) * 512 + 1 * e.val = e.val
    omega
  have hN := val_lt t
  congr 1
  · exact Fin.ext (by show t.val / 64 = _ / 8; rw [h0]; omega)
  · exact Fin.ext (by show t.val / 8 % 8 = _ % 8; rw [h0])
  · exact Fin.ext (by show n.val = _; rw [h1])
  · exact Fin.ext (by show e.val = _; rw [h2])

/-- An index of the output array is in point t's block iff each coordinate is in the block's range. -/
theorem mem_blk9 (t : Fin cfg0.N) (i : S16x1024x512.Idx) :
    i ∈ ((cfg0.win 9).blk t).view.set ↔ ∀ a : Fin 3, win0_9.index t a * S1x1024x512.size a ≤ (i a).val ∧ (i a).val < win0_9.index t a * S1x1024x512.size a + S1x1024x512.size a := by
  show i ∈ ((View.whole main_v6).slice (win0_9.rect t)).set ↔ _
  rw [View.set_slice_whole, Rect.mem_set_unit]
  exact Iff.rfl

/-- Every index of the output array is in the block of the last-head point of its block of tokens. -/
theorem cover9 (i : S16x1024x512.Idx) : ∃ t : Fin cfg0.N, (cfg0.win 9).flush t = true ∧ i ∈ ((cfg0.win 9).blk t).view.set := by
  have hi0 : (i (0 : Fin 3)).val < 16 := (i (0 : Fin 3)).isLt
  have hi1 : (i (1 : Fin 3)).val < 1024 := (i (1 : Fin 3)).isLt
  have hi2 : (i (2 : Fin 3)).val < 512 := (i (2 : Fin 3)).isLt
  let t : Fin cfg0.N := ⟨8 * (i (0 : Fin 3)).val + 7, Nat.lt_of_lt_of_eq (by omega : 8 * (i (0 : Fin 3)).val + 7 < 128) (show (128 : ℕ) = cfg0.N from N_0.symm)⟩
  have ht : t.val = 8 * (i (0 : Fin 3)).val + 7 := rfl
  refine ⟨t, (flush0_9 t).mpr (by rw [ht]; omega), ?_⟩
  rw [mem_blk9]
  obtain ⟨e0, e1, e2⟩ := idx9 t
  intro a
  match a with
  | ⟨0, _⟩ => show win0_9.index t (0 : Fin 3) * 1 ≤ (i 0).val ∧ (i 0).val < win0_9.index t (0 : Fin 3) * 1 + 1; rw [e0, ht]; omega
  | ⟨1, _⟩ => show win0_9.index t (1 : Fin 3) * 1024 ≤ (i 1).val ∧ (i 1).val < win0_9.index t (1 : Fin 3) * 1024 + 1024; rw [e1]; omega
  | ⟨2, _⟩ => show win0_9.index t (2 : Fin 3) * 512 ≤ (i 2).val ∧ (i 2).val < win0_9.index t (2 : Fin 3) * 512 + 512; rw [e2]; omega

/-- The output array after the run. -/
theorem final9 (c : Dev nD) : (dats m 0 c).arrAt 9 cfg0.N = Gout m c :=
  (dats m 0 c).arrAt_eq_of_cover 9 (Gout m c) (fun t _ => flushed9_eq m c t) (cover9)

/-- The kernel's result: the host's reshape of the output array regroups the leading axis, 16 = 2 · 8. -/
theorem tail_v7 (c : Dev nD) :
    Pipeline.afterTail₀ cfgs (dats m) 0 (V0 m) [hostOps1] c main_v7 = Cert.KerSpec.kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.devRef .tc main_v6) = Gout m c :=
    (Pipeline.withArrays_arr spec0 launch0.win.arr_inj c _ _ 9).trans (final9 m c)
  funext i
  obtain ⟨b, t, n, e, rfl⟩ : ∃ (b : Fin 2) (t : Fin 8) (n : Fin 1024) (e : Fin 512), i = ix4 b t n e := ⟨i 0, i 1, i 2, i 3, eq_ix4 i⟩
  show shapeCast S2x8x1024x512 (Pipeline.withArrays (cfgs 0).spec c (V0 m c) (fun w => (dats m 0 c).arrAt w (cfgs 0).N) (Proc.devRef .tc main_v6))
    shapeCasts_S16x1024x512_S2x8x1024x512 (ix4 b t n e) = _
  rw [hw]
  have hb := b.isLt
  have ht := t.isLt
  rw [shapeCast_apply (Gout m c) shapeCasts_S16x1024x512_S2x8x1024x512 (ix4 b t n e)
    (ix3 (⟨8 * b.val + t.val, by omega⟩ : Fin 16) n e) (by
      rw [Shape.rowMajor_val_three, Shape.rowMajor_val_four]
      show ((8 * b.val + t.val) * 1024 + n.val) * 512 + e.val = ((b.val * 8 + t.val) * 1024 + n.val) * 512 + e.val
      omega)]
  rw [Cert.KerSpec.kerOut_apply]
  unfold Gout
  congr 1
  · exact Fin.ext (by show (8 * b.val + t.val) / 8 = b.val; omega)
  · exact Fin.ext (by show (8 * b.val + t.val) % 8 = t.val; omega)

/-- The kernel's run, posted: every weakly fair execution ends with the result at `kerOut` of the argument arrays
    and the argument arrays as launched. -/
theorem run : θ_run defs (onTc (τ := τ) (main (F := Ideal))) ⟨m, fun _ => 0, ρ⟩ (fun r => ∀ c : Dev nD,
      r.2.mem ((c.tc : Thread nD τ).loc main_v7) = Cert.KerSpec.kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h c).2 main_v7 (Pipeline.mem_restRefs_of main_v7 (by decide) (by decide))).trans (tail_v7 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).1 2).trans (((dats m 0 c).arrAt_in 2 rfl _).trans ((A_eq m c 2).trans (V_main_arg2 m c)))),
      (((h c).2 main_arg3 (Pipeline.mem_restRefs_of main_arg3 (by decide) (by decide))).trans (W_main_arg3 m (dats m) c)),
      (((h c).1 4).trans (((dats m 0 c).arrAt_in 4 rfl _).trans ((A_eq m c 4).trans (V_main_arg4 m c)))),
      (((h c).2 main_arg5 (Pipeline.mem_restRefs_of main_arg5 (by decide) (by decide))).trans (W_main_arg5 m (dats m) c)),
      (((h c).1 6).trans (((dats m 0 c).arrAt_in 6 rfl _).trans ((A_eq m c 6).trans (V_main_arg6 m c)))),
      (((h c).2 main_arg7 (Pipeline.mem_restRefs_of main_arg7 (by decide) (by decide))).trans (W_main_arg7 m (dats m) c)),
      (((h c).1 8).trans (((dats m 0 c).arrAt_in 8 rfl _).trans ((A_eq m c 8).trans (V_main_arg8 m c))))⟩)
    (run_main m ρ)

end Cert.KernelIdeal.Body

end
-- ==== Proof.Finite.lean ====
/-
  Finite inputs are reals.

  The precondition is the conjunction, over the nine argument arrays, of "every element's absolute value is below
  `+∞`", each an all-reduction by `and` of the elementwise comparison. The word `0x7F800000` denotes `⊤`; on the
  extended reals `max x (-x) < ⊤` excludes both infinities, so `x` is a real. An all-reduction that is 1 had a 1 at every
  index, and a conjunction of bits that is 1 has every bit 1.
-/
import proofs.«154566_j41051297415246_2_alg».proof.Defs
import Idealize.ShloMosaic.Lib.ReduceAll
import Idealize.ShloMosaic.Lib.Pipeline.Value
import Idealize.ShloMosaic.Lib.ValueIdx
import Idealize.ShloMosaic.PureOps.Ideal.Laws

noncomputable section

namespace Cert.FiniteLeg

open Idealize.ShloMosaic Idealize.ShloMosaic.ValueIdx Cert.Pre_finite_inputs

/-- The scalar shape has one index. -/
instance : Subsingleton S_.Idx := ⟨fun a b => funext fun d => d.elim0⟩

/-- The f32 word `0x7F800000` (`+∞`) denotes `⊤`. -/
theorem ofBits_posInf : Ideal.ofBits .f32 0x7F800000#32 = ⊤ := by
  simp [Ideal.ofBits, Ideal.ieee]

/-- An extended real whose absolute value is below `⊤` is a real. -/
theorem real_of_abs_lt_top (x : EReal) (h : max x (-x) < ⊤) : ∃ r : ℝ, x = (r : EReal) := by
  induction x using EReal.rec with
  | bot => simp at h
  | coe r => exact ⟨r, rfl⟩
  | top => simp at h

/-- The element fact: the comparison `|x| < +∞` being 1 makes `x` a real. -/
theorem real_of_cmp (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [ofBits_posInf] at h
  apply real_of_abs_lt_top
  have h' : BitVec.ofBool (decide (max x (-x) < ⊤)) = 1#1 := h
  by_contra hn
  rw [decide_eq_false hn] at h'
  exact absurd h' (by decide)

/-- The array fact: the all-reduction of the elementwise comparison being 1 makes every element a real. -/
theorem real_of_all {s : Shape} (hb : S_.BroadcastsInDim s (![] : Fin 0 → Fin s.rank)) {axes : List (Fin s.rank)}
    (hr : s.ReducesTo axes S_) (hu : 0 < S_.numel) (x : FVec Ideal s .f32)
    (h : Host.reduce IntOp.andi (cmpf .olt (Host.absf x) (broadcastInDim s ![] hb (constant (F := Ideal) S_ .f32 0x7F800000#32)))
      (constantI S_ 1 1#1) hr hu ix0 = 1#1) (i : s.Idx) :
    ∃ r : ℝ, x i = (r : EReal) := by
  have e := Host.reduce_andi_all _ _ hr hu ix0 h i
  have hbc : broadcastInDim s ![] hb (constant (F := Ideal) S_ .f32 0x7F800000#32) i = Ideal.ofBits .f32 0x7F800000#32 :=
    broadcastInDim_apply _ hb _ i ix0 (fun a => a.elim0)
  apply real_of_cmp
  rw [← hbc]
  exact e

variable [Cert.Pre_finite_inputs.Facts]

/-- The printed predicate being all ones makes every element of every argument array a real. -/
theorem finite_of_fn (x0 : (⟨S2x8x1024x512, .f32⟩ : BufTy).Contents (Elt Ideal)) (x1 : (⟨S512x512, .f32⟩ : BufTy).Contents (Elt Ideal))
    (x2 : (⟨S512, .f32⟩ : BufTy).Contents (Elt Ideal)) (x3 : (⟨S512x512, .f32⟩ : BufTy).Contents (Elt Ideal))
    (x4 : (⟨S512, .f32⟩ : BufTy).Contents (Elt Ideal)) (x5 : (⟨S512x512, .f32⟩ : BufTy).Contents (Elt Ideal))
    (x6 : (⟨S512, .f32⟩ : BufTy).Contents (Elt Ideal)) (x7 : (⟨S512x512, .f32⟩ : BufTy).Contents (Elt Ideal))
    (x8 : (⟨S512, .f32⟩ : BufTy).Contents (Elt Ideal))
    (h : Cert.Pre_finite_inputs.fn (F := Ideal) x0 x1 x2 x3 x4 x5 x6 x7 x8 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal))
      ∧ (∀ i, ∃ r : ℝ, x6 i = (r : EReal)) ∧ (∀ i, ∃ r : ℝ, x7 i = (r : EReal)) ∧ (∀ i, ∃ r : ℝ, x8 i = (r : EReal)) := by
  have h0 := congrFun h ix0
  dsimp only [fn, fn_part1, fn_part2] at h0
  simp only [andi, IntOp.andi_eq_one] at h0
  obtain ⟨⟨⟨⟨⟨⟨⟨⟨a0, a1⟩, a2⟩, a3⟩, a4⟩, a5⟩, a6⟩, a7⟩, a8⟩ := h0
  exact ⟨real_of_all _ _ _ x0 a0, real_of_all _ _ _ x1 a1, real_of_all _ _ _ x2 a2, real_of_all _ _ _ x3 a3,
    real_of_all _ _ _ x4 a4, real_of_all _ _ _ x5 a5, real_of_all _ _ _ x6 a6, real_of_all _ _ _ x7 a7, real_of_all _ _ _ x8 a8⟩

/-- Under the claim's precondition every element of the kernel's nine argument arrays is a real, on every device. -/
theorem finite_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : S2x8x1024x512.Idx, ∃ r : ℝ, m ((c.tc : Thread Cert.KernelIdeal.nD Cert.KernelIdeal.τ).loc Cert.KernelIdeal.main_arg0) i = (r : EReal))
      ∧ (∀ i : S512x512.Idx, ∃ r : ℝ, m ((c.tc : Thread Cert.KernelIdeal.nD Cert.KernelIdeal.τ).loc Cert.KernelIdeal.main_arg1) i = (r : EReal))
      ∧ (∀ i : S512.Idx, ∃ r : ℝ, m ((c.tc : Thread Cert.KernelIdeal.nD Cert.KernelIdeal.τ).loc Cert.KernelIdeal.main_arg2) i = (r : EReal))
      ∧ (∀ i : S512x512.Idx, ∃ r : ℝ, m ((c.tc : Thread Cert.KernelIdeal.nD Cert.KernelIdeal.τ).loc Cert.KernelIdeal.main_arg3) i = (r : EReal))
      ∧ (∀ i : S512.Idx, ∃ r : ℝ, m ((c.tc : Thread Cert.KernelIdeal.nD Cert.KernelIdeal.τ).loc Cert.KernelIdeal.main_arg4) i = (r : EReal))
      ∧ (∀ i : S512x512.Idx, ∃ r : ℝ, m ((c.tc : Thread Cert.KernelIdeal.nD Cert.KernelIdeal.τ).loc Cert.KernelIdeal.main_arg5) i = (r : EReal))
      ∧ (∀ i : S512.Idx, ∃ r : ℝ, m ((c.tc : Thread Cert.KernelIdeal.nD Cert.KernelIdeal.τ).loc Cert.KernelIdeal.main_arg6) i = (r : EReal))
      ∧ (∀ i : S512x512.Idx, ∃ r : ℝ, m ((c.tc : Thread Cert.KernelIdeal.nD Cert.KernelIdeal.τ).loc Cert.KernelIdeal.main_arg7) i = (r : EReal))
      ∧ (∀ i : S512.Idx, ∃ r : ℝ, m ((c.tc : Thread Cert.KernelIdeal.nD Cert.KernelIdeal.τ).loc Cert.KernelIdeal.main_arg8) i = (r : EReal)) :=
  finite_of_fn _ _ _ _ _ _ _ _ _ (h c)

end Cert.FiniteLeg

end
-- ==== Proof.Bridge.lean ====
/-
  The kernel's closed form and the reference's closed form are one function of finite arguments.

  The two differ in three ways. (1) The factors of every product stand in the other order, and the model coordinate
  and the token are the other way round: commutativity. (2) The kernel scales the queries by the word `0.125` before
  the 64-term contraction of a head, the reference scales the finished sum: on finite reals multiplication distributes
  over the sum. (3) The reference adds to every logit of a (b, t) the scalar `delta`, a finite real when the
  activations are finite (token-means are quotients of finite sums by the real `1024`, absolute values and sums of
  finite reals are finite, and the word `1.0` is a real); a softmax is invariant under such a shift: the supremum over
  the 1024 key tokens of the shifted logits is the shifted supremum (a finite non-empty family attains its supremum),
  the differences of finite reals `(a + c) - (M + c)` and `a - M` agree, hence the exponentials, their sums and the
  quotients are the same extended reals, whatever their values. The weighted values and the output projection then
  agree term by term, model coordinate `k` being coordinate `k % 64` of head `k / 64`.
-/
import Idealize.ShloMosaic.PureOps.Ideal
import Idealize.ShloMosaic.PureOps.Ideal.Laws
import Idealize.ShloMosaic.Lib.ValueIdx
import proofs.«154566_j41051297415246_2_alg».proof.Proof.RefSpec
import proofs.«154566_j41051297415246_2_alg».proof.Proof.KerSpec

noncomputable section

open scoped BigOperators

namespace Cert.Bridge

open Idealize.ShloMosaic Idealize.ShloMosaic.ValueIdx Cert.RefLeg Cert.KerSpec

/-! ## Finite extended reals -/

/-- An extended real that is a real. -/
def IsR (x : EReal) : Prop := ∃ r : ℝ, x = (r : EReal)

theorem IsR.coe (r : ℝ) : IsR (r : EReal) := ⟨r, rfl⟩

theorem IsR.zero : IsR 0 := ⟨0, EReal.coe_zero.symm⟩

theorem IsR.add {x y : EReal} (hx : IsR x) (hy : IsR y) : IsR (x + y) := by
  obtain ⟨a, rfl⟩ := hx; obtain ⟨b, rfl⟩ := hy
  exact ⟨a + b, (EReal.coe_add a b).symm⟩

theorem IsR.mul {x y : EReal} (hx : IsR x) (hy : IsR y) : IsR (x * y) := by
  obtain ⟨a, rfl⟩ := hx; obtain ⟨b, rfl⟩ := hy
  exact ⟨a * b, (EReal.coe_mul a b).symm⟩

theorem IsR.neg {x : EReal} (hx : IsR x) : IsR (-x) := by
  obtain ⟨a, rfl⟩ := hx
  exact ⟨-a, (EReal.coe_neg a).symm⟩

theorem IsR.sub {x y : EReal} (hx : IsR x) (hy : IsR y) : IsR (x - y) := by
  obtain ⟨a, rfl⟩ := hx; obtain ⟨b, rfl⟩ := hy
  exact ⟨a - b, (EReal.coe_sub a b).symm⟩

theorem IsR.max {x y : EReal} (hx : IsR x) (hy : IsR y) : IsR (max x y) := by
  obtain ⟨a, rfl⟩ := hx; obtain ⟨b, rfl⟩ := hy
  exact ⟨Max.max a b, (EReal.coe_strictMono.monotone.map_max).symm⟩

/-- A finite sum of reals is a real. -/
theorem IsR.sum {ι : Type} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

/-- On reals, multiplication by a real distributes over a finite sum. -/
theorem sum_mul_isR {ι : Type} (s : Finset ι) (f : ι → EReal) (w : EReal) (hf : ∀ i ∈ s, IsR (f i)) (hw : IsR w) :
    (∑ i ∈ s, f i) * w = ∑ i ∈ s, f i * w := by
  classical
  obtain ⟨v, rfl⟩ := hw
  induction s using Finset.induction_on with
  | empty => rw [Finset.sum_empty, Finset.sum_empty, zero_mul]
  | insert a s ha ih =>
    rw [Finset.sum_insert ha, Finset.sum_insert ha, ← ih (fun i hi => hf i (Finset.mem_insert_of_mem hi))]
    obtain ⟨x, hx⟩ := hf a (Finset.mem_insert_self a s)
    obtain ⟨y, hy⟩ := IsR.sum s f (fun i hi => hf i (Finset.mem_insert_of_mem hi))
    rw [hx, hy, ← EReal.coe_add, ← EReal.coe_mul, ← EReal.coe_mul, ← EReal.coe_mul, ← EReal.coe_add, add_mul]

/-- Over a finite non-empty index type the supremum of a shifted family is the shifted supremum. -/
theorem iSup_add_const {ι : Type} [Finite ι] [Nonempty ι] (g : ι → EReal) (c : EReal) :
    ⨆ i, (g i + c) = (⨆ i, g i) + c := by
  refine le_antisymm (iSup_le fun i => add_le_add (le_iSup g i) le_rfl) ?_
  obtain ⟨i0, h0⟩ := exists_eq_ciSup_of_finite (f := g)
  rw [← h0]
  exact le_iSup (fun i => g i + c) i0

/-- Over a finite non-empty index type the supremum of reals is a real. -/
theorem IsR.iSup {ι : Type} [Finite ι] [Nonempty ι] (g : ι → EReal) (h : ∀ i, IsR (g i)) : IsR (⨆ i, g i) := by
  obtain ⟨i0, h0⟩ := exists_eq_ciSup_of_finite (f := g)
  rw [← h0]
  exact h i0

/-- A common real summand cancels in a difference of reals. -/
theorem add_sub_add_right_isR {a M c : EReal} (ha : IsR a) (hM : IsR M) (hc : IsR c) : (a + c) - (M + c) = a - M := by
  obtain ⟨a, rfl⟩ := ha; obtain ⟨M, rfl⟩ := hM; obtain ⟨c, rfl⟩ := hc
  rw [← EReal.coe_add, ← EReal.coe_add, ← EReal.coe_sub, ← EReal.coe_sub, add_sub_add_right_eq_sub]

/-! ## The words -/

/-- The f32 word `0x3E000000` denotes the real `1/8`. -/
theorem ofBits_eighth : Ideal.ofBits .f32 0x3E000000#32 = ((1 / 8 : ℝ) : EReal) := by
  simp [Ideal.ofBits, Ideal.ieee, -EReal.coe_mul]; norm_num

/-- The f32 word `0x44800000` denotes the real `1024`. -/
theorem ofBits_1024 : Ideal.ofBits .f32 0x44800000#32 = ((1024 : ℝ) : EReal) := by
  simp [Ideal.ofBits, Ideal.ieee, -EReal.coe_mul]; norm_num

/-- The f32 word `0x3F800000` denotes the real `1`. -/
theorem ofBits_one : Ideal.ofBits .f32 0x3F800000#32 = ((1 : ℝ) : EReal) := by
  simp [Ideal.ofBits, Ideal.ieee, -EReal.coe_mul]; norm_num

/-! ## The projections -/

section

variable (X : SX.Idx → EReal) (Wq : SW.Idx → EReal) (bq : SB.Idx → EReal) (Wk : SW.Idx → EReal) (bk : SB.Idx → EReal)
  (Wv : SW.Idx → EReal) (bv : SB.Idx → EReal) (Wo : SW.Idx → EReal) (bo : SB.Idx → EReal)

/-- A projection of finite arrays is finite. -/
theorem proj_isR (W : SW.Idx → EReal) (c : SB.Idx → EReal) (hX : ∀ i, IsR (X i)) (hW : ∀ i, IsR (W i)) (hc : ∀ i, IsR (c i))
    (b : Fin 2) (t : Fin 8) (n : Fin 1024) (e : Fin 512) : IsR (proj X W c b t n e) := by
  unfold proj
  exact (IsR.sum _ _ fun k _ => (hX _).mul (hW _)).add (hc _)

/-- The kernel's unscaled projection is the reference's, the factors commuted. -/
theorem kproj_eq (W : SW.Idx → EReal) (c : SB.Idx → EReal) (b : Fin 2) (t : Fin 8) (e : Fin 512) (n : Fin 1024) :
    (∑ d : Fin 512, W (ix2 e d) * X (ix4 b t n d)) + c (ix1 e) = proj X W c b t n e := by
  unfold proj
  exact congrArg (fun s => s + c (ix1 e)) (Finset.sum_congr rfl fun d _ => mul_comm _ _)

theorem Qk_eq (b : Fin 2) (t : Fin 8) (e : Fin 512) (n : Fin 1024) :
    Qk X Wq bq b t e n = Qr X Wq bq b t n e * Ideal.ofBits .f32 0x3E000000#32 := by
  unfold Qk Qr
  rw [kproj_eq]

theorem Kk_eq (b : Fin 2) (t : Fin 8) (e : Fin 512) (n : Fin 1024) :
    Kk X Wk bk b t e n = Kr X Wk bk b t n e := by
  unfold Kk Kr
  rw [kproj_eq]

theorem Vk_eq (b : Fin 2) (t : Fin 8) (e : Fin 512) (n : Fin 1024) :
    Vk X Wv bv b t e n = Vr X Wv bv b t n e := by
  unfold Vk Vr
  rw [kproj_eq]

/-! ## The logits: the scale moves across the contraction -/

variable (hX : ∀ i, IsR (X i)) (hWq : ∀ i, IsR (Wq i)) (hbq : ∀ i, IsR (bq i)) (hWk : ∀ i, IsR (Wk i)) (hbk : ∀ i, IsR (bk i))

include hX hWq hbq hWk hbk in
theorem Lk_eq (b : Fin 2) (t : Fin 8) (h : Fin 8) (n m : Fin 1024) :
    Lk X Wq bq Wk bk b t h n m = logit X Wq bq Wk bk b t h n m := by
  unfold Lk logit
  rw [sum_mul_isR Finset.univ (fun d : Fin 64 => Qr X Wq bq b t n (hd h d) * Kr X Wk bk b t m (hd h d)) _
    (fun d _ => IsR.mul (proj_isR X Wq bq hX hWq hbq b t n (hd h d)) (proj_isR X Wk bk hX hWk hbk b t m (hd h d))) ⟨_, ofBits_eighth⟩]
  exact Finset.sum_congr rfl fun d _ => by rw [Qk_eq, Kk_eq, mul_right_comm]

include hX hWq hbq hWk hbk in
theorem logit_isR (b : Fin 2) (t : Fin 8) (h : Fin 8) (n m : Fin 1024) : IsR (logit X Wq bq Wk bk b t h n m) := by
  unfold logit
  exact IsR.mul (IsR.sum _ _ fun d _ => IsR.mul (proj_isR X Wq bq hX hWq hbq b t n (hd h d)) (proj_isR X Wk bk hX hWk hbk b t m (hd h d)))
    ⟨_, ofBits_eighth⟩

include hX hWq hbq hWk hbk in
theorem Lk_isR (b : Fin 2) (t : Fin 8) (h : Fin 8) (n m : Fin 1024) : IsR (Lk X Wq bq Wk bk b t h n m) := by
  rw [Lk_eq X Wq bq Wk bk hX hWq hbq hWk hbk]
  exact logit_isR X Wq bq Wk bk hX hWq hbq hWk hbk b t h n m

/-! ## The shift is a finite real -/

include hX in
theorem xmean_isR (b : Fin 2) (t : Fin 8) (e : Fin 512) : IsR (xmean X b t e) := by
  unfold xmean
  rw [ofBits_1024, Ideal.div_coe (by norm_num : (1024 : ℝ) ≠ 0)]
  exact (IsR.sum _ _ fun n _ => hX _).mul (IsR.coe _)

include hX in
theorem tdiff_isR (b : Fin 2) (s : Fin 7) : IsR (tdiff X b s) := by
  unfold tdiff
  exact IsR.sum _ _ fun e _ => ((xmean_isR X hX b _ e).sub (xmean_isR X hX b _ e)).max
    ((xmean_isR X hX b _ e).sub (xmean_isR X hX b _ e)).neg

include hX in
theorem delta0_isR (b : Fin 2) (t : Fin 8) : IsR (delta0 X b t) := by
  unfold delta0
  split
  · exact IsR.zero
  · exact tdiff_isR X hX b _

include hX in
theorem delta_isR (b : Fin 2) (t : Fin 8) : IsR (delta X b t) := by
  unfold delta
  exact IsR.mul ⟨_, ofBits_one⟩ (delta0_isR X hX b t)

/-! ## The softmax is invariant under the shift -/

include hX hWq hbq hWk hbk in
theorem slogit_eq (b : Fin 2) (t : Fin 8) (h : Fin 8) (n m : Fin 1024) :
    slogit X Wq bq Wk bk b t h n m = Lk X Wq bq Wk bk b t h n m + delta X b t := by
  unfold slogit
  rw [Lk_eq X Wq bq Wk bk hX hWq hbq hWk hbk]

include hX hWq hbq hWk hbk in
theorem rowmax_eq (b : Fin 2) (t : Fin 8) (h : Fin 8) (n : Fin 1024) :
    rowmax X Wq bq Wk bk b t h n = Mk X Wq bq Wk bk b t h n + delta X b t := by
  unfold rowmax Mk
  exact (iSup_congr fun m => slogit_eq X Wq bq Wk bk hX hWq hbq hWk hbk b t h n m).trans (iSup_add_const _ _)

include hX hWq hbq hWk hbk in
theorem Mk_isR (b : Fin 2) (t : Fin 8) (h : Fin 8) (n : Fin 1024) : IsR (Mk X Wq bq Wk bk b t h n) := by
  unfold Mk
  exact IsR.iSup _ fun m => Lk_isR X Wq bq Wk bk hX hWq hbq hWk hbk b t h n m

include hX hWq hbq hWk hbk in
theorem pexp_eq (b : Fin 2) (t : Fin 8) (h : Fin 8) (n m : Fin 1024) :
    pexp X Wq bq Wk bk b t h n m = Pk X Wq bq Wk bk b t h n m := by
  unfold pexp Pk
  rw [slogit_eq X Wq bq Wk bk hX hWq hbq hWk hbk, rowmax_eq X Wq bq Wk bk hX hWq hbq hWk hbk,
    add_sub_add_right_isR (Lk_isR X Wq bq Wk bk hX hWq hbq hWk hbk b t h n m) (Mk_isR X Wq bq Wk bk hX hWq hbq hWk hbk b t h n)
      (delta_isR X hX b t)]

include hX hWq hbq hWk hbk in
theorem rowsum_eq (b : Fin 2) (t : Fin 8) (h : Fin 8) (n : Fin 1024) :
    rowsum X Wq bq Wk bk b t h n = Sk X Wq bq Wk bk b t h n := by
  unfold rowsum Sk
  exact Finset.sum_congr rfl fun m _ => pexp_eq X Wq bq Wk bk hX hWq hbq hWk hbk b t h n m

include hX hWq hbq hWk hbk in
theorem soft_eq (b : Fin 2) (t : Fin 8) (h : Fin 8) (n m : Fin 1024) :
    soft X Wq bq Wk bk b t h n m = Ak X Wq bq Wk bk b t h n m := by
  unfold soft Ak
  rw [pexp_eq X Wq bq Wk bk hX hWq hbq hWk hbk, rowsum_eq X Wq bq Wk bk hX hWq hbq hWk hbk]

/-! ## The weighted values and the output projection -/

include hX hWq hbq hWk hbk in
theorem Zk_eq (b : Fin 2) (t : Fin 8) (r : Fin 512) (n : Fin 1024) :
    Zk X Wq bq Wk bk Wv bv b t r n = Zr X Wq bq Wk bk Wv bv b t (headOf r) n (posOf r) := by
  unfold Zk Zr
  refine Finset.sum_congr rfl fun m _ => ?_
  rw [soft_eq X Wq bq Wk bk hX hWq hbq hWk hbk, Vk_eq, hd_headOf_posOf, mul_comm]

include hX hWq hbq hWk hbk in
theorem kerOutAt_eq (b : Fin 2) (t : Fin 8) (n : Fin 1024) (e : Fin 512) :
    kerOutAt X Wq bq Wk bk Wv bv Wo bo b t n e = refOutAt X Wq bq Wk bk Wv bv Wo bo b t n e := by
  unfold kerOutAt refOutAt
  exact congrArg (fun s => s + bo (ix1 e))
    (Finset.sum_congr rfl fun d _ => by rw [Zk_eq X Wq bq Wk bk Wv bv hX hWq hbq hWk hbk])

end

/-! ## The statement -/

/-- On finite arguments the kernel's closed form is the reference's, at every index. -/
theorem ker_eq_ref (X : SX.Idx → EReal) (Wq : SW.Idx → EReal) (bq : SB.Idx → EReal) (Wk : SW.Idx → EReal) (bk : SB.Idx → EReal)
    (Wv : SW.Idx → EReal) (bv : SB.Idx → EReal) (Wo : SW.Idx → EReal) (bo : SB.Idx → EReal)
    (hX : ∀ i, ∃ r : ℝ, X i = (r : EReal)) (hWq : ∀ i, ∃ r : ℝ, Wq i = (r : EReal)) (hbq : ∀ i, ∃ r : ℝ, bq i = (r : EReal))
    (hWk : ∀ i, ∃ r : ℝ, Wk i = (r : EReal)) (hbk : ∀ i, ∃ r : ℝ, bk i = (r : EReal))
    (hWv : ∀ i, ∃ r : ℝ, Wv i = (r : EReal)) (hbv : ∀ i, ∃ r : ℝ, bv i = (r : EReal))
    (hWo : ∀ i, ∃ r : ℝ, Wo i = (r : EReal)) (hbo : ∀ i, ∃ r : ℝ, bo i = (r : EReal))
    (b : Fin 2) (t : Fin 8) (n : Fin 1024) (e : Fin 512) :
    Cert.KerSpec.kerOutAt X Wq bq Wk bk Wv bv Wo bo b t n e = Cert.RefLeg.refOutAt X Wq bq Wk bk Wv bv Wo bo b t n e :=
  kerOutAt_eq X Wq bq Wk bk Wv bv Wo bo hX hWq hbq hWk hbk b t n e

/-- The same for the whole arrays. -/
theorem kerOut_eq_refOut (X : SX.Idx → EReal) (Wq : SW.Idx → EReal) (bq : SB.Idx → EReal) (Wk : SW.Idx → EReal) (bk : SB.Idx → EReal)
    (Wv : SW.Idx → EReal) (bv : SB.Idx → EReal) (Wo : SW.Idx → EReal) (bo : SB.Idx → EReal)
    (hX : ∀ i, ∃ r : ℝ, X i = (r : EReal)) (hWq : ∀ i, ∃ r : ℝ, Wq i = (r : EReal)) (hbq : ∀ i, ∃ r : ℝ, bq i = (r : EReal))
    (hWk : ∀ i, ∃ r : ℝ, Wk i = (r : EReal)) (hbk : ∀ i, ∃ r : ℝ, bk i = (r : EReal)) :
    Cert.KerSpec.kerOut X Wq bq Wk bk Wv bv Wo bo = Cert.RefLeg.refOut X Wq bq Wk bk Wv bv Wo bo :=
  funext fun i => kerOutAt_eq X Wq bq Wk bk Wv bv Wo bo hX hWq hbq hWk hbk (i 0) (i 1) (i 2) (i 3)

end Cert.Bridge

end
-- ==== Proof.RefValue.lean ====
/-
  The reference computes the closed form `refOut` (the specification module): its last stage, as a function of the nine
  argument arrays, is that function, index by index.

  The stages are read in program order at indices built from coordinates. A projection `X Wᵀ + c` is a contraction
  over the 512 input coordinates plus a broadcast bias; its head-major layout (a reshape of the model coordinate into
  (head, position) followed by a transposition) reads model coordinate `64 h + d`. The logits contract the 64 positions
  of a head and are then multiplied by the word `0.125`. The shift is built from the activations alone: token-means
  (a sum over the 1024 tokens from the word `+0.0`, which denotes `0`, divided by the word `1024.0`), the absolute
  differences of consecutive times summed over the 512 coordinates, a zero column put in front by a concatenation (read
  by the side the time coordinate falls on), the product with the word `1.0`, and a broadcast over heads and tokens.
  The softmax subtracts the row maximum — a maximum-reduction from the word `-∞`, which denotes `⊥`, so the fold of
  `max` is the supremum and the further maximum with `-∞` changes nothing —, exponentiates, sums and divides. The
  weights contract against the values over the 1024 key tokens; the heads are laid side by side again (model coordinate
  `k` reads head `k / 64`, position `k % 64`) and the output projection is one more contraction plus a bias.
-/
import proofs.«154566_j41051297415246_2_alg».proof.Proof.Gen.ReferenceIdeal.Read
import proofs.«154566_j41051297415246_2_alg».proof.Proof.RefSpec

noncomputable section

open scoped BigOperators

namespace Cert.RefLeg

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx

/-! ## The argument arrays' types -/

/-- An activation array. -/
abbrev CX : Type := (⟨S2x8x1024x512, .f32⟩ : BufTy).Contents (Elt Ideal)
/-- A projection matrix. -/
abbrev CW : Type := (⟨S512x512, .f32⟩ : BufTy).Contents (Elt Ideal)
/-- A bias vector. -/
abbrev CB : Type := (⟨S512, .f32⟩ : BufTy).Contents (Elt Ideal)

/-! ## The words -/

/-- The f32 word `0xFF800000` (`-∞`) denotes `⊥`, the least extended real. -/
theorem ofBits_negInf : Ideal.ofBits .f32 0xFF800000#32 = ⊥ := by
  simp [Ideal.ofBits, Ideal.ieee]

/-! ## A projection: the product with a matrix's transpose plus a bias, at (b, t, n, e) -/

theorem lidx_proj (b : Fin 2) (t : Fin 8) (n : Fin 1024) (e k : Fin 512) :
    lidx_main_v0 (ix4 b t n e) k = ix4 b t n k := by
  funext a; fin_cases a <;> rfl

theorem ridx_proj (b : Fin 2) (t : Fin 8) (n : Fin 1024) (e k : Fin 512) :
    ridx_main_v0 (ix4 b t n e) k = ix2 e k := by
  funext a; fin_cases a <;> rfl

theorem idx_bias (b : Fin 2) (t : Fin 8) (n : Fin 1024) (e : Fin 512) :
    idx_main_v1 (idx_main_v2 (ix4 b t n e)) = ix1 e := by
  funext a; fin_cases a; rfl

/-- The first projection's stage at `(b, t, n, e)`. -/
theorem v3_at (x0 : CX) (W : CW) (c : CB) (b : Fin 2) (t : Fin 8) (n : Fin 1024) (e : Fin 512) :
    val_main_v3 (F := Ideal) x0 W c (ix4 b t n e) = proj x0 W c b t n e := by
  rw [val_main_v3_apply, val_main_v0_apply, val_main_v2_apply, val_main_v1_apply]
  simp only [Ideal.addf_def, lidx_proj, ridx_proj, idx_bias]
  rfl

/-- The head-major layout of a projection reads model coordinate `64 h + d`. -/
theorem idx_heads (b : Fin 2) (t : Fin 8) (h : Fin 8) (n : Fin 1024) (d : Fin 64) :
    idx_main_v4 (idx_main_v5 (ix5 b t h n d)) = ix4 b t n (hd h d) := by
  have hb := b.isLt; have ht := t.isLt; have hh := h.isLt; have hn := n.isLt; have hdd := d.isLt
  funext a
  match a with
  | ⟨0, _⟩ => exact Fin.ext (by show ((((b.val * 8 + t.val) * 1024 + n.val) * 8 + h.val) * 64 + d.val) / 4194304 = b.val; omega)
  | ⟨1, _⟩ => exact Fin.ext (by show ((((b.val * 8 + t.val) * 1024 + n.val) * 8 + h.val) * 64 + d.val) / 524288 % 8 = t.val; omega)
  | ⟨2, _⟩ => exact Fin.ext (by show ((((b.val * 8 + t.val) * 1024 + n.val) * 8 + h.val) * 64 + d.val) / 512 % 1024 = n.val; omega)
  | ⟨3, _⟩ => exact Fin.ext (by show ((((b.val * 8 + t.val) * 1024 + n.val) * 8 + h.val) * 64 + d.val) % 512 = 64 * h.val + d.val; omega)

/-- A projection laid out head-major, at `(b, t, h, n, d)`. -/
theorem v5_at (x0 : CX) (W : CW) (c : CB) (b : Fin 2) (t : Fin 8) (h : Fin 8) (n : Fin 1024) (d : Fin 64) :
    val_main_v5 (F := Ideal) x0 W c (ix5 b t h n d) = proj x0 W c b t n (hd h d) := by
  rw [val_main_v5_apply, val_main_v4_apply, idx_heads, v3_at]

/-- The keys and the values are the same stages of other arguments. -/
theorem v11_at (x0 : CX) (W : CW) (c : CB) (b : Fin 2) (t : Fin 8) (h : Fin 8) (n : Fin 1024) (d : Fin 64) :
    val_main_v11 (F := Ideal) x0 W c (ix5 b t h n d) = proj x0 W c b t n (hd h d) := v5_at x0 W c b t h n d

theorem v17_at (x0 : CX) (W : CW) (c : CB) (b : Fin 2) (t : Fin 8) (h : Fin 8) (n : Fin 1024) (d : Fin 64) :
    val_main_v17 (F := Ideal) x0 W c (ix5 b t h n d) = proj x0 W c b t n (hd h d) := v5_at x0 W c b t h n d

/-! ## The logits -/

theorem lidx_logit (b : Fin 2) (t : Fin 8) (h : Fin 8) (n m : Fin 1024) (k : Fin 64) :
    lidx_main_v18 (ix5 b t h n m) k = ix5 b t h n k := by
  funext a; fin_cases a <;> rfl

theorem ridx_logit (b : Fin 2) (t : Fin 8) (h : Fin 8) (n m : Fin 1024) (k : Fin 64) :
    ridx_main_v18 (ix5 b t h n m) k = ix5 b t h m k := by
  funext a; fin_cases a <;> rfl

theorem v20_at (x0 : CX) (x1 : CW) (x2 : CB) (x3 : CW) (x4 : CB) (b : Fin 2) (t : Fin 8) (h : Fin 8) (n m : Fin 1024) :
    val_main_v20 (F := Ideal) x0 x1 x2 x3 x4 (ix5 b t h n m) = logit x0 x1 x2 x3 x4 b t h n m := by
  rw [val_main_v20_apply, val_main_v18_apply, val_main_v19_apply, val_main_cst_apply]
  simp only [Ideal.mulf_def, Ideal.ofBits_def, lidx_logit, ridx_logit, v5_at, v11_at]
  rfl

/-! ## The shift added to the logits -/

theorem idx_tokens (b : Fin 2) (t : Fin 8) (e : Fin 512) (k : Fin 1024) :
    idx_main_v21 (ix3 b t e) k = ix4 b t k e := by
  funext a; fin_cases a <;> rfl

/-- The token-mean at `(b, t, e)`. -/
theorem v23_at (x0 : CX) (b : Fin 2) (t : Fin 8) (e : Fin 512) :
    val_main_v23 (F := Ideal) x0 (ix3 b t e) = xmean x0 b t e := by
  rw [val_main_v23_apply, val_main_v21_apply, val_main_v22_apply, val_main_cst_0_apply, val_main_cst_1_apply]
  simp only [Ideal.hostDivf_def, Ideal.ofBits_def, Ideal.ofBits_zero_f32, zero_add, idx_tokens]
  rfl

theorem idx_later (b : Fin 2) (s : Fin 7) (e : Fin 512) :
    idx_main_v24 (ix3 b s e) = ix3 b (⟨1 + s.val, by have := s.isLt; omega⟩ : Fin 8) e := by
  funext a; fin_cases a <;> rfl

theorem idx_earlier (b : Fin 2) (s : Fin 7) (e : Fin 512) :
    idx_main_v25 (ix3 b s e) = ix3 b (⟨s.val, by have := s.isLt; omega⟩ : Fin 8) e := by
  funext a; fin_cases a <;> rfl

theorem idx_coords (b : Fin 2) (s : Fin 7) (k : Fin 512) :
    idx_main_v28 (ix2 b s) k = ix3 b s k := by
  funext a; fin_cases a <;> rfl

/-- The ℓ¹ distance between consecutive token-means at `(b, s)`. -/
theorem v28_at (x0 : CX) (b : Fin 2) (s : Fin 7) :
    val_main_v28 (F := Ideal) x0 (ix2 b s) = tdiff x0 b s := by
  rw [val_main_v28_apply, val_main_cst_2_apply]
  simp only [val_main_v27_apply, val_main_v26_apply, val_main_v24_apply, val_main_v25_apply, idx_coords, idx_later, idx_earlier,
    v23_at, Ideal.ofBits_def, Ideal.ofBits_zero_f32, zero_add, Ideal.hostAbsf_def, Ideal.subf_def]
  rfl

/-- The concatenation of a zero column and the seven distances, at `(b, t)`. -/
theorem v31_at (x0 : CX) (b : Fin 2) (t : Fin 8) :
    val_main_v31 (F := Ideal) x0 (ix2 b t) = delta0 x0 b t := by
  unfold val_main_v31 delta0
  by_cases h : t.val = 0
  · rw [dif_pos h]
    refine (concatenate_pair_apply_left (1 : Fin S2x8.rank) _ _ concatenates_S2x1_S2x7_S2x8_d1 (ix2 b t) rfl
      (ix2 b (0 : Fin 1)) ?_).trans ?_
    · intro c
      match c with
      | ⟨0, _⟩ => rfl
      | ⟨1, _⟩ => exact h.symm
    · rw [val_main_v30_apply, val_main_cst_3_apply]
      exact Ideal.ofBits_zero_f32
  · rw [dif_neg h]
    refine (concatenate_pair_apply_right (1 : Fin S2x8.rank) _ _ concatenates_S2x1_S2x7_S2x8_d1 (ix2 b t) rfl rfl
      (ix2 b (⟨t.val - 1, by have := t.isLt; omega⟩ : Fin 7)) ?_ ?_).trans ?_
    · intro c hc
      match c with
      | ⟨0, _⟩ => rfl
      | ⟨1, _⟩ => exact absurd rfl hc
    · show t.val - 1 + 1 = t.val
      omega
    · exact v28_at x0 b _

/-- The shift, broadcast over heads and tokens. -/
theorem v35_at (x0 : CX) (b : Fin 2) (t : Fin 8) (h : Fin 8) (n m : Fin 1024) :
    val_main_v35 (F := Ideal) x0 (ix5 b t h n m) = delta x0 b t := by
  rw [val_main_v35_apply, val_main_v34_apply, val_main_v33_apply, val_main_cst_4_apply, val_main_v32_apply]
  have e : idx_main_v32 (idx_main_v35 (ix5 b t h n m)) = ix2 b t := by funext a; fin_cases a <;> rfl
  rw [e, v31_at]
  rfl

/-! ## The softmax over the key tokens -/

/-- The shifted logit at `(b, t, h, n, m)`. -/
theorem v36_at (x0 : CX) (x1 : CW) (x2 : CB) (x3 : CW) (x4 : CB) (b : Fin 2) (t : Fin 8) (h : Fin 8) (n m : Fin 1024) :
    val_main_v36 (F := Ideal) x0 x1 x2 x3 x4 (ix5 b t h n m) = slogit x0 x1 x2 x3 x4 b t h n m := by
  rw [val_main_v36_apply, v20_at, v35_at]
  rfl

/-- The reduced index `(b, t, h, n)` with the key token `m` put back is `(b, t, h, n, m)`. -/
theorem lift_keys (hred : S2x8x8x1024x1024.Reduces [4] S2x8x8x1024) (b : Fin 2) (t : Fin 8) (h : Fin 8) (n m : Fin 1024) :
    hred.lift (ix4 b t h n) m = ix5 b t h n m := by
  funext a; apply Fin.ext
  fin_cases a <;> rfl

/-- On the extended reals the fold of `max` from `⊥` over all of a finite type is the supremum. -/
theorem fold_max_bot_eq_iSup {ι : Type} [Fintype ι] (f : ι → EReal) :
    (Finset.univ : Finset ι).fold max ⊥ f = ⨆ i, f i := by
  rw [← Finset.sup_univ_eq_iSup]; rfl

/-- The maximum-reduction over the key tokens from `-∞`, at `(b, t, h, n)`: the supremum of the shifted logits. -/
theorem v37_at (x0 : CX) (x1 : CW) (x2 : CB) (x3 : CW) (x4 : CB) (b : Fin 2) (t : Fin 8) (h : Fin 8) (n : Fin 1024) :
    val_main_v37 (F := Ideal) x0 x1 x2 x3 x4 (ix4 b t h n) = rowmax x0 x1 x2 x3 x4 b t h n := by
  have hred : S2x8x8x1024x1024.Reduces [4] S2x8x8x1024 := by decide
  unfold val_main_v37
  rw [Host.reduce_eq_fold_single (FloatOps.maximumf (F := Ideal) (φ := .f32)) _ _ reducesTo_S2x8x8x1024x1024_S2x8x8x1024_d4 hred h_S_,
    val_main_cst_5_apply]
  show (Finset.univ : Finset (Fin 1024)).fold max (Ideal.ofBits .f32 0xFF800000#32)
    (fun m => val_main_v36 (F := Ideal) x0 x1 x2 x3 x4 (hred.lift (ix4 b t h n) m)) = _
  rw [ofBits_negInf]
  refine (fold_max_bot_eq_iSup (ι := Fin 1024) _).trans ?_
  unfold rowmax
  exact iSup_congr fun m => by rw [lift_keys, v36_at]

/-- The maximum with `-∞` changes nothing. -/
theorem v39_at (x0 : CX) (x1 : CW) (x2 : CB) (x3 : CW) (x4 : CB) (b : Fin 2) (t : Fin 8) (h : Fin 8) (n : Fin 1024) :
    val_main_v39 (F := Ideal) x0 x1 x2 x3 x4 (ix4 b t h n) = rowmax x0 x1 x2 x3 x4 b t h n := by
  rw [val_main_v39_apply, val_main_v38_apply, val_main_cst_6_apply, v37_at]
  simp only [Ideal.maximumf_def, Ideal.ofBits_def, ofBits_negInf]
  exact max_eq_right bot_le

theorem idx_row (b : Fin 2) (t : Fin 8) (h : Fin 8) (n m : Fin 1024) :
    idx_main_v40 (idx_main_v41 (ix5 b t h n m)) = ix4 b t h n := by
  funext a; fin_cases a <;> rfl

theorem v41_at (x0 : CX) (x1 : CW) (x2 : CB) (x3 : CW) (x4 : CB) (b : Fin 2) (t : Fin 8) (h : Fin 8) (n m : Fin 1024) :
    val_main_v41 (F := Ideal) x0 x1 x2 x3 x4 (ix5 b t h n m) = rowmax x0 x1 x2 x3 x4 b t h n := by
  rw [val_main_v41_apply, val_main_v40_apply, idx_row, v39_at]

/-- The exponential of the shifted logit less the row maximum. -/
theorem v43_at (x0 : CX) (x1 : CW) (x2 : CB) (x3 : CW) (x4 : CB) (b : Fin 2) (t : Fin 8) (h : Fin 8) (n m : Fin 1024) :
    val_main_v43 (F := Ideal) x0 x1 x2 x3 x4 (ix5 b t h n m) = pexp x0 x1 x2 x3 x4 b t h n m := by
  rw [val_main_v43_apply, val_main_v42_apply, v36_at, v41_at]
  rfl

theorem idx_keys (b : Fin 2) (t : Fin 8) (h : Fin 8) (n : Fin 1024) (k : Fin 1024) :
    idx_main_v44 (ix4 b t h n) k = ix5 b t h n k := by
  funext a; fin_cases a <;> rfl

/-- The row's sum of exponentials. -/
theorem v44_at (x0 : CX) (x1 : CW) (x2 : CB) (x3 : CW) (x4 : CB) (b : Fin 2) (t : Fin 8) (h : Fin 8) (n : Fin 1024) :
    val_main_v44 (F := Ideal) x0 x1 x2 x3 x4 (ix4 b t h n) = rowsum x0 x1 x2 x3 x4 b t h n := by
  rw [val_main_v44_apply, val_main_cst_7_apply]
  simp only [Ideal.ofBits_def, Ideal.ofBits_zero_f32, zero_add, idx_keys, v43_at]
  rfl

theorem idx_row' (b : Fin 2) (t : Fin 8) (h : Fin 8) (n m : Fin 1024) :
    idx_main_v45 (idx_main_v46 (ix5 b t h n m)) = ix4 b t h n := by
  funext a; fin_cases a <;> rfl

theorem v46_at (x0 : CX) (x1 : CW) (x2 : CB) (x3 : CW) (x4 : CB) (b : Fin 2) (t : Fin 8) (h : Fin 8) (n m : Fin 1024) :
    val_main_v46 (F := Ideal) x0 x1 x2 x3 x4 (ix5 b t h n m) = rowsum x0 x1 x2 x3 x4 b t h n := by
  rw [val_main_v46_apply, val_main_v45_apply, idx_row', v44_at]

/-- The attention weights. -/
theorem v47_at (x0 : CX) (x1 : CW) (x2 : CB) (x3 : CW) (x4 : CB) (b : Fin 2) (t : Fin 8) (h : Fin 8) (n m : Fin 1024) :
    val_main_v47 (F := Ideal) x0 x1 x2 x3 x4 (ix5 b t h n m) = soft x0 x1 x2 x3 x4 b t h n m := by
  rw [val_main_v47_apply, v43_at, v46_at]
  rfl

/-! ## The weighted values and the output projection -/

theorem lidx_weights (b : Fin 2) (t : Fin 8) (h : Fin 8) (n : Fin 1024) (d : Fin 64) (k : Fin 1024) :
    lidx_main_v48 (ix5 b t h n d) k = ix5 b t h n k := by
  funext a; fin_cases a <;> rfl

theorem ridx_values (b : Fin 2) (t : Fin 8) (h : Fin 8) (n : Fin 1024) (d : Fin 64) (k : Fin 1024) :
    ridx_main_v48 (ix5 b t h n d) k = ix5 b t h k d := by
  funext a; fin_cases a <;> rfl

/-- A head's output at `(b, t, h, n, d)`. -/
theorem v48_at (x0 : CX) (x1 : CW) (x2 : CB) (x3 : CW) (x4 : CB) (x5 : CW) (x6 : CB)
    (b : Fin 2) (t : Fin 8) (h : Fin 8) (n : Fin 1024) (d : Fin 64) :
    val_main_v48 (F := Ideal) x0 x1 x2 x3 x4 x5 x6 (ix5 b t h n d) = Zr x0 x1 x2 x3 x4 x5 x6 b t h n d := by
  rw [val_main_v48_apply]
  simp only [lidx_weights, ridx_values, v47_at, v17_at]
  rfl

/-- The heads laid side by side again: model coordinate `k` reads head `k / 64` at position `k % 64`. -/
theorem idx_merge (b : Fin 2) (t : Fin 8) (n : Fin 1024) (k : Fin 512) :
    idx_main_v49 (idx_main_v50 (ix4 b t n k)) = ix5 b t (headOf k) n (posOf k) := by
  have hb := b.isLt; have ht := t.isLt; have hn := n.isLt; have hk := k.isLt
  funext a
  match a with
  | ⟨0, _⟩ => exact Fin.ext (by show (((b.val * 8 + t.val) * 1024 + n.val) * 512 + k.val) / 4194304 = b.val; omega)
  | ⟨1, _⟩ => exact Fin.ext (by show (((b.val * 8 + t.val) * 1024 + n.val) * 512 + k.val) / 524288 % 8 = t.val; omega)
  | ⟨2, _⟩ => exact Fin.ext (by show (((b.val * 8 + t.val) * 1024 + n.val) * 512 + k.val) / 64 % 8 = k.val / 64; omega)
  | ⟨3, _⟩ => exact Fin.ext (by show (((b.val * 8 + t.val) * 1024 + n.val) * 512 + k.val) / 512 % 1024 = n.val; omega)
  | ⟨4, _⟩ => exact Fin.ext (by show (((b.val * 8 + t.val) * 1024 + n.val) * 512 + k.val) % 64 = k.val % 64; omega)

theorem v50_at (x0 : CX) (x1 : CW) (x2 : CB) (x3 : CW) (x4 : CB) (x5 : CW) (x6 : CB)
    (b : Fin 2) (t : Fin 8) (n : Fin 1024) (k : Fin 512) :
    val_main_v50 (F := Ideal) x0 x1 x2 x3 x4 x5 x6 (ix4 b t n k) = Zr x0 x1 x2 x3 x4 x5 x6 b t (headOf k) n (posOf k) := by
  rw [val_main_v50_apply, val_main_v49_apply, idx_merge, v48_at]

theorem lidx_out (b : Fin 2) (t : Fin 8) (n : Fin 1024) (e k : Fin 512) :
    lidx_main_v51 (ix4 b t n e) k = ix4 b t n k := by
  funext a; fin_cases a <;> rfl

theorem ridx_out (b : Fin 2) (t : Fin 8) (n : Fin 1024) (e k : Fin 512) :
    ridx_main_v51 (ix4 b t n e) k = ix2 e k := by
  funext a; fin_cases a <;> rfl

theorem idx_bias_out (b : Fin 2) (t : Fin 8) (n : Fin 1024) (e : Fin 512) :
    idx_main_v52 (idx_main_v53 (ix4 b t n e)) = ix1 e := by
  funext a; fin_cases a; rfl

/-- The result at `(b, t, n, e)`. -/
theorem v54_at (x0 : CX) (x1 : CW) (x2 : CB) (x3 : CW) (x4 : CB) (x5 : CW) (x6 : CB) (x7 : CW) (x8 : CB)
    (b : Fin 2) (t : Fin 8) (n : Fin 1024) (e : Fin 512) :
    val_main_v54 (F := Ideal) x0 x1 x2 x3 x4 x5 x6 x7 x8 (ix4 b t n e) = refOutAt x0 x1 x2 x3 x4 x5 x6 x7 x8 b t n e := by
  rw [val_main_v54_apply, val_main_v51_apply, val_main_v53_apply, val_main_v52_apply]
  simp only [Ideal.addf_def, lidx_out, ridx_out, idx_bias_out, v50_at]
  rfl

/-! ## The reference is the closed form -/

/-- The reference's last stage, as a function of the nine argument arrays, is `refOut` of them. -/
theorem ref_is_refOut (x0 : CX) (x1 : CW) (x2 : CB) (x3 : CW) (x4 : CB) (x5 : CW) (x6 : CB) (x7 : CW) (x8 : CB) :
    val_main_v54 (F := Ideal) x0 x1 x2 x3 x4 x5 x6 x7 x8 = refOut x0 x1 x2 x3 x4 x5 x6 x7 x8 := by
  funext i
  obtain ⟨b, t, n, e, rfl⟩ : ∃ (b : Fin 2) (t : Fin 8) (n : Fin 1024) (e : Fin 512), i = ix4 b t n e :=
    ⟨i 0, i 1, i 2, i 3, eq_ix4 i⟩
  rw [v54_at, refOut_apply]

/-- Every execution's result term of the reference is `refOut` of the argument arrays' launch contents. -/
theorem res_is_refOut (m : (ℓ : Loc nD τ sig) → Buf (Elt Ideal) ℓ) (c : Dev nD) :
    Cert.ReferenceIdeal.Value.res_main_v54 (F := Ideal) m c
      = refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  rw [val_main_v54_eq]
  exact ref_is_refOut _ _ _ _ _ _ _ _ _

end Cert.RefLeg

end
-- ==== Proof.RefSide.lean ====
/-
  The reference's result, from arguments that agree with the kernel's and are finite, is the kernel's closed form.

  The reference's last stage is `refOut` of its own argument arrays; those are the kernel's arrays; under the
  precondition the kernel's arrays hold reals only; and on such arrays `refOut` and `kerOut` are one function.
-/
import proofs.«154566_j41051297415246_2_alg».proof.Defs
import proofs.«154566_j41051297415246_2_alg».proof.Proof.Finite
import proofs.«154566_j41051297415246_2_alg».proof.Proof.Bridge
import proofs.«154566_j41051297415246_2_alg».proof.Proof.RefValue

noncomputable section

open Idealize.ShloMosaic Idealize.SL.Sem Cert.ReferenceIdeal.Gen

namespace Cert.RefSide

/-- The reference side of the algebraic claim: the reference run's result term, from a memory m' agreeing with the
    kernel's m on the nine arguments, under the claim's precondition on m, is the kernel's closed form of m's arrays. -/
theorem ref_side [Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (c : Dev Cert.KernelIdeal.nD) :
    Cert.ReferenceIdeal.Value.res_main_v54 (F := Ideal) m' c
      = Cert.KerSpec.kerOut (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8)) := by
  obtain ⟨f0, f1, f2, f3, f4, -⟩ := Cert.FiniteLeg.finite_of_pre m hpre c
  obtain ⟨e0, e1, e2, e3, e4, e5, e6, e7, e8⟩ := hagree c
  rw [Cert.RefLeg.res_is_refOut, e0, e1, e2, e3, e4, e5, e6, e7, e8]
  exact (Cert.Bridge.kerOut_eq_refOut _ _ _ _ _ _ _ _ _ f0 f1 f2 f3 f4).symm

end Cert.RefSide

end
-- ==== Proof.lean ====
/-
  Multi-head attention over blocks of 1024 tokens (2 · 8 blocks, model width 512, 8 heads of width 64): the kernel
  against its plain reference, as functions of the nine argument arrays X, Wq, bq, Wk, bk, Wv, bv, Wo, bo.

  The kernel visits the grid (block of tokens, head). At head 0 it computes, for the block's tokens x, the three
  projections q = (Wq xᵀ + bq) / 8, k = Wk xᵀ + bk, v = Wv xᵀ + bv as 512 × 1024 arrays and keeps them; at every head h
  it takes the 64 rows of that head, forms the logits L[n, m] = Σ_d q[64h + d, n] · k[64h + d, m], the row-wise softmax
  A = exp(L − max_m L) / Σ_m exp(L − max_m L), and writes the 64 rows z[64h + d, n] = Σ_m v[64h + d, m] · A[n, m] into a
  fourth 512 × 1024 array; at the last head that array is complete and the block's output is zᵀ Woᵀ + bo. The frame
  claims follow the same course: after each grid point the three projection arrays hold the projections of the point's
  block of tokens, and the fourth agrees with the attention outputs on the bands of the heads done so far
  (Proof/FrameI, and the same text at the word-level instance in Proof/FrameB).

  The reference scales the logits after the 64-term sum instead of the queries before it, and adds to every logit of a
  block of tokens one number δ — the ℓ¹ distance between the token-means of consecutive time steps — before the softmax.
  Over the extended reals the two agree when the inputs are finite: then every projection and every logit is a real,
  so the factor 1/8 moves across the finite sum; δ is a real, so the row maximum of the shifted logits is the shifted
  row maximum, the differences L − max L are unchanged, and the softmax weights are equal on the nose; the remaining
  contractions differ by the order of a product and by naming a model coordinate k as (head k / 64, position k % 64).
  Proof/Bridge.lean proves this between the two closed forms, Proof/RefValue.lean that the reference computes its closed
  form, Proof/KerPay*.lean and Proof/FrameI/Glue*.lean that the kernel's arithmetic and blocks are its closed form,
  Proof/FrameI/Value.lean that the sixteen written-back blocks tile the output, and Proof/Finite.lean reads the
  finiteness of the arrays off the precondition. Nothing is rewritten between the word-level kernel and its idealized
  reading, so that claim is trivial.
-/
import proofs.«154566_j41051297415246_2_alg».proof.Defs
import proofs.«154566_j41051297415246_2_alg».proof.Proof.Gen.Kernel
import proofs.«154566_j41051297415246_2_alg».proof.Proof.Gen.KernelIdeal
import proofs.«154566_j41051297415246_2_alg».proof.Proof.Gen.ReferenceIdeal
import proofs.«154566_j41051297415246_2_alg».proof.Proof.Gen.Pre_finite_inputs
import proofs.«154566_j41051297415246_2_alg».proof.Proof.Gen.ReferenceIdeal.Run
import proofs.«154566_j41051297415246_2_alg».proof.Proof.FrameB.Sound
import proofs.«154566_j41051297415246_2_alg».proof.Proof.FrameI.Value
import proofs.«154566_j41051297415246_2_alg».proof.Proof.RefSide

noncomputable section

namespace Cert.Proof

open Idealize.ShloMosaic Idealize.ShloMosaic.TcCoe Idealize.SL.Sem

/-- The word-level kernel runs, faults nowhere and leaves its arguments as launched. -/
theorem frame_kernel : Cert.frame_Kernel := fun m ρ _ => Cert.Kernel.Body.frame m ρ

/-- So does the kernel read over the extended reals. -/
theorem frame_kernelIdeal : Cert.frame_KernelIdeal := fun m ρ _ => Cert.KernelIdeal.Body.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the kernel's closed form of the argument arrays: the kernel by its run, the reference by its
    own closed form and the equality of the two on finite inputs. -/
theorem algebraic : Cert.algebraic_KernelIdeal_ReferenceIdeal := by
  intro m ρ m' ρ' hpre hagree
  refine ⟨fun c => Cert.KerSpec.kerOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    Cert.KernelIdeal.Body.run m ρ, ?_⟩
  exact (θ_run Cert.ReferenceIdeal.defs _ _).mono
    (fun _ h c => ⟨(h c).1.trans (Cert.RefSide.ref_side m m' hpre hagree c), (h c).2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
